-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x32 : Shape := ⟨2, ![50000, 32]⟩
abbrev S2000000 : Shape := ⟨1, ![2000000]⟩
abbrev S64x16 : Shape := ⟨2, ![64, 16]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S64x16 : S_.BroadcastsInDim S64x16 (![] : Fin 0 → Fin S64x16.rank)
  reducesTo_S64x16_S_d0_1 : S64x16.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part5 {F : FTy → Type} [FloatOps F] (main_arg24 : FVec F S16x16 .f32) (main_arg25 : FVec F S16 .f32) (main_v83 : IVec S_ 1) (main_v84 : FVec F S16x16 .f32) (main_cst_32 : FVec F S_ .f32) : IVec S_ 1 :=
  let main_v85 : FVec F S16x16 .f32 := broadcastInDim S16x16 ![] bcast_S_S16x16 main_cst_32
  let main_v86 : IVec S16x16 1 := cmpf .olt main_v84 main_v85
  let main_c_33 : IVec S_ 1 := constantI S_ 1 1#1
  let main_v87 : IVec S_ 1 := (fun x v => Host.reduce IntOp.andi x v reducesTo_S16x16_S_d0_1 h_S_) main_v86 main_c_33
  let main_v88 : IVec S_ 1 := andi main_v83 main_v87
  let main_v89 : FVec F S16x16 .f32 := Host.absf main_arg24
  let main_cst_34 : FVec F S_ .f32 := constant S_ .f32 0x7F800000#32
  let main_v90 : FVec F S16x16 .f32 := broadcastInDim S16x16 ![] bcast_S_S16x16 main_cst_34
  let main_v91 : IVec S16x16 1 := cmpf .olt main_v89 main_v90
  let main_c_35 : IVec S_ 1 := constantI S_ 1 1#1
  let main_v92 : IVec S_ 1 := (fun x v => Host.reduce IntOp.andi x v reducesTo_S16x16_S_d0_1 h_S_) main_v91 main_c_35
  let main_v93 : IVec S_ 1 := andi main_v88 main_v92
  let main_v94 : FVec F S16 .f32 := Host.absf main_arg25
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  main_v98

def fn_part4 {F : FTy → Type} [FloatOps F] (main_arg20 : FVec F S16x16 .f32) (main_arg21 : FVec F S16x16 .f32) (main_arg22 : FVec F S16 .f32) (main_arg23 : FVec F S16x16 .f32) (main_arg24 : FVec F S16x16 .f32) (main_arg25 : FVec F S16 .f32) (main_v63 : IVec S_ 1) (main_v67 : IVec S_ 1) : IVec S_ 1 :=
  let main_v68 : IVec S_ 1 := andi main_v63 main_v67
  let main_v69 : FVec F S16x16 .f32 := Host.absf main_arg20
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16x16 .f32 := Host.absf main_arg21
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16 .f32 := Host.absf main_arg22
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x16 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S16x16 .f32) (main_arg18 : FVec F S16x16 .f32) (main_arg19 : FVec F S16 .f32) (main_arg20 : FVec F S16x16 .f32) (main_arg21 : FVec F S16x16 .f32) (main_arg22 : FVec F S16 .f32) (main_arg23 : FVec F S16x16 .f32) (main_arg24 : FVec F S16x16 .f32) (main_arg25 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg17
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16x16 .f32 := Host.absf main_arg18
  let main_cst_22 : FVec F S_ .f32 := constant S_ .f32 0x7F800000#32
  let main_v60 : FVec F S16x16 .f32 := broadcastInDim S16x16 ![] bcast_S_S16x16 main_cst_22
  let main_v61 : IVec S16x16 1 := cmpf .olt main_v59 main_v60
  let main_c_23 : IVec S_ 1 := constantI S_ 1 1#1
  let main_v62 : IVec S_ 1 := (fun x v => Host.reduce IntOp.andi x v reducesTo_S16x16_S_d0_1 h_S_) main_v61 main_c_23
  let main_v63 : IVec S_ 1 := andi main_v58 main_v62
  let main_v64 : FVec F S16 .f32 := Host.absf main_arg19
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg20 main_arg21 main_arg22 main_arg23 main_arg24 main_arg25 main_v63 main_v67

def fn_part2 {F : FTy → Type} [FloatOps F] (main_arg13 : FVec F S16 .f32) (main_arg14 : FVec F S64x16 .f32) (main_arg15 : FVec F S64x16 .f32) (main_arg16 : FVec F S16 .f32) (main_arg17 : FVec F S16x16 .f32) (main_arg18 : FVec F S16x16 .f32) (main_arg19 : FVec F S16 .f32) (main_arg20 : FVec F S16x16 .f32) (main_arg21 : FVec F S16x16 .f32) (main_arg22 : FVec F S16 .f32) (main_arg23 : FVec F S16x16 .f32) (main_arg24 : FVec F S16x16 .f32) (main_arg25 : FVec F S16 .f32) (main_v33 : IVec S_ 1) : IVec S_ 1 :=
  let main_v34 : FVec F S16 .f32 := Host.absf main_arg13
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S64x16 .f32 := Host.absf main_arg14
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S64x16 .f32 := Host.absf main_arg15
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg16
  let main_cst_18 : FVec F S_ .f32 := constant S_ .f32 0x7F800000#32
  let main_v50 : FVec F S16 .f32 := broadcastInDim S16 ![] bcast_S_S16 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S16 .f32) (main_arg11 : FVec F S32x16 .f32) (main_arg12 : FVec F S64x16 .f32) (main_arg13 : FVec F S16 .f32) (main_arg14 : FVec F S64x16 .f32) (main_arg15 : FVec F S64x16 .f32) (main_arg16 : FVec F S16 .f32) (main_arg17 : FVec F S16x16 .f32) (main_arg18 : FVec F S16x16 .f32) (main_arg19 : FVec F S16 .f32) (main_arg20 : FVec F S16x16 .f32) (main_arg21 : FVec F S16x16 .f32) (main_arg22 : FVec F S16 .f32) (main_arg23 : FVec F S16x16 .f32) (main_arg24 : FVec F S16x16 .f32) (main_arg25 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg10
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg11
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S64x16 .f32 := Host.absf main_arg12
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : FVec F S200000x64 .f32) (main_arg1 : FVec F S50000x32 .f32) (main_arg2 : IVec S2000000 32) (main_arg3 : IVec S2000000 32) (main_arg4 : IVec S2000000 32) (main_arg5 : IVec S2000000 32) (main_arg6 : IVec S2000000 32) (main_arg7 : IVec S2000000 32) (main_arg8 : FVec F S64x16 .f32) (main_arg9 : FVec F S32x16 .f32) (main_arg10 : FVec F S16 .f32) (main_arg11 : FVec F S32x16 .f32) (main_arg12 : FVec F S64x16 .f32) (main_arg13 : FVec F S16 .f32) (main_arg14 : FVec F S64x16 .f32) (main_arg15 : FVec F S64x16 .f32) (main_arg16 : FVec F S16 .f32) (main_arg17 : FVec F S16x16 .f32) (main_arg18 : FVec F S16x16 .f32) (main_arg19 : FVec F S16 .f32) (main_arg20 : FVec F S16x16 .f32) (main_arg21 : FVec F S16x16 .f32) (main_arg22 : FVec F S16 .f32) (main_arg23 : FVec F S16x16 .f32) (main_arg24 : FVec F S16x16 .f32) (main_arg25 : FVec F S16 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S64x16 .f32 := Host.absf main_arg8
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S32x16 .f32 := Host.absf main_arg9
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S200000x64 : Shape := ⟨2, ![200000, 64]⟩
abbrev S50000x32 : Shape := ⟨2, ![50000, 32]⟩
abbrev S2000000 : Shape := ⟨1, ![2000000]⟩
abbrev S64x16 : Shape := ⟨2, ![64, 16]⟩
abbrev S32x16 : Shape := ⟨2, ![32, 16]⟩
abbrev S16 : Shape := ⟨1, ![16]⟩
abbrev S16x16 : Shape := ⟨2, ![16, 16]⟩
abbrev S_ : Shape := ⟨0, ![]⟩
abbrev S50000 : Shape := ⟨1, ![50000]⟩
abbrev S2000000x1 : Shape := ⟨2, ![2000000, 1]⟩
abbrev S50000x1 : Shape := ⟨2, ![50000, 1]⟩
abbrev S200000 : Shape := ⟨1, ![200000]⟩
abbrev S200000x1 : Shape := ⟨2, ![200000, 1]⟩
abbrev S200000x16 : Shape := ⟨2, ![200000, 16]⟩
abbrev S8000x64 : Shape := ⟨2, ![8000, 64]⟩
abbrev S8000x16 : Shape := ⟨2, ![8000, 16]⟩
abbrev S50000x16 : Shape := ⟨2, ![50000, 16]⟩
abbrev S10000x32 : Shape := ⟨2, ![10000, 32]⟩
abbrev S10000x16 : Shape := ⟨2, ![10000, 16]⟩
abbrev S2000000x16 : Shape := ⟨2, ![2000000, 16]⟩
abbrev S1x16 : Shape := ⟨2, ![1, 16]⟩

abbrev nBuf : Space → Nat
  | .hbm => 173
  | .vmem => 62
  | .smem => 0
  | _ => 0

abbrev hbmTy0_0 (i : Nat) : BufTy := match i % 128 with
  | 0 => ⟨S200000x64, .f32⟩
  | 1 => ⟨S50000x32, .f32⟩
  | 2 => ⟨S2000000, .i32⟩
  | 3 => ⟨S2000000, .i32⟩
  | 4 => ⟨S2000000, .i32⟩
  | 5 => ⟨S2000000, .i32⟩
  | 6 => ⟨S2000000, .i32⟩
  | 7 => ⟨S2000000, .i32⟩
  | 8 => ⟨S64x16, .f32⟩
  | 9 => ⟨S32x16, .f32⟩
  | 10 => ⟨S16, .f32⟩
  | 11 => ⟨S32x16, .f32⟩
  | 12 => ⟨S64x16, .f32⟩
  | 13 => ⟨S16, .f32⟩
  | 14 => ⟨S64x16, .f32⟩
  | 15 => ⟨S64x16, .f32⟩
  | 16 => ⟨S16, .f32⟩
  | 17 => ⟨S16x16, .f32⟩
  | 18 => ⟨S16x16, .f32⟩
  | 19 => ⟨S16, .f32⟩
  | 20 => ⟨S16x16, .f32⟩
  | 21 => ⟨S16x16, .f32⟩
  | 22 => ⟨S16, .f32⟩
  | 23 => ⟨S16x16, .f32⟩
  | 24 => ⟨S16x16, .f32⟩
  | 25 => ⟨S16, .f32⟩
  | 26 => ⟨S_, .f32⟩
  | 27 => ⟨S2000000, .f32⟩
  | 28 => ⟨S_, .f32⟩
  | 29 => ⟨S50000, .f32⟩
  | 30 => ⟨S2000000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .f32⟩
  | 40 => ⟨S2000000, .f32⟩
  | 41 => ⟨S_, .f32⟩
  | 42 => ⟨S200000, .f32⟩
  | 43 => ⟨S2000000x1, .i32⟩
  | 44 => ⟨S200000, .f32⟩
  | 45 => ⟨S_, .f32⟩
  | 46 => ⟨S200000, .f32⟩
  | 47 => ⟨S200000, .f32⟩
  | 48 => ⟨S_, .f32⟩
  | 49 => ⟨S200000, .f32⟩
  | 50 => ⟨S200000, .f32⟩
  | 51 => ⟨S200000x1, .f32⟩
  | 52 => ⟨S_, .f32⟩
  | 53 => ⟨S2000000, .f32⟩
  | 54 => ⟨S_, .f32⟩
  | 55 => ⟨S200000, .f32⟩
  | 56 => ⟨S2000000x1, .i32⟩
  | 57 => ⟨S200000, .f32⟩
  | 58 => ⟨S_, .f32⟩
  | 59 => ⟨S200000, .f32⟩
  | 60 => ⟨S200000, .f32⟩
  | 61 => ⟨S_, .f32⟩
  | 62 => ⟨S200000, .f32⟩
  | 63 => ⟨S200000, .f32⟩
  | 64 => ⟨S200000x1, .f32⟩
  | 65 => ⟨S200000x16, .f32⟩
  | 66 => ⟨S200000x16, .f32⟩
  | 67 => ⟨S50000x16, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x16, .f32⟩
  | 77 => ⟨S_, .f32⟩
  | 78 => ⟨S50000x16, .f32⟩
  | 79 => ⟨S2000000x1, .i32⟩
  | 80 => ⟨S50000x16, .f32⟩
  | 81 => ⟨S50000x16, .f32⟩
  | 82 => ⟨S50000x16, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x16, .f32⟩
  | 92 => ⟨S_, .f32⟩
  | 93 => ⟨S200000x16, .f32⟩
  | 94 => ⟨S2000000x1, .i32⟩
  | 95 => ⟨S200000x16, .f32⟩
  | 96 => ⟨S200000x16, .f32⟩
  | 97 => ⟨S200000x16, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x16, .f32⟩
  | 107 => ⟨S_, .f32⟩
  | 108 => ⟨S200000x16, .f32⟩
  | 109 => ⟨S2000000x1, .i32⟩
  | 110 => ⟨S200000x16, .f32⟩
  | 111 => ⟨S200000x16, .f32⟩
  | 112 => ⟨S200000x16, .f32⟩
  | 113 => ⟨S1x16, .f32⟩
  | 114 => ⟨S50000x16, .f32⟩
  | 115 => ⟨S64x16, .f32⟩
  | 116 => ⟨S16, .f32⟩
  | 117 => ⟨S1x16, .f32⟩
  | 118 => ⟨S200000x16, .f32⟩
  | 119 => ⟨S200000x16, .f32⟩
  | 120 => ⟨S200000x16, .f32⟩
  | 121 => ⟨S50000x16, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S200000x64, .f32⟩

abbrev hbmTy0_1 (i : Nat) : BufTy := match i % 128 with
  | 0 => ⟨S2000000, .i32⟩
  | 1 => ⟨S2000000x1, .i32⟩
  | 2 => ⟨S2000000x16, .f32⟩
  | 3 => ⟨S_, .f32⟩
  | 4 => ⟨S50000x16, .f32⟩
  | 5 => ⟨S2000000x1, .i32⟩
  | 6 => ⟨S50000x16, .f32⟩
  | 7 => ⟨S50000x16, .f32⟩
  | 8 => ⟨S50000x16, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x16, .f32⟩
  | 18 => ⟨S_, .f32⟩
  | 19 => ⟨S200000x16, .f32⟩
  | 20 => ⟨S2000000x1, .i32⟩
  | 21 => ⟨S200000x16, .f32⟩
  | 22 => ⟨S200000x16, .f32⟩
  | 23 => ⟨S200000x16, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x16, .f32⟩
  | 33 => ⟨S_, .f32⟩
  | 34 => ⟨S200000x16, .f32⟩
  | 35 => ⟨S2000000x1, .i32⟩
  | 36 => ⟨S200000x16, .f32⟩
  | 37 => ⟨S200000x16, .f32⟩
  | 38 => ⟨S200000x16, .f32⟩
  | 39 => ⟨S1x16, .f32⟩
  | 40 => ⟨S50000x16, .f32⟩
  | 41 => ⟨S16x16, .f32⟩
  | 42 => ⟨S16, .f32⟩
  | 43 => ⟨S1x16, .f32⟩
  | 44 => ⟨S200000x16, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S64x16, .f32⟩
  | .local _ .vmem, ⟨3, _⟩ => ⟨S64x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S10000x32, .f32⟩
  | .local _ .vmem, ⟨9, _⟩ => ⟨S10000x32, .f32⟩
  | .local _ .vmem, ⟨10, _⟩ => ⟨S32x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x32, .f32⟩
  | .local _ .vmem, ⟨16, _⟩ => ⟨S10000x32, .f32⟩
  | .local _ .vmem, ⟨17, _⟩ => ⟨S32x16, .f32⟩
  | .local _ .vmem, ⟨18, _⟩ => ⟨S1x16, .f32⟩
  | .local _ .vmem, ⟨19, _⟩ => ⟨S10000x16, .f32⟩
  | .local _ .vmem, ⟨20, _⟩ => ⟨S10000x16, .f32⟩
  | .local _ .vmem, ⟨21, _⟩ => ⟨S8000x16, .f32⟩
  | .local _ .vmem, ⟨22, _⟩ => ⟨S8000x16, .f32⟩
  | .local _ .vmem, ⟨23, _⟩ => ⟨S8000x16, .f32⟩
  | .local _ .vmem, ⟨24, _⟩ => ⟨S8000x16, .f32⟩
  | .local _ .vmem, ⟨25, _⟩ => ⟨S8000x64, .f32⟩
  | .local _ .vmem, ⟨26, _⟩ => ⟨S8000x64, .f32⟩
  | .local _ .vmem, ⟨27, _⟩ => ⟨S64x16, .f32⟩
  | .local _ .vmem, ⟨28, _⟩ => ⟨S1x16, .f32⟩
  | .local _ .vmem, ⟨29, _⟩ => ⟨S8000x16, .f32⟩
  | .local _ .vmem, ⟨30, _⟩ => ⟨S8000x16, .f32⟩
  | .local _ .vmem, ⟨31, _⟩ => ⟨S8000x16, .f32⟩
  | .local _ .vmem, ⟨32, _⟩ => ⟨S8000x16, .f32⟩
  | .local _ .vmem, ⟨33, _⟩ => ⟨S16x16, .f32⟩
  | .local _ .vmem, ⟨34, _⟩ => ⟨S16x16, .f32⟩
  | .local _ .vmem, ⟨35, _⟩ => ⟨S8000x16, .f32⟩
  | .local _ .vmem, ⟨36, _⟩ => ⟨S8000x16, .f32⟩
  | .local _ .vmem, ⟨37, _⟩ => ⟨S8000x16, .f32⟩
  | .local _ .vmem, ⟨38, _⟩ => ⟨S8000x16, .f32⟩
  | .local _ .vmem, ⟨39, _⟩ => ⟨S10000x16, .f32⟩
  | .local _ .vmem, ⟨40, _⟩ => ⟨S10000x16, .f32⟩
  | .local _ .vmem, ⟨41, _⟩ => ⟨S16x16, .f32⟩
  | .local _ .vmem, ⟨42, _⟩ => ⟨S10000x16, .f32⟩
  | .local _ .vmem, ⟨43, _⟩ => ⟨S10000x16, .f32⟩
  | .local _ .vmem, ⟨44, _⟩ => ⟨S10000x16, .f32⟩
  | .local _ .vmem, ⟨45, _⟩ => ⟨S10000x16, .f32⟩
  | .local _ .vmem, ⟨46, _⟩ => ⟨S10000x16, .f32⟩
  | .local _ .vmem, ⟨47, _⟩ => ⟨S10000x16, .f32⟩
  | .local _ .vmem, ⟨48, _⟩ => ⟨S16x16, .f32⟩
  | .local _ .vmem, ⟨49, _⟩ => ⟨S1x16, .f32⟩
  | .local _ .vmem, ⟨50, _⟩ => ⟨S10000x16, .f32⟩
  | .local _ .vmem, ⟨51, _⟩ => ⟨S10000x16, .f32⟩
  | .local _ .vmem, ⟨52, _⟩ => ⟨S8000x16, .f32⟩
  | .local _ .vmem, ⟨53, _⟩ => ⟨S8000x16, .f32⟩
  | .local _ .vmem, ⟨54, _⟩ => ⟨S8000x16, .f32⟩
  | .local _ .vmem, ⟨55, _⟩ => ⟨S8000x16, .f32⟩
  | .local _ .vmem, ⟨56, _⟩ => ⟨S8000x16, .f32⟩
  | .local _ .vmem, ⟨57, _⟩ => ⟨S8000x16, .f32⟩
  | .local _ .vmem, ⟨58, _⟩ => ⟨S16x16, .f32⟩
  | .local _ .vmem, ⟨59, _⟩ => ⟨S1x16, .f32⟩
  | .local _ .vmem, ⟨60, _⟩ => ⟨S8000x16, .f32⟩
  | .local _ .vmem, ⟨61, _⟩ => ⟨S8000x16, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_cst_4 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_cst_6 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_7 : Ref sig .tc := ⟨.hbm, 52, rfl⟩
abbrev main_v18 : Ref sig .tc := ⟨.hbm, 53, rfl⟩
abbrev main_cst_8 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_9 : Ref sig .tc := ⟨.hbm, 58, rfl⟩
abbrev main_v22 : Ref sig .tc := ⟨.hbm, 59, rfl⟩
abbrev main_v23 : Ref sig .tc := ⟨.hbm, 60, rfl⟩
abbrev main_cst_10 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27_0 : Ref sig .tc := ⟨.hbm, 65, rfl⟩
abbrev main_v27_1 : Ref sig .tc := ⟨.hbm, 66, rfl⟩
abbrev main_v28 : Ref sig .tc := ⟨.hbm, 67, rfl⟩
abbrev main_c : Ref sig .tc := ⟨.hbm, 68, rfl⟩
abbrev main_v29 : Ref sig .tc := ⟨.hbm, 69, rfl⟩
abbrev main_v30 : Ref sig .tc := ⟨.hbm, 70, rfl⟩
abbrev main_c_11 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_12 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_13 : Ref sig .tc := ⟨.hbm, 83, rfl⟩
abbrev main_v41 : Ref sig .tc := ⟨.hbm, 84, rfl⟩
abbrev main_v42 : Ref sig .tc := ⟨.hbm, 85, rfl⟩
abbrev main_c_14 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_15 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_16 : Ref sig .tc := ⟨.hbm, 98, rfl⟩
abbrev main_v53 : Ref sig .tc := ⟨.hbm, 99, rfl⟩
abbrev main_v54 : Ref sig .tc := ⟨.hbm, 100, rfl⟩
abbrev main_c_17 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_18 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71_0 : Ref sig .tc := ⟨.hbm, 119, rfl⟩
abbrev main_v71_1 : Ref sig .tc := ⟨.hbm, 120, rfl⟩
abbrev main_v72 : Ref sig .tc := ⟨.hbm, 121, rfl⟩
abbrev main_c_19 : Ref sig .tc := ⟨.hbm, 122, rfl⟩
abbrev main_v73 : Ref sig .tc := ⟨.hbm, 123, rfl⟩
abbrev main_v74 : Ref sig .tc := ⟨.hbm, 124, rfl⟩
abbrev main_c_20 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_21 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_22 : Ref sig .tc := ⟨.hbm, 137, rfl⟩
abbrev main_v85 : Ref sig .tc := ⟨.hbm, 138, rfl⟩
abbrev main_v86 : Ref sig .tc := ⟨.hbm, 139, rfl⟩
abbrev main_c_23 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_24 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_c_25 : Ref sig .tc := ⟨.hbm, 152, rfl⟩
abbrev main_v97 : Ref sig .tc := ⟨.hbm, 153, rfl⟩
abbrev main_v98 : Ref sig .tc := ⟨.hbm, 154, rfl⟩
abbrev main_c_26 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_27 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem4_0 : DmaSem sig := 59
abbrev cc7_sem5_0 : DmaSem sig := 60
abbrev cc7_sem5_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x16 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S16x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x16 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S2000000 : S_.BroadcastsInDim S2000000 (![] : Fin 0 → Fin S2000000.rank)
  bcast_S_S50000 : S_.BroadcastsInDim S50000 (![] : Fin 0 → Fin S50000.rank)
  bcast_S2000000_S2000000x1_0 : S2000000.BroadcastsInDim S2000000x1 (![0] : Fin 1 → Fin S2000000x1.rank)
  bcast_S50000_S50000x1_0 : S50000.BroadcastsInDim S50000x1 (![0] : Fin 1 → Fin S50000x1.rank)
  bcast_S_S200000 : S_.BroadcastsInDim S200000 (![] : Fin 0 → Fin S200000.rank)
  bcast_S200000_S200000x1_0 : S200000.BroadcastsInDim S200000x1 (![0] : Fin 1 → Fin S200000x1.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S8000x16_S8000x16_0_0 : ∀ a, (![0, 0] : Fin 2 → Nat) a + S8000x16.size a ≤ S8000x16.size a
  h_S8000x16 : 0 < S8000x16.numel
  inb_S10000x32_S10000x32_0_0 : ∀ a, (![0, 0] : Fin 2 → Nat) a + S10000x32.size a ≤ S10000x32.size a
  h_S10000x32 : 0 < S10000x32.numel
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S64x16_S64x16 : S64x16.ShapeCasts S64x16
  shapeCasts_S8000x16_S8000x16 : S8000x16.ShapeCasts S8000x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  scatter_S50000_S2000000x1_S2000000_n_0_0_1_wf : ScatterDims.WF S50000 S2000000x1 S2000000 [] [0] [0] 1
  scatter_S200000_S2000000x1_S2000000_n_0_0_1_wf : ScatterDims.WF S200000 S2000000x1 S2000000 [] [0] [0] 1
  dot_S8000x64_S64x16_S8000x16_1_0_0_1_n_n_wf : DotDims.WF S8000x64 S64x16 S8000x16 [1] [0] [0] [1] [] []
  dot_S10000x32_S32x16_S10000x16_1_0_0_1_n_n_wf : DotDims.WF S10000x32 S32x16 S10000x16 [1] [0] [0] [1] [] []
  gather_S200000x16_S2000000x1_S2000000x16_1_0_n_n_0_1_116_wf : GatherDims.WF S200000x16 S2000000x1 S2000000x16 [1] [0] [] [0] [] 1 ![1, 16]
  scatter_S50000x16_S2000000x1_S2000000x16_1_0_0_1_wf : ScatterDims.WF S50000x16 S2000000x1 S2000000x16 [1] [0] [0] 1
  gather_S50000x16_S2000000x1_S2000000x16_1_0_n_n_0_1_116_wf : GatherDims.WF S50000x16 S2000000x1 S2000000x16 [1] [0] [] [0] [] 1 ![1, 16]
  scatter_S200000x16_S2000000x1_S2000000x16_1_0_0_1_wf : ScatterDims.WF S200000x16 S2000000x1 S2000000x16 [1] [0] [0] 1
  dot_S8000x16_S16x16_S8000x16_1_0_0_1_n_n_wf : DotDims.WF S8000x16 S16x16 S8000x16 [1] [0] [0] [1] [] []
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S200000x16.size a
  hwx0_3 : ∀ i : grid0.Coords, EltTy.bits .f32 = 32 ∨ (Rect.block (s := S200000x16) S8000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x16.size a ≤ S200000x16.size a
  hwx0_4 : ∀ i : grid0.Coords, EltTy.bits .f32 = 32 ∨ (Rect.block (s := S200000x16) S8000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S50000x16.size a
  hwx1_2 : ∀ i : grid1.Coords, EltTy.bits .f32 = 32 ∨ (Rect.block (s := S50000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S50000x16.size a
  hwx2_0 : ∀ i : grid2.Coords, EltTy.bits .f32 = 32 ∨ (Rect.block (s := S50000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S50000x32.size a
  hwx2_1 : ∀ i : grid2.Coords, EltTy.bits .f32 = 32 ∨ (Rect.block (s := S50000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x16.size a ≤ S50000x16.size a
  hwx2_4 : ∀ i : grid2.Coords, EltTy.bits .f32 = 32 ∨ (Rect.block (s := S50000x16) S10000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S200000x16.size a
  hwx3_0 : ∀ i : grid3.Coords, EltTy.bits .f32 = 32 ∨ (Rect.block (s := S200000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S200000x16.size a
  hwx3_1 : ∀ i : grid3.Coords, EltTy.bits .f32 = 32 ∨ (Rect.block (s := S200000x16) S8000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S200000x64.size a
  hwx3_2 : ∀ i : grid3.Coords, EltTy.bits .f32 = 32 ∨ (Rect.block (s := S200000x64) S8000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .f32 = 32 ∨ (Rect.block (s := S64x16) S64x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x16.size a ≤ S200000x16.size a
  hwx3_5 : ∀ i : grid3.Coords, EltTy.bits .f32 = 32 ∨ (Rect.block (s := S200000x16) S8000x16.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S200000x16.size a
  hwx4_0 : ∀ i : grid4.Coords, EltTy.bits .f32 = 32 ∨ (Rect.block (s := S200000x16) S8000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x16.size a ≤ S200000x16.size a
  hwx4_3 : ∀ i : grid4.Coords, EltTy.bits .f32 = 32 ∨ (Rect.block (s := S200000x16) S8000x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x16.size a ≤ S200000x16.size a
  hwx4_4 : ∀ i : grid4.Coords, EltTy.bits .f32 = 32 ∨ (Rect.block (s := S200000x16) S8000x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S50000x16.size a
  hwx5_0 : ∀ i : grid5.Coords, EltTy.bits .f32 = 32 ∨ (Rect.block (s := S50000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x16.size a ≤ S16x16.size a
  hwx5_1 : ∀ i : grid5.Coords, EltTy.bits .f32 = 32 ∨ (Rect.block (s := S16x16) S16x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S50000x16.size a
  hwx5_2 : ∀ i : grid5.Coords, EltTy.bits .f32 = 32 ∨ (Rect.block (s := S50000x16) S10000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S50000x16.size a
  hwx6_0 : ∀ i : grid6.Coords, EltTy.bits .f32 = 32 ∨ (Rect.block (s := S50000x16) S10000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x16.size a ≤ S50000x16.size a
  hwx6_1 : ∀ i : grid6.Coords, EltTy.bits .f32 = 32 ∨ (Rect.block (s := S50000x16) S10000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x16.size a ≤ S16x16.size a
  hwx6_2 : ∀ i : grid6.Coords, EltTy.bits .f32 = 32 ∨ (Rect.block (s := S16x16) S16x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x16.size a ≤ S50000x16.size a
  hwx6_4 : ∀ i : grid6.Coords, EltTy.bits .f32 = 32 ∨ (Rect.block (s := S50000x16) S10000x16.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x16.size a ≤ S200000x16.size a
  hwx7_0 : ∀ i : grid7.Coords, EltTy.bits .f32 = 32 ∨ (Rect.block (s := S200000x16) S8000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x16.size a ≤ S200000x16.size a
  hwx7_1 : ∀ i : grid7.Coords, EltTy.bits .f32 = 32 ∨ (Rect.block (s := S200000x16) S8000x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x16.size a ≤ S200000x16.size a
  hwx7_2 : ∀ i : grid7.Coords, EltTy.bits .f32 = 32 ∨ (Rect.block (s := S200000x16) S8000x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S16x16.size a ≤ S16x16.size a
  hwx7_3 : ∀ i : grid7.Coords, EltTy.bits .f32 = 32 ∨ (Rect.block (s := S16x16) S16x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x16.size a ≤ S1x16.size a
  hwx7_4 : ∀ i : grid7.Coords, EltTy.bits .f32 = 32 ∨ (Rect.block (s := S1x16) S1x16.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x16.size a ≤ S200000x16.size a
  hwx7_5 : ∀ i : grid7.Coords, EltTy.bits .f32 = 32 ∨ (Rect.block (s := S200000x16) S8000x16.size (cc7_transform_5 i) (hinb7_5 i)).WholeWords (EltTy.packing .f32)

variable [Facts₀]

def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def gather_S50000x16_S2000000x1_S2000000x16_1_0_n_n_0_1_116 : GatherDims S50000x16 S2000000x1 S2000000x16 where
  offsetDims := [1]
  collapsedSliceDims := [0]
  operandBatchingDims := []
  startIndicesBatchingDims := []
  startIndexMap := [0]
  indexVectorDim := 1
  sliceSizes := ![1, 16]
  wf := gather_S50000x16_S2000000x1_S2000000x16_1_0_n_n_0_1_116_wf
def scatter_S200000x16_S2000000x1_S2000000x16_1_0_0_1 : ScatterDims S200000x16 S2000000x1 S2000000x16 where
  updateWindowDims := [1]
  insertedWindowDims := [0]
  scatterDimsToOperandDims := [0]
  indexVectorDim := 1
  wf := scatter_S200000x16_S2000000x1_S2000000x16_1_0_0_1_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S8000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S8000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S10000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S8000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S64x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S8000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v70) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg23) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71_0) S8000x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v71_1) S8000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v66) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S16x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S10000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg18) S16x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S10000x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v96) S8000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S8000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v70) S8000x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v111) S16x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v113) S1x16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v114) S8000x16.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S200000x64 : Shape := ⟨2, ![200000, 64]⟩
abbrev S50000x32 : Shape := ⟨2, ![50000, 32]⟩
abbrev S2000000 : Shape := ⟨1, ![2000000]⟩
abbrev S64x16 : Shape := ⟨2, ![64, 16]⟩
abbrev S32x16 : Shape := ⟨2, ![32, 16]⟩
abbrev S16 : Shape := ⟨1, ![16]⟩
abbrev S16x16 : Shape := ⟨2, ![16, 16]⟩
abbrev S_ : Shape := ⟨0, ![]⟩
abbrev S2000000x1 : Shape := ⟨2, ![2000000, 1]⟩
abbrev S2000000x64 : Shape := ⟨2, ![2000000, 64]⟩
abbrev S50000x64 : Shape := ⟨2, ![50000, 64]⟩
abbrev S50000x1 : Shape := ⟨2, ![50000, 1]⟩
abbrev S50000x16 : Shape := ⟨2, ![50000, 16]⟩
abbrev S1x16 : Shape := ⟨2, ![1, 16]⟩
abbrev S2000000x32 : Shape := ⟨2, ![2000000, 32]⟩
abbrev S200000x32 : Shape := ⟨2, ![200000, 32]⟩
abbrev S200000x1 : Shape := ⟨2, ![200000, 1]⟩
abbrev S200000x16 : Shape := ⟨2, ![200000, 16]⟩
abbrev S2000000x16 : Shape := ⟨2, ![2000000, 16]⟩

abbrev nBuf : Space → Nat
  | .hbm => 220
  | .vmem => 0
  | .smem => 0
  | _ => 0

abbrev hbmTy0_0 (i : Nat) : BufTy := match i % 128 with
  | 0 => ⟨S200000x64, .f32⟩
  | 1 => ⟨S50000x32, .f32⟩
  | 2 => ⟨S2000000, .i32⟩
  | 3 => ⟨S2000000, .i32⟩
  | 4 => ⟨S2000000, .i32⟩
  | 5 => ⟨S2000000, .i32⟩
  | 6 => ⟨S2000000, .i32⟩
  | 7 => ⟨S2000000, .i32⟩
  | 8 => ⟨S64x16, .f32⟩
  | 9 => ⟨S32x16, .f32⟩
  | 10 => ⟨S16, .f32⟩
  | 11 => ⟨S32x16, .f32⟩
  | 12 => ⟨S64x16, .f32⟩
  | 13 => ⟨S16, .f32⟩
  | 14 => ⟨S64x16, .f32⟩
  | 15 => ⟨S64x16, .f32⟩
  | 16 => ⟨S16, .f32⟩
  | 17 => ⟨S16x16, .f32⟩
  | 18 => ⟨S16x16, .f32⟩
  | 19 => ⟨S16, .f32⟩
  | 20 => ⟨S16x16, .f32⟩
  | 21 => ⟨S16x16, .f32⟩
  | 22 => ⟨S16, .f32⟩
  | 23 => ⟨S16x16, .f32⟩
  | 24 => ⟨S16x16, .f32⟩
  | 25 => ⟨S16, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x64, .f32⟩
  | 35 => ⟨S_, .f32⟩
  | 36 => ⟨S50000x64, .f32⟩
  | 37 => ⟨S2000000x1, .i32⟩
  | 38 => ⟨S50000x64, .f32⟩
  | 39 => ⟨S_, .f32⟩
  | 40 => ⟨S2000000x1, .f32⟩
  | 41 => ⟨S_, .f32⟩
  | 42 => ⟨S50000x1, .f32⟩
  | 43 => ⟨S2000000x1, .i32⟩
  | 44 => ⟨S50000x1, .f32⟩
  | 45 => ⟨S_, .f32⟩
  | 46 => ⟨S50000x1, .f32⟩
  | 47 => ⟨S50000x1, .f32⟩
  | 48 => ⟨S50000x64, .f32⟩
  | 49 => ⟨S50000x64, .f32⟩
  | 50 => ⟨S50000x16, .f32⟩
  | 51 => ⟨S1x16, .f32⟩
  | 52 => ⟨S50000x16, .f32⟩
  | 53 => ⟨S50000x16, .f32⟩
  | 54 => ⟨S50000x16, .f32⟩
  | 55 => ⟨S50000x16, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x32, .f32⟩
  | 65 => ⟨S_, .f32⟩
  | 66 => ⟨S200000x32, .f32⟩
  | 67 => ⟨S2000000x1, .i32⟩
  | 68 => ⟨S200000x32, .f32⟩
  | 69 => ⟨S_, .f32⟩
  | 70 => ⟨S2000000x1, .f32⟩
  | 71 => ⟨S_, .f32⟩
  | 72 => ⟨S200000x1, .f32⟩
  | 73 => ⟨S2000000x1, .i32⟩
  | 74 => ⟨S200000x1, .f32⟩
  | 75 => ⟨S_, .f32⟩
  | 76 => ⟨S200000x1, .f32⟩
  | 77 => ⟨S200000x1, .f32⟩
  | 78 => ⟨S200000x32, .f32⟩
  | 79 => ⟨S200000x32, .f32⟩
  | 80 => ⟨S200000x16, .f32⟩
  | 81 => ⟨S1x16, .f32⟩
  | 82 => ⟨S200000x16, .f32⟩
  | 83 => ⟨S200000x16, .f32⟩
  | 84 => ⟨S200000x16, .f32⟩
  | 85 => ⟨S200000x16, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x64, .f32⟩
  | 95 => ⟨S_, .f32⟩
  | 96 => ⟨S200000x64, .f32⟩
  | 97 => ⟨S2000000x1, .i32⟩
  | 98 => ⟨S200000x64, .f32⟩
  | 99 => ⟨S_, .f32⟩
  | 100 => ⟨S2000000x1, .f32⟩
  | 101 => ⟨S_, .f32⟩
  | 102 => ⟨S200000x1, .f32⟩
  | 103 => ⟨S2000000x1, .i32⟩
  | 104 => ⟨S200000x1, .f32⟩
  | 105 => ⟨S_, .f32⟩
  | 106 => ⟨S200000x1, .f32⟩
  | 107 => ⟨S200000x1, .f32⟩
  | 108 => ⟨S200000x64, .f32⟩
  | 109 => ⟨S200000x64, .f32⟩
  | 110 => ⟨S200000x16, .f32⟩
  | 111 => ⟨S1x16, .f32⟩
  | 112 => ⟨S200000x16, .f32⟩
  | 113 => ⟨S200000x16, .f32⟩
  | 114 => ⟨S200000x16, .f32⟩
  | 115 => ⟨S200000x16, .f32⟩
  | 116 => ⟨S200000x16, .f32⟩
  | 117 => ⟨S_, .f32⟩
  | 118 => ⟨S200000x16, .f32⟩
  | 119 => ⟨S200000x16, .f32⟩
  | 120 => ⟨S_, .f32⟩
  | 121 => ⟨S50000x16, .f32⟩
  | 122 => ⟨S50000x16, .f32⟩
  | 123 => ⟨S_, .i32⟩
  | 124 => ⟨S2000000, .i32⟩
  | 125 => ⟨S2000000, .i1⟩
  | 126 => ⟨S_, .i32⟩
  | 127 => ⟨S2000000, .i32⟩
  | _ => ⟨S200000x64, .f32⟩

abbrev hbmTy0_1 (i : Nat) : BufTy := match i % 128 with
  | 0 => ⟨S2000000, .i32⟩
  | 1 => ⟨S2000000, .i32⟩
  | 2 => ⟨S2000000x1, .i32⟩
  | 3 => ⟨S2000000x16, .f32⟩
  | 4 => ⟨S_, .f32⟩
  | 5 => ⟨S50000x16, .f32⟩
  | 6 => ⟨S2000000x1, .i32⟩
  | 7 => ⟨S50000x16, .f32⟩
  | 8 => ⟨S_, .f32⟩
  | 9 => ⟨S2000000x1, .f32⟩
  | 10 => ⟨S_, .f32⟩
  | 11 => ⟨S50000x1, .f32⟩
  | 12 => ⟨S2000000x1, .i32⟩
  | 13 => ⟨S50000x1, .f32⟩
  | 14 => ⟨S_, .f32⟩
  | 15 => ⟨S50000x1, .f32⟩
  | 16 => ⟨S50000x1, .f32⟩
  | 17 => ⟨S50000x16, .f32⟩
  | 18 => ⟨S50000x16, .f32⟩
  | 19 => ⟨S50000x16, .f32⟩
  | 20 => ⟨S1x16, .f32⟩
  | 21 => ⟨S50000x16, .f32⟩
  | 22 => ⟨S50000x16, .f32⟩
  | 23 => ⟨S50000x16, .f32⟩
  | 24 => ⟨S50000x16, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x16, .f32⟩
  | 34 => ⟨S_, .f32⟩
  | 35 => ⟨S200000x16, .f32⟩
  | 36 => ⟨S2000000x1, .i32⟩
  | 37 => ⟨S200000x16, .f32⟩
  | 38 => ⟨S_, .f32⟩
  | 39 => ⟨S2000000x1, .f32⟩
  | 40 => ⟨S_, .f32⟩
  | 41 => ⟨S200000x1, .f32⟩
  | 42 => ⟨S2000000x1, .i32⟩
  | 43 => ⟨S200000x1, .f32⟩
  | 44 => ⟨S_, .f32⟩
  | 45 => ⟨S200000x1, .f32⟩
  | 46 => ⟨S200000x1, .f32⟩
  | 47 => ⟨S200000x16, .f32⟩
  | 48 => ⟨S200000x16, .f32⟩
  | 49 => ⟨S200000x16, .f32⟩
  | 50 => ⟨S1x16, .f32⟩
  | 51 => ⟨S200000x16, .f32⟩
  | 52 => ⟨S200000x16, .f32⟩
  | 53 => ⟨S200000x16, .f32⟩
  | 54 => ⟨S200000x16, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x16, .f32⟩
  | 64 => ⟨S_, .f32⟩
  | 65 => ⟨S200000x16, .f32⟩
  | 66 => ⟨S2000000x1, .i32⟩
  | 67 => ⟨S200000x16, .f32⟩
  | 68 => ⟨S_, .f32⟩
  | 69 => ⟨S2000000x1, .f32⟩
  | 70 => ⟨S_, .f32⟩
  | 71 => ⟨S200000x1, .f32⟩
  | 72 => ⟨S2000000x1, .i32⟩
  | 73 => ⟨S200000x1, .f32⟩
  | 74 => ⟨S_, .f32⟩
  | 75 => ⟨S200000x1, .f32⟩
  | 76 => ⟨S200000x1, .f32⟩
  | 77 => ⟨S200000x16, .f32⟩
  | 78 => ⟨S200000x16, .f32⟩
  | 79 => ⟨S200000x16, .f32⟩
  | 80 => ⟨S1x16, .f32⟩
  | 81 => ⟨S200000x16, .f32⟩
  | 82 => ⟨S200000x16, .f32⟩
  | 83 => ⟨S200000x16, .f32⟩
  | 84 => ⟨S200000x16, .f32⟩
  | 85 => ⟨S200000x16, .f32⟩
  | 86 => ⟨S_, .f32⟩
  | 87 => ⟨S200000x16, .f32⟩
  | 88 => ⟨S200000x16, .f32⟩
  | 89 => ⟨S_, .f32⟩
  | 90 => ⟨S50000x16, .f32⟩
  | 91 => ⟨S50000x16, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_10 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_cst_14 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_15 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_call0_cst : Ref sig .tc := ⟨.hbm, 117, rfl⟩
abbrev main_call0_v0 : Ref sig .tc := ⟨.hbm, 118, rfl⟩
abbrev main_v73 : Ref sig .tc := ⟨.hbm, 119, rfl⟩
abbrev main_call1_cst : Ref sig .tc := ⟨.hbm, 120, rfl⟩
abbrev main_call1_v0 : Ref sig .tc := ⟨.hbm, 121, rfl⟩
abbrev main_v74 : Ref sig .tc := ⟨.hbm, 122, rfl⟩
abbrev main_c_16 : Ref sig .tc := ⟨.hbm, 123, rfl⟩
abbrev main_v75 : Ref sig .tc := ⟨.hbm, 124, rfl⟩
abbrev main_v76 : Ref sig .tc := ⟨.hbm, 125, rfl⟩
abbrev main_c_17 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_18 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_19 : Ref sig .tc := ⟨.hbm, 136, rfl⟩
abbrev main_v85 : Ref sig .tc := ⟨.hbm, 137, rfl⟩
abbrev main_cst_20 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_21 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_22 : Ref sig .tc := ⟨.hbm, 153, rfl⟩
abbrev main_v99 : Ref sig .tc := ⟨.hbm, 154, rfl⟩
abbrev main_v100 : Ref sig .tc := ⟨.hbm, 155, rfl⟩
abbrev main_c_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_24 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_25 : Ref sig .tc := ⟨.hbm, 166, rfl⟩
abbrev main_v109 : Ref sig .tc := ⟨.hbm, 167, rfl⟩
abbrev main_cst_26 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_27 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_28 : Ref sig .tc := ⟨.hbm, 183, rfl⟩
abbrev main_v123 : Ref sig .tc := ⟨.hbm, 184, rfl⟩
abbrev main_v124 : Ref sig .tc := ⟨.hbm, 185, rfl⟩
abbrev main_c_29 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_30 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_31 : Ref sig .tc := ⟨.hbm, 196, rfl⟩
abbrev main_v133 : Ref sig .tc := ⟨.hbm, 197, rfl⟩
abbrev main_cst_32 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_33 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_call2_cst : Ref sig .tc := ⟨.hbm, 214, rfl⟩
abbrev main_call2_v0 : Ref sig .tc := ⟨.hbm, 215, rfl⟩
abbrev main_v148 : Ref sig .tc := ⟨.hbm, 216, rfl⟩
abbrev main_call3_cst : Ref sig .tc := ⟨.hbm, 217, rfl⟩
abbrev main_call3_v0 : Ref sig .tc := ⟨.hbm, 218, rfl⟩
abbrev main_v149 : Ref sig .tc := ⟨.hbm, 219, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S2000000x1 : S_.BroadcastsInDim S2000000x1 (![] : Fin 0 → Fin S2000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S200000x32 : S_.BroadcastsInDim S200000x32 (![] : Fin 0 → Fin S200000x32.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  bcast_S1x16_S200000x16_0_1 : S1x16.BroadcastsInDim S200000x16 (![0, 1] : Fin 2 → Fin S200000x16.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S_S200000x16 : S_.BroadcastsInDim S200000x16 (![] : Fin 0 → Fin S200000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S200000x1_S200000x16_0_1 : S200000x1.BroadcastsInDim S200000x16 (![0, 1] : Fin 2 → Fin S200000x16.rank)
  gather_S200000x64_S2000000x1_S2000000x64_1_0_n_n_0_1_164_wf : GatherDims.WF S200000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000x1_S2000000x1_S2000000x1_1_0_0_1_wf : ScatterDims.WF S50000x1 S2000000x1 S2000000x1 [1] [0] [0] 1
  dot_S50000x64_S64x16_S50000x16_1_0_0_1_n_n_wf : DotDims.WF S50000x64 S64x16 S50000x16 [1] [0] [0] [1] [] []
  dot_S50000x32_S32x16_S50000x16_1_0_0_1_n_n_wf : DotDims.WF S50000x32 S32x16 S50000x16 [1] [0] [0] [1] [] []
  gather_S50000x32_S2000000x1_S2000000x32_1_0_n_n_0_1_132_wf : GatherDims.WF S50000x32 S2000000x1 S2000000x32 [1] [0] [] [0] [] 1 ![1, 32]
  scatter_S200000x32_S2000000x1_S2000000x32_1_0_0_1_wf : ScatterDims.WF S200000x32 S2000000x1 S2000000x32 [1] [0] [0] 1
  scatter_S200000x1_S2000000x1_S2000000x1_1_0_0_1_wf : ScatterDims.WF S200000x1 S2000000x1 S2000000x1 [1] [0] [0] 1
  dot_S200000x32_S32x16_S200000x16_1_0_0_1_n_n_wf : DotDims.WF S200000x32 S32x16 S200000x16 [1] [0] [0] [1] [] []
  dot_S200000x64_S64x16_S200000x16_1_0_0_1_n_n_wf : DotDims.WF S200000x64 S64x16 S200000x16 [1] [0] [0] [1] [] []
  scatter_S200000x64_S2000000x1_S2000000x64_1_0_0_1_wf : ScatterDims.WF S200000x64 S2000000x1 S2000000x64 [1] [0] [0] 1
  gather_S200000x16_S2000000x1_S2000000x16_1_0_n_n_0_1_116_wf : GatherDims.WF S200000x16 S2000000x1 S2000000x16 [1] [0] [] [0] [] 1 ![1, 16]
  scatter_S50000x16_S2000000x1_S2000000x16_1_0_0_1_wf : ScatterDims.WF S50000x16 S2000000x1 S2000000x16 [1] [0] [0] 1
  dot_S50000x16_S16x16_S50000x16_1_0_0_1_n_n_wf : DotDims.WF S50000x16 S16x16 S50000x16 [1] [0] [0] [1] [] []
  gather_S50000x16_S2000000x1_S2000000x16_1_0_n_n_0_1_116_wf : GatherDims.WF S50000x16 S2000000x1 S2000000x16 [1] [0] [] [0] [] 1 ![1, 16]
  scatter_S200000x16_S2000000x1_S2000000x16_1_0_0_1_wf : ScatterDims.WF S200000x16 S2000000x1 S2000000x16 [1] [0] [0] 1
  dot_S200000x16_S16x16_S200000x16_1_0_0_1_n_n_wf : DotDims.WF S200000x16 S16x16 S200000x16 [1] [0] [0] [1] [] []

variable [Facts₀]

def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000x1_S2000000x1_S2000000x1_1_0_0_1 : ScatterDims S50000x1 S2000000x1 S2000000x1 where
  updateWindowDims := [1]
  insertedWindowDims := [0]
  scatterDimsToOperandDims := [0]
  indexVectorDim := 1
  wf := scatter_S50000x1_S2000000x1_S2000000x1_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x64_S64x16_S200000x16_1_0_0_1_n_n : DotDims S200000x64 S64x16 S200000x16 where
  lhsContracting := [1]
  rhsContracting := [0]
  lhsNonContracting := [0]
  rhsNonContracting := [1]
  lhsBatch := []
  rhsBatch := []
  wf := dot_S200000x64_S64x16_S200000x16_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf
def gather_S50000x16_S2000000x1_S2000000x16_1_0_n_n_0_1_116 : GatherDims S50000x16 S2000000x1 S2000000x16 where
  offsetDims := [1]
  collapsedSliceDims := [0]
  operandBatchingDims := []
  startIndicesBatchingDims := []
  startIndexMap := [0]
  indexVectorDim := 1
  sliceSizes := ![1, 16]
  wf := gather_S50000x16_S2000000x1_S2000000x16_1_0_n_n_0_1_116_wf
def scatter_S200000x16_S2000000x1_S2000000x16_1_0_0_1 : ScatterDims S200000x16 S2000000x1 S2000000x16 where
  updateWindowDims := [1]
  insertedWindowDims := [0]
  scatterDimsToOperandDims := [0]
  indexVectorDim := 1
  wf := scatter_S200000x16_S2000000x1_S2000000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf

class Facts : Prop extends Facts₀ where

variable [Facts]
-- ==== Proof.Spec.lean ====
/-
  The mathematics both programs compute, stated once over plain index types.

  A graph-convolution layer with mean aggregation takes, for every destination node `d`, the mean over the
  edges `e` landing on `d` of the source features `X (row e)`, multiplies it by a weight matrix `Wl`, and adds a
  bias and a dense term `Xd d · Wr` of the destination's own features. An edge lands on a node through a partial
  function `land : edge → Option node` (an edge whose destination index is out of range lands nowhere and is
  dropped), and reads its source row through a total function `row : edge → node` (a source index is clamped
  into range). The number of edges landing on `d` is floored at one before dividing.

  One program divides the summed features by the count and then multiplies by `Wl`; the other multiplies every
  source row by `Wl` first, sums the products over the landing edges, and scales by the reciprocal of the
  count. For real entries these agree, because a finite sum commutes with a fixed linear map and `s / c` is
  `s · (1 / c)` for `c ≠ 0`; on the extended reals the same laws need every entry finite.
-/
import Idealize.ShloMosaic.PureOps.Ideal
import Idealize.ShloMosaic.Lib.ValueIdx

noncomputable section

namespace Cert.Sage

open Idealize.ShloMosaic

/-- The float word of `1.0` denotes the extended real `1`. -/
theorem ofBits_one : Ideal.ofBits .f32 0x3F800000#32 = 1 := by
  simp [Ideal.ofBits, Ideal.ieee, -EReal.coe_mul]; norm_num

/-- The float word of `+0.0` denotes the extended real `0`. -/
theorem ofBits_zero : Ideal.ofBits .f32 0x00000000#32 = 0 := by
  simp [Ideal.ofBits, Ideal.ieee]

section Defs

variable {ε N M κ γ ω : Type} [Fintype ε] [DecidableEq N] [Fintype κ] [Fintype γ]

/-- Entry `(d, f)` of a segment sum: zero plus the sum of `U e f` over the edges `e` landing on `d`. -/
def segSum (land : ε → Option N) (U : ε → κ → EReal) (d : N) (f : κ) : EReal :=
  0 + ∑ e ∈ Finset.univ.filter (fun e => land e = some d), U e f

/-- The number of edges landing on `d`, as zero plus a sum of ones. -/
def segCnt (land : ε → Option N) (d : N) : EReal :=
  0 + ∑ e ∈ Finset.univ.filter (fun e => land e = some d), (1 : EReal)

/-- Entry `(r, o)` of the matrix product `A · B` accumulated into zero. -/
def mm0 (A : M → κ → EReal) (B : κ → ω → EReal) (r : M) (o : ω) : EReal :=
  0 + ∑ k, A r k * B k o

/-- One convolution as the reference computes it: the mean of the gathered source rows (sum divided by the
    floored count), times `Wl`, plus the bias, plus the destination's own features times `Wr`. -/
def refConv (land : ε → Option N) (row : ε → M) (X : M → κ → EReal) (Xd : N → γ → EReal)
    (Wl : κ → ω → EReal) (b : ω → EReal) (Wr : γ → ω → EReal) (d : N) (o : ω) : EReal :=
  ((∑ k, Ideal.div (segSum land (fun e f => X (row e) f) d k) (max (segCnt land d) 1) * Wl k o) + b o)
    + ∑ g, Xd d g * Wr g o

/-- The reciprocal of the floored count. -/
def invCnt (land : ε → Option N) (d : N) : EReal :=
  Ideal.div 1 (max (segCnt land d) 1)

/-- The aggregate as the kernel computes it: every source row is multiplied by `Wl` first, the products are
    summed over the landing edges, and the sum is scaled by the reciprocal of the floored count. -/
def kerAgg (land : ε → Option N) (row : ε → M) (X : M → κ → EReal) (Wl : κ → ω → EReal) (d : N) (o : ω) : EReal :=
  segSum land (fun e o' => mm0 X Wl (row e) o') d o * invCnt land d

/-- The kernel's closing step for a node type fed by one edge type. -/
def finish1 (Xd : N → γ → EReal) (Wr : γ → ω → EReal) (agg : N → ω → EReal) (b : ω → EReal) (d : N) (o : ω) : EReal :=
  max ((mm0 Xd Wr d o + agg d o) + b o) 0

/-- The kernel's closing step for a node type fed by two edge types. -/
def finish2 (Xd : N → γ → EReal) (Wr : γ → ω → EReal) (agg₁ agg₂ : N → ω → EReal) (b : ω → EReal) (d : N) (o : ω) : EReal :=
  max (((mm0 Xd Wr d o + agg₁ d o) + agg₂ d o) + b o) 0

end Defs

/-! ## How an integer edge array names nodes -/

section Indices

open Idealize.ShloMosaic.ValueIdx

/-- A source index as array indexing normalizes it: a negative index counts from the end (`x + n`). -/
def wrapIdx (n : BitVec 32) (x : BitVec 32) : BitVec 32 :=
  Scalar.select (IntOp.cmpi .slt x 0#32) (IntOp.addi x n) x

/-- The source row edge `e` reads: its normalized index, read signed and clamped into `[0, n - 1]`. -/
def rowOf (n : Nat) (hn : 0 < n) {E : Nat} (src : (⟨1, ![E]⟩ : Shape).Idx → BitVec 32) (e : Fin E) : Fin n :=
  ⟨min (wrapIdx (BitVec.ofNat 32 n) (src (ix1 e))).toInt.toNat (n - 1), by omega⟩

/-- The node edge `e` lands on: its destination index read signed, when that lies in `[0, n)`; otherwise the
    edge is dropped. -/
def landOf (n : Nat) {E : Nat} (dst : (⟨1, ![E]⟩ : Shape).Idx → BitVec 32) (e : Fin E) : Option (Fin n) :=
  if h : 0 ≤ (dst (ix1 e)).toInt ∧ (dst (ix1 e)).toInt < n then some ⟨(dst (ix1 e)).toInt.toNat, by omega⟩ else none

end Indices

/-! ## The two-layer network over two node types and three edge types -/

/-- Everything the network reads: the two feature matrices (`P` nodes with 64 features, `U` nodes with 32), for each
    of the three edge types (`V : P → U`, `R : U → P`, `C : P → P`) the source row and the landing node of every
    edge, and the weights and biases of the two layers (every layer's output width is 16). -/
structure Net (P U ε : Type) where
  xp : P → Fin 64 → EReal
  xu : U → Fin 32 → EReal
  rowV : ε → P
  landV : ε → Option U
  rowR : ε → U
  landR : ε → Option P
  rowC : ε → P
  landC : ε → Option P
  W1v_l : Fin 64 → Fin 16 → EReal
  W1v_r : Fin 32 → Fin 16 → EReal
  b1v : Fin 16 → EReal
  W1r_l : Fin 32 → Fin 16 → EReal
  W1r_r : Fin 64 → Fin 16 → EReal
  b1r : Fin 16 → EReal
  W1c_l : Fin 64 → Fin 16 → EReal
  W1c_r : Fin 64 → Fin 16 → EReal
  b1c : Fin 16 → EReal
  W2v_l : Fin 16 → Fin 16 → EReal
  W2v_r : Fin 16 → Fin 16 → EReal
  b2v : Fin 16 → EReal
  W2r_l : Fin 16 → Fin 16 → EReal
  W2r_r : Fin 16 → Fin 16 → EReal
  b2r : Fin 16 → EReal
  W2c_l : Fin 16 → Fin 16 → EReal
  W2c_r : Fin 16 → Fin 16 → EReal
  b2c : Fin 16 → EReal

namespace Net

variable {P U ε : Type} [Fintype ε] [DecidableEq P] [DecidableEq U] (I : Net P U ε)

/-! The reference: each layer is a convolution per edge type, summed per destination type, then `max · 0`. -/

def refU1 (d : U) (o : Fin 16) : EReal :=
  max (refConv I.landV I.rowV I.xp I.xu I.W1v_l I.b1v I.W1v_r d o) 0
def refP1 (d : P) (o : Fin 16) : EReal :=
  max (refConv I.landR I.rowR I.xu I.xp I.W1r_l I.b1r I.W1r_r d o
        + refConv I.landC I.rowC I.xp I.xp I.W1c_l I.b1c I.W1c_r d o) 0
def refU2 (d : U) (o : Fin 16) : EReal :=
  max (refConv I.landV I.rowV I.refP1 I.refU1 I.W2v_l I.b2v I.W2v_r d o) 0
def refP2 (d : P) (o : Fin 16) : EReal :=
  max (refConv I.landR I.rowR I.refU1 I.refP1 I.W2r_l I.b2r I.W2r_r d o
        + refConv I.landC I.rowC I.refP1 I.refP1 I.W2c_l I.b2c I.W2c_r d o) 0

/-! The kernel: the left weights pushed through the aggregation, the two right weights and the two biases of the
    `P` nodes added before one dense product. -/

def kerU1 (d : U) (o : Fin 16) : EReal :=
  finish1 I.xu I.W1v_r (kerAgg I.landV I.rowV I.xp I.W1v_l) I.b1v d o
def kerP1 (d : P) (o : Fin 16) : EReal :=
  finish2 I.xp (fun g o' => I.W1r_r g o' + I.W1c_r g o') (kerAgg I.landR I.rowR I.xu I.W1r_l)
    (kerAgg I.landC I.rowC I.xp I.W1c_l) (fun o' => I.b1r o' + I.b1c o') d o
def kerU2 (d : U) (o : Fin 16) : EReal :=
  finish1 I.kerU1 I.W2v_r (kerAgg I.landV I.rowV I.kerP1 I.W2v_l) I.b2v d o
def kerP2 (d : P) (o : Fin 16) : EReal :=
  finish2 I.kerP1 (fun g o' => I.W2r_r g o' + I.W2c_r g o') (kerAgg I.landR I.rowR I.kerU1 I.W2r_l)
    (kerAgg I.landC I.rowC I.kerP1 I.W2c_l) (fun o' => I.b2r o' + I.b2c o') d o

/-- Every float entry the network reads is a real number. -/
def Finite : Prop :=
  (∀ i j, ∃ r : ℝ, I.xp i j = r) ∧ (∀ i j, ∃ r : ℝ, I.xu i j = r) ∧
  (∀ i j, ∃ r : ℝ, I.W1v_l i j = r) ∧ (∀ i j, ∃ r : ℝ, I.W1v_r i j = r) ∧ (∀ j, ∃ r : ℝ, I.b1v j = r) ∧
  (∀ i j, ∃ r : ℝ, I.W1r_l i j = r) ∧ (∀ i j, ∃ r : ℝ, I.W1r_r i j = r) ∧ (∀ j, ∃ r : ℝ, I.b1r j = r) ∧
  (∀ i j, ∃ r : ℝ, I.W1c_l i j = r) ∧ (∀ i j, ∃ r : ℝ, I.W1c_r i j = r) ∧ (∀ j, ∃ r : ℝ, I.b1c j = r) ∧
  (∀ i j, ∃ r : ℝ, I.W2v_l i j = r) ∧ (∀ i j, ∃ r : ℝ, I.W2v_r i j = r) ∧ (∀ j, ∃ r : ℝ, I.b2v j = r) ∧
  (∀ i j, ∃ r : ℝ, I.W2r_l i j = r) ∧ (∀ i j, ∃ r : ℝ, I.W2r_r i j = r) ∧ (∀ j, ∃ r : ℝ, I.b2r j = r) ∧
  (∀ i j, ∃ r : ℝ, I.W2c_l i j = r) ∧ (∀ i j, ∃ r : ℝ, I.W2c_r i j = r) ∧ (∀ j, ∃ r : ℝ, I.b2c j = r)

end Net

/-- The network the two programs' 26 argument arrays describe: 200000 `P` nodes, 50000 `U` nodes, 2000000 edges
    of each type; matrices read at `ix2`, vectors at `ix1`. -/
def netOf
    (x0 : (⟨2, ![200000, 64]⟩ : Shape).Idx → EReal) (x1 : (⟨2, ![50000, 32]⟩ : Shape).Idx → EReal)
    (x2 x3 x4 x5 x6 x7 : (⟨1, ![2000000]⟩ : Shape).Idx → BitVec 32)
    (x8 : (⟨2, ![64, 16]⟩ : Shape).Idx → EReal) (x9 : (⟨2, ![32, 16]⟩ : Shape).Idx → EReal) (x10 : (⟨1, ![16]⟩ : Shape).Idx → EReal)
    (x11 : (⟨2, ![32, 16]⟩ : Shape).Idx → EReal) (x12 : (⟨2, ![64, 16]⟩ : Shape).Idx → EReal) (x13 : (⟨1, ![16]⟩ : Shape).Idx → EReal)
    (x14 x15 : (⟨2, ![64, 16]⟩ : Shape).Idx → EReal) (x16 : (⟨1, ![16]⟩ : Shape).Idx → EReal)
    (x17 x18 : (⟨2, ![16, 16]⟩ : Shape).Idx → EReal) (x19 : (⟨1, ![16]⟩ : Shape).Idx → EReal)
    (x20 x21 : (⟨2, ![16, 16]⟩ : Shape).Idx → EReal) (x22 : (⟨1, ![16]⟩ : Shape).Idx → EReal)
    (x23 x24 : (⟨2, ![16, 16]⟩ : Shape).Idx → EReal) (x25 : (⟨1, ![16]⟩ : Shape).Idx → EReal) :
    Net (Fin 200000) (Fin 50000) (Fin 2000000) where
  xp := fun i j => x0 (ValueIdx.ix2 i j)
  xu := fun i j => x1 (ValueIdx.ix2 i j)
  rowV := rowOf 200000 (by decide) x2
  landV := landOf 50000 x3
  rowR := rowOf 50000 (by decide) x4
  landR := landOf 200000 x5
  rowC := rowOf 200000 (by decide) x6
  landC := landOf 200000 x7
  W1v_l := fun i j => x8 (ValueIdx.ix2 i j)
  W1v_r := fun i j => x9 (ValueIdx.ix2 i j)
  b1v := fun j => x10 (ValueIdx.ix1 j)
  W1r_l := fun i j => x11 (ValueIdx.ix2 i j)
  W1r_r := fun i j => x12 (ValueIdx.ix2 i j)
  b1r := fun j => x13 (ValueIdx.ix1 j)
  W1c_l := fun i j => x14 (ValueIdx.ix2 i j)
  W1c_r := fun i j => x15 (ValueIdx.ix2 i j)
  b1c := fun j => x16 (ValueIdx.ix1 j)
  W2v_l := fun i j => x17 (ValueIdx.ix2 i j)
  W2v_r := fun i j => x18 (ValueIdx.ix2 i j)
  b2v := fun j => x19 (ValueIdx.ix1 j)
  W2r_l := fun i j => x20 (ValueIdx.ix2 i j)
  W2r_r := fun i j => x21 (ValueIdx.ix2 i j)
  b2r := fun j => x22 (ValueIdx.ix1 j)
  W2c_l := fun i j => x23 (ValueIdx.ix2 i j)
  W2c_r := fun i j => x24 (ValueIdx.ix2 i j)
  b2c := fun j => x25 (ValueIdx.ix1 j)

end Cert.Sage

end
-- ==== Proof.Algebra.lean ====
/-
  The two forms of the network agree on finite entries.

  Every entry being a real number, each side is the image of a real-valued computation under the inclusion of the
  reals into the extended reals: the inclusion commutes with sums, products, finite sums and maxima, and dividing
  by a nonzero real `c` is multiplying by `1 / c`. On the reals the two forms differ by one exchange of finite sums,
    `∑ k, (∑ e, X e k) · c⁻¹ · W k o = (∑ e, ∑ k, X e k · W k o) · c⁻¹`,
  by distributing a dense product over the sum of two weight matrices, and by regrouping additions.
-/
import proofs.«106252_j16209206575619_2_alg».proof.Proof.Spec

noncomputable section

namespace Cert.Sage

open Idealize.ShloMosaic

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `max`. -/
theorem coe_max (a b : ℝ) : ((max a b : ℝ) : EReal) = max (a : EReal) (b : EReal) :=
  EReal.coe_strictMono.monotone.map_max

section Conv

variable {ε N M κ γ ω : Type} [Fintype ε] [DecidableEq N] [Fintype κ] [Fintype γ] [Fintype ω]

/-- The floored count of the edges landing on `d`, as a real number. -/
def cntR (land : ε → Option N) (d : N) : ℝ :=
  max (∑ _e ∈ Finset.univ.filter (fun e => land e = some d), (1 : ℝ)) 1

theorem cntR_ne (land : ε → Option N) (d : N) : cntR land d ≠ 0 := by
  have h : (1 : ℝ) ≤ cntR land d := le_max_right _ _
  intro h0; rw [h0] at h; norm_num at h

/-- The mean aggregate of the rows `X (row e) · Wl` over the edges landing on `d`, on the reals. -/
def aggR (land : ε → Option N) (row : ε → M) (X : M → κ → ℝ) (Wl : κ → ω → ℝ) (d : N) (o : ω) : ℝ :=
  (∑ e ∈ Finset.univ.filter (fun e => land e = some d), ∑ k, X (row e) k * Wl k o) * (1 / cntR land d)

/-- One convolution on the reals. -/
def convR (land : ε → Option N) (row : ε → M) (X : M → κ → ℝ) (Xd : N → γ → ℝ) (Wl : κ → ω → ℝ)
    (b : ω → ℝ) (Wr : γ → ω → ℝ) (d : N) (o : ω) : ℝ :=
  (aggR land row X Wl d o + b o) + ∑ g, Xd d g * Wr g o

theorem max_segCnt (land : ε → Option N) (d : N) :
    max (segCnt land d) 1 = ((cntR land d : ℝ) : EReal) := by
  unfold segCnt cntR
  rw [coe_max, coe_sum, zero_add]
  simp only [EReal.coe_one]

theorem invCnt_eq (land : ε → Option N) (d : N) : invCnt land d = ((1 / cntR land d : ℝ) : EReal) := by
  unfold invCnt
  rw [max_segCnt, Ideal.div_coe (cntR_ne land d), one_mul]

theorem div_cnt (land : ε → Option N) (d : N) (x : EReal) :
    Ideal.div x (max (segCnt land d) 1) = x * ((1 / cntR land d : ℝ) : EReal) := by
  rw [max_segCnt, Ideal.div_coe (cntR_ne land d)]

theorem segSum_coe (land : ε → Option N) (U : ε → κ → ℝ) (d : N) (f : κ) :
    segSum land (fun e f' => ((U e f' : ℝ) : EReal)) d f
      = ((∑ e ∈ Finset.univ.filter (fun e => land e = some d), U e f : ℝ) : EReal) := by
  unfold segSum
  rw [zero_add, coe_sum]

theorem mm0_coe (A : M → κ → ℝ) (B : κ → ω → ℝ) (r : M) (o : ω) :
    mm0 (fun i j => ((A i j : ℝ) : EReal)) (fun i j => ((B i j : ℝ) : EReal)) r o
      = ((∑ k, A r k * B k o : ℝ) : EReal) := by
  unfold mm0
  rw [zero_add, coe_sum]
  simp only [EReal.coe_mul]

/-- The exchange of sums behind the whole certificate. -/
theorem sum_exchange (s : Finset ε) (x : ε → κ → ℝ) (w : κ → ℝ) (c : ℝ) :
    ∑ k, (∑ e ∈ s, x e k) * c * w k = (∑ e ∈ s, ∑ k, x e k * w k) * c := by
  simp only [Finset.sum_mul]
  rw [Finset.sum_comm]
  refine Finset.sum_congr rfl fun e _ => Finset.sum_congr rfl fun k _ => by ring

/-- The reference's convolution at real entries is the real convolution. -/
theorem refConv_coe (land : ε → Option N) (row : ε → M) (X : M → κ → ℝ) (Xd : N → γ → ℝ) (Wl : κ → ω → ℝ)
    (b : ω → ℝ) (Wr : γ → ω → ℝ) (d : N) (o : ω) :
    refConv land row (fun i j => ((X i j : ℝ) : EReal)) (fun i j => ((Xd i j : ℝ) : EReal))
        (fun i j => ((Wl i j : ℝ) : EReal)) (fun j => ((b j : ℝ) : EReal)) (fun i j => ((Wr i j : ℝ) : EReal)) d o
      = ((convR land row X Xd Wl b Wr d o : ℝ) : EReal) := by
  unfold refConv
  simp only [div_cnt, segSum_coe (U := fun e f' => X (row e) f')]
  simp only [← EReal.coe_mul, ← coe_sum, ← EReal.coe_add]
  refine congrArg _ ?_
  unfold convR aggR
  rw [sum_exchange]

/-- The kernel's aggregate at real entries is the real aggregate. -/
theorem kerAgg_coe (land : ε → Option N) (row : ε → M) (X : M → κ → ℝ) (Wl : κ → ω → ℝ) (d : N) (o : ω) :
    kerAgg land row (fun i j => ((X i j : ℝ) : EReal)) (fun i j => ((Wl i j : ℝ) : EReal)) d o
      = ((aggR land row X Wl d o : ℝ) : EReal) := by
  unfold kerAgg
  simp only [mm0_coe, invCnt_eq]
  rw [segSum_coe (U := fun e o' => ∑ k, X (row e) k * Wl k o'), ← EReal.coe_mul]
  rfl

end Conv

section Layer

variable {ε N M₁ M₂ κ₁ κ₂ γ ω : Type} [Fintype ε] [DecidableEq N] [Fintype κ₁] [Fintype κ₂] [Fintype γ] [Fintype ω]

theorem finish1_coe (Xd : N → γ → ℝ) (Wr : γ → ω → ℝ) (agg : N → ω → ℝ) (b : ω → ℝ) (d : N) (o : ω) :
    finish1 (fun i j => ((Xd i j : ℝ) : EReal)) (fun i j => ((Wr i j : ℝ) : EReal))
        (fun i j => ((agg i j : ℝ) : EReal)) (fun j => ((b j : ℝ) : EReal)) d o
      = ((max (((∑ g, Xd d g * Wr g o) + agg d o) + b o) 0 : ℝ) : EReal) := by
  unfold finish1
  rw [mm0_coe, ← EReal.coe_add, ← EReal.coe_add, coe_max, EReal.coe_zero]

theorem finish2_coe (Xd : N → γ → ℝ) (Wr : γ → ω → ℝ) (agg₁ agg₂ : N → ω → ℝ) (b : ω → ℝ) (d : N) (o : ω) :
    finish2 (fun i j => ((Xd i j : ℝ) : EReal)) (fun i j => ((Wr i j : ℝ) : EReal))
        (fun i j => ((agg₁ i j : ℝ) : EReal)) (fun i j => ((agg₂ i j : ℝ) : EReal)) (fun j => ((b j : ℝ) : EReal)) d o
      = ((max ((((∑ g, Xd d g * Wr g o) + agg₁ d o) + agg₂ d o) + b o) 0 : ℝ) : EReal) := by
  unfold finish2
  rw [mm0_coe, ← EReal.coe_add, ← EReal.coe_add, ← EReal.coe_add, coe_max, EReal.coe_zero]

/-- A node type fed by one edge type: the kernel's layer at real entries. -/
theorem ker1_coe (land : ε → Option N) (row : ε → M₁) (X : M₁ → κ₁ → ℝ) (Xd : N → γ → ℝ) (Wl : κ₁ → ω → ℝ)
    (b : ω → ℝ) (Wr : γ → ω → ℝ) (d : N) (o : ω) :
    finish1 (fun i j => ((Xd i j : ℝ) : EReal)) (fun i j => ((Wr i j : ℝ) : EReal))
        (kerAgg land row (fun i j => ((X i j : ℝ) : EReal)) (fun i j => ((Wl i j : ℝ) : EReal)))
        (fun j => ((b j : ℝ) : EReal)) d o
      = ((max (convR land row X Xd Wl b Wr d o) 0 : ℝ) : EReal) := by
  have hagg : kerAgg land row (fun i j => ((X i j : ℝ) : EReal)) (fun i j => ((Wl i j : ℝ) : EReal))
      = fun d' o' => ((aggR land row X Wl d' o' : ℝ) : EReal) := funext fun d' => funext fun o' => kerAgg_coe land row X Wl d' o'
  rw [hagg, finish1_coe]
  refine congrArg _ (congrArg (fun t => max t 0) ?_)
  unfold convR
  ring

/-- The same node type in the reference. -/
theorem ref1_coe (land : ε → Option N) (row : ε → M₁) (X : M₁ → κ₁ → ℝ) (Xd : N → γ → ℝ) (Wl : κ₁ → ω → ℝ)
    (b : ω → ℝ) (Wr : γ → ω → ℝ) (d : N) (o : ω) :
    max (refConv land row (fun i j => ((X i j : ℝ) : EReal)) (fun i j => ((Xd i j : ℝ) : EReal))
        (fun i j => ((Wl i j : ℝ) : EReal)) (fun j => ((b j : ℝ) : EReal)) (fun i j => ((Wr i j : ℝ) : EReal)) d o) 0
      = ((max (convR land row X Xd Wl b Wr d o) 0 : ℝ) : EReal) := by
  rw [refConv_coe, coe_max, EReal.coe_zero]

/-- A node type fed by two edge types: the kernel adds the two right weights and the two biases first. -/
theorem ker2_coe (land₁ : ε → Option N) (row₁ : ε → M₁) (X₁ : M₁ → κ₁ → ℝ) (Wl₁ : κ₁ → ω → ℝ) (b₁ : ω → ℝ) (Wr₁ : γ → ω → ℝ)
    (land₂ : ε → Option N) (row₂ : ε → M₂) (X₂ : M₂ → κ₂ → ℝ) (Wl₂ : κ₂ → ω → ℝ) (b₂ : ω → ℝ) (Wr₂ : γ → ω → ℝ)
    (Xd : N → γ → ℝ) (d : N) (o : ω) :
    finish2 (fun i j => ((Xd i j : ℝ) : EReal))
        (fun g o' => ((Wr₁ g o' : ℝ) : EReal) + ((Wr₂ g o' : ℝ) : EReal))
        (kerAgg land₁ row₁ (fun i j => ((X₁ i j : ℝ) : EReal)) (fun i j => ((Wl₁ i j : ℝ) : EReal)))
        (kerAgg land₂ row₂ (fun i j => ((X₂ i j : ℝ) : EReal)) (fun i j => ((Wl₂ i j : ℝ) : EReal)))
        (fun o' => ((b₁ o' : ℝ) : EReal) + ((b₂ o' : ℝ) : EReal)) d o
      = ((max (convR land₁ row₁ X₁ Xd Wl₁ b₁ Wr₁ d o + convR land₂ row₂ X₂ Xd Wl₂ b₂ Wr₂ d o) 0 : ℝ) : EReal) := by
  have hagg₁ : kerAgg land₁ row₁ (fun i j => ((X₁ i j : ℝ) : EReal)) (fun i j => ((Wl₁ i j : ℝ) : EReal))
      = fun d' o' => ((aggR land₁ row₁ X₁ Wl₁ d' o' : ℝ) : EReal) := funext fun d' => funext fun o' => kerAgg_coe land₁ row₁ X₁ Wl₁ d' o'
  have hagg₂ : kerAgg land₂ row₂ (fun i j => ((X₂ i j : ℝ) : EReal)) (fun i j => ((Wl₂ i j : ℝ) : EReal))
      = fun d' o' => ((aggR land₂ row₂ X₂ Wl₂ d' o' : ℝ) : EReal) := funext fun d' => funext fun o' => kerAgg_coe land₂ row₂ X₂ Wl₂ d' o'
  have hW : (fun g o' => ((Wr₁ g o' : ℝ) : EReal) + ((Wr₂ g o' : ℝ) : EReal))
      = fun g o' => ((Wr₁ g o' + Wr₂ g o' : ℝ) : EReal) := funext fun g => funext fun o' => (EReal.coe_add _ _).symm
  have hb : (fun o' => ((b₁ o' : ℝ) : EReal) + ((b₂ o' : ℝ) : EReal))
      = fun o' => ((b₁ o' + b₂ o' : ℝ) : EReal) := funext fun o' => (EReal.coe_add _ _).symm
  rw [hagg₁, hagg₂, hW, hb, finish2_coe]
  refine congrArg _ (congrArg (fun t => max t 0) ?_)
  unfold convR
  simp only [mul_add, Finset.sum_add_distrib]
  ring

/-- The same node type in the reference: the two convolutions added. -/
theorem ref2_coe (land₁ : ε → Option N) (row₁ : ε → M₁) (X₁ : M₁ → κ₁ → ℝ) (Wl₁ : κ₁ → ω → ℝ) (b₁ : ω → ℝ) (Wr₁ : γ → ω → ℝ)
    (land₂ : ε → Option N) (row₂ : ε → M₂) (X₂ : M₂ → κ₂ → ℝ) (Wl₂ : κ₂ → ω → ℝ) (b₂ : ω → ℝ) (Wr₂ : γ → ω → ℝ)
    (Xd : N → γ → ℝ) (d : N) (o : ω) :
    max (refConv land₁ row₁ (fun i j => ((X₁ i j : ℝ) : EReal)) (fun i j => ((Xd i j : ℝ) : EReal))
          (fun i j => ((Wl₁ i j : ℝ) : EReal)) (fun j => ((b₁ j : ℝ) : EReal)) (fun i j => ((Wr₁ i j : ℝ) : EReal)) d o
        + refConv land₂ row₂ (fun i j => ((X₂ i j : ℝ) : EReal)) (fun i j => ((Xd i j : ℝ) : EReal))
          (fun i j => ((Wl₂ i j : ℝ) : EReal)) (fun j => ((b₂ j : ℝ) : EReal)) (fun i j => ((Wr₂ i j : ℝ) : EReal)) d o) 0
      = ((max (convR land₁ row₁ X₁ Xd Wl₁ b₁ Wr₁ d o + convR land₂ row₂ X₂ Xd Wl₂ b₂ Wr₂ d o) 0 : ℝ) : EReal) := by
  rw [refConv_coe, refConv_coe, ← EReal.coe_add, coe_max, EReal.coe_zero]

end Layer

section Network

variable {P U ε : Type} [Fintype ε] [DecidableEq P] [DecidableEq U]

/-- On finite entries the kernel's form of the network and the reference's form have the same two outputs. -/
theorem net_eq (I : Net P U ε) (h : I.Finite) : I.kerP2 = I.refP2 ∧ I.kerU2 = I.refU2 := by
  obtain ⟨hxp, hxu, h1vl, h1vr, h1vb, h1rl, h1rr, h1rb, h1cl, h1cr, h1cb,
    h2vl, h2vr, h2vb, h2rl, h2rr, h2rb, h2cl, h2cr, h2cb⟩ := h
  choose xp exp using hxp
  choose xu exu using hxu
  choose W1vl e1vl using h1vl
  choose W1vr e1vr using h1vr
  choose b1v e1vb using h1vb
  choose W1rl e1rl using h1rl
  choose W1rr e1rr using h1rr
  choose b1r e1rb using h1rb
  choose W1cl e1cl using h1cl
  choose W1cr e1cr using h1cr
  choose b1c e1cb using h1cb
  choose W2vl e2vl using h2vl
  choose W2vr e2vr using h2vr
  choose b2v e2vb using h2vb
  choose W2rl e2rl using h2rl
  choose W2rr e2rr using h2rr
  choose b2r e2rb using h2rb
  choose W2cl e2cl using h2cl
  choose W2cr e2cr using h2cr
  choose b2c e2cb using h2cb
  replace exp : I.xp = fun i j => ((xp i j : ℝ) : EReal) := funext fun i => funext fun j => exp i j
  replace exu : I.xu = fun i j => ((xu i j : ℝ) : EReal) := funext fun i => funext fun j => exu i j
  replace e1vl : I.W1v_l = fun i j => ((W1vl i j : ℝ) : EReal) := funext fun i => funext fun j => e1vl i j
  replace e1vr : I.W1v_r = fun i j => ((W1vr i j : ℝ) : EReal) := funext fun i => funext fun j => e1vr i j
  replace e1vb : I.b1v = fun j => ((b1v j : ℝ) : EReal) := funext fun j => e1vb j
  replace e1rl : I.W1r_l = fun i j => ((W1rl i j : ℝ) : EReal) := funext fun i => funext fun j => e1rl i j
  replace e1rr : I.W1r_r = fun i j => ((W1rr i j : ℝ) : EReal) := funext fun i => funext fun j => e1rr i j
  replace e1rb : I.b1r = fun j => ((b1r j : ℝ) : EReal) := funext fun j => e1rb j
  replace e1cl : I.W1c_l = fun i j => ((W1cl i j : ℝ) : EReal) := funext fun i => funext fun j => e1cl i j
  replace e1cr : I.W1c_r = fun i j => ((W1cr i j : ℝ) : EReal) := funext fun i => funext fun j => e1cr i j
  replace e1cb : I.b1c = fun j => ((b1c j : ℝ) : EReal) := funext fun j => e1cb j
  replace e2vl : I.W2v_l = fun i j => ((W2vl i j : ℝ) : EReal) := funext fun i => funext fun j => e2vl i j
  replace e2vr : I.W2v_r = fun i j => ((W2vr i j : ℝ) : EReal) := funext fun i => funext fun j => e2vr i j
  replace e2vb : I.b2v = fun j => ((b2v j : ℝ) : EReal) := funext fun j => e2vb j
  replace e2rl : I.W2r_l = fun i j => ((W2rl i j : ℝ) : EReal) := funext fun i => funext fun j => e2rl i j
  replace e2rr : I.W2r_r = fun i j => ((W2rr i j : ℝ) : EReal) := funext fun i => funext fun j => e2rr i j
  replace e2rb : I.b2r = fun j => ((b2r j : ℝ) : EReal) := funext fun j => e2rb j
  replace e2cl : I.W2c_l = fun i j => ((W2cl i j : ℝ) : EReal) := funext fun i => funext fun j => e2cl i j
  replace e2cr : I.W2c_r = fun i j => ((W2cr i j : ℝ) : EReal) := funext fun i => funext fun j => e2cr i j
  replace e2cb : I.b2c = fun j => ((b2c j : ℝ) : EReal) := funext fun j => e2cb j
  -- the first layer: both forms are the same real matrices
  obtain ⟨u1, hku1, hru1⟩ : ∃ u1 : U → Fin 16 → ℝ,
      I.kerU1 = (fun d o => ((u1 d o : ℝ) : EReal)) ∧ I.refU1 = (fun d o => ((u1 d o : ℝ) : EReal)) := by
    refine ⟨fun d o => max (convR I.landV I.rowV xp xu W1vl b1v W1vr d o) 0, ?_, ?_⟩
    · funext d o
      unfold Net.kerU1
      rw [exp, exu, e1vl, e1vr, e1vb]
      exact ker1_coe I.landV I.rowV xp xu W1vl b1v W1vr d o
    · funext d o
      unfold Net.refU1
      rw [exp, exu, e1vl, e1vr, e1vb]
      exact ref1_coe I.landV I.rowV xp xu W1vl b1v W1vr d o
  obtain ⟨p1, hkp1, hrp1⟩ : ∃ p1 : P → Fin 16 → ℝ,
      I.kerP1 = (fun d o => ((p1 d o : ℝ) : EReal)) ∧ I.refP1 = (fun d o => ((p1 d o : ℝ) : EReal)) := by
    refine ⟨fun d o => max (convR I.landR I.rowR xu xp W1rl b1r W1rr d o
        + convR I.landC I.rowC xp xp W1cl b1c W1cr d o) 0, ?_, ?_⟩
    · funext d o
      unfold Net.kerP1
      rw [exp, exu, e1rl, e1rr, e1rb, e1cl, e1cr, e1cb]
      exact ker2_coe I.landR I.rowR xu W1rl b1r W1rr I.landC I.rowC xp W1cl b1c W1cr xp d o
    · funext d o
      unfold Net.refP1
      rw [exp, exu, e1rl, e1rr, e1rb, e1cl, e1cr, e1cb]
      exact ref2_coe I.landR I.rowR xu W1rl b1r W1rr I.landC I.rowC xp W1cl b1c W1cr xp d o
  -- the second layer reads the first layer's outputs as its feature matrices
  refine ⟨?_, ?_⟩
  · funext d o
    unfold Net.kerP2 Net.refP2
    rw [hku1, hkp1, hru1, hrp1, e2rl, e2rr, e2rb, e2cl, e2cr, e2cb]
    exact (ker2_coe I.landR I.rowR u1 W2rl b2r W2rr I.landC I.rowC p1 W2cl b2c W2cr p1 d o).trans
      (ref2_coe I.landR I.rowR u1 W2rl b2r W2rr I.landC I.rowC p1 W2cl b2c W2cr p1 d o).symm
  · funext d o
    unfold Net.kerU2 Net.refU2
    rw [hku1, hkp1, hru1, hrp1, e2vl, e2vr, e2vb]
    exact (ker1_coe I.landV I.rowV p1 u1 W2vl b2v W2vr d o).trans
      (ref1_coe I.landV I.rowV p1 u1 W2vl b2v W2vr d o).symm

end Network

end Cert.Sage

end
-- ==== Proof.Finite.lean ====
/-
  Finiteness of the inputs. The precondition states, for each of the twenty float arrays `x`, that the conjunction
  over all entries of the comparison `|x| < +∞` is true, and that the conjunction of these twenty truths is true.
  On the extended reals `|x| = max x (-x)` is `+∞` exactly at the two infinities, so `|x| < +∞` says that `x` is a
  real number. Reading the conjunctions back, one array at a time and one index at a time, every float entry of the
  network the arrays describe is a real number.
-/
import proofs.«106252_j16209206575619_2_alg».proof.Defs
import proofs.«106252_j16209206575619_2_alg».proof.Proof.Spec
import proofs.«106252_j16209206575619_2_alg».proof.Proof.Gen.Pre_finite_inputs
import Idealize.ShloMosaic.PureOps.Ideal
import Idealize.ShloMosaic.Lib.ValueIdx
import Idealize.ShloMosaic.Lib.IdealHost
import Idealize.ShloMosaic.Lib.Affine
import Idealize.ShloMosaic.Lib.ReduceAll

noncomputable section

namespace Cert.Finite

open Idealize.ShloMosaic Idealize.ShloMosaic.ValueIdx

/-- The scalar shape has exactly one index. -/
theorem subsingleton_scalarIdx : Subsingleton (⟨0, ![]⟩ : Shape).Idx :=
  ⟨fun a b => funext fun d => d.elim0⟩

/-- The float word `0x7F800000` denotes `+∞`. -/
theorem ofBits_inf : Ideal.ofBits .f32 0x7F800000#32 = (⊤ : EReal) := by
  simp [Ideal.ofBits, Ideal.ieee]

/-- An extended real whose absolute value `max x (-x)` compares strictly below `+∞` is a real number: the
    absolute value of either infinity is `+∞`. -/
theorem real_of_abs_lt_inf (x : Ideal .f32)
    (h : FloatOps.cmpf .olt (FloatOps.hostAbsf x) (FloatOps.ofBits (F := Ideal) .f32 0x7F800000#32) = 1#1) :
    ∃ r : ℝ, (x : EReal) = r := by
  have h' : Ideal.cmp .olt (max (x : EReal) (-(x : EReal))) (Ideal.ofBits .f32 0x7F800000#32) = 1#1 := h
  rw [ofBits_inf] at h'
  unfold Ideal.cmp at h'
  induction x using EReal.rec with
  | bot => simp at h'
  | coe r => exact ⟨r, rfl⟩
  | top => simp at h'

/-- `all (|x| < +∞)` read back at an index, for an array of any shape: if the conjunction over all axes of the
    entrywise comparisons `|x| < +∞` is true, every entry of `x` is a real number. -/
theorem all_real {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32) (init : IVec (⟨0, ![]⟩ : Shape) 1)
    (h : Host.reduce IntOp.andi
          (cmpf .olt (Host.absf x) (broadcastInDim S ![] hb (constant (F := Ideal) (⟨0, ![]⟩ : Shape) .f32 0x7F800000#32)))
          init hr hu ix0 = 1#1) :
    ∀ i : S.Idx, ∃ r : ℝ, (x i : EReal) = r := by
  intro i
  haveI := subsingleton_scalarIdx
  have e := Host.reduce_andi_all _ init hr hu ix0 h i
  rw [cmpf_apply, broadcastInDim_scalar_apply] at e
  exact real_of_abs_lt_inf (x i) e

/-- A conjunction of two one-bit scalars that is true has both conjuncts true. -/
theorem and_scalar {a b : IVec (⟨0, ![]⟩ : Shape) 1} (h : andi a b ix0 = 1#1) : a ix0 = 1#1 ∧ b ix0 = 1#1 :=
  IntOp.andi_eq_one.1 h

/-- Under the precondition, every float entry of the network the 26 arrays describe is a real number. -/
theorem netOf_finite [Cert.Pre_finite_inputs.Facts]
    (x0 : FVec Ideal Cert.Pre_finite_inputs.S200000x64 .f32)
    (x1 : FVec Ideal Cert.Pre_finite_inputs.S50000x32 .f32)
    (x2 : IVec Cert.Pre_finite_inputs.S2000000 32)
    (x3 : IVec Cert.Pre_finite_inputs.S2000000 32)
    (x4 : IVec Cert.Pre_finite_inputs.S2000000 32)
    (x5 : IVec Cert.Pre_finite_inputs.S2000000 32)
    (x6 : IVec Cert.Pre_finite_inputs.S2000000 32)
    (x7 : IVec Cert.Pre_finite_inputs.S2000000 32)
    (x8 : FVec Ideal Cert.Pre_finite_inputs.S64x16 .f32)
    (x9 : FVec Ideal Cert.Pre_finite_inputs.S32x16 .f32)
    (x10 : FVec Ideal Cert.Pre_finite_inputs.S16 .f32)
    (x11 : FVec Ideal Cert.Pre_finite_inputs.S32x16 .f32)
    (x12 : FVec Ideal Cert.Pre_finite_inputs.S64x16 .f32)
    (x13 : FVec Ideal Cert.Pre_finite_inputs.S16 .f32)
    (x14 : FVec Ideal Cert.Pre_finite_inputs.S64x16 .f32)
    (x15 : FVec Ideal Cert.Pre_finite_inputs.S64x16 .f32)
    (x16 : FVec Ideal Cert.Pre_finite_inputs.S16 .f32)
    (x17 : FVec Ideal Cert.Pre_finite_inputs.S16x16 .f32)
    (x18 : FVec Ideal Cert.Pre_finite_inputs.S16x16 .f32)
    (x19 : FVec Ideal Cert.Pre_finite_inputs.S16 .f32)
    (x20 : FVec Ideal Cert.Pre_finite_inputs.S16x16 .f32)
    (x21 : FVec Ideal Cert.Pre_finite_inputs.S16x16 .f32)
    (x22 : FVec Ideal Cert.Pre_finite_inputs.S16 .f32)
    (x23 : FVec Ideal Cert.Pre_finite_inputs.S16x16 .f32)
    (x24 : FVec Ideal Cert.Pre_finite_inputs.S16x16 .f32)
    (x25 : FVec Ideal Cert.Pre_finite_inputs.S16 .f32)
    (h : Cert.Pre_finite_inputs.fn (F := Ideal) x0 x1 x2 x3 x4 x5 x6 x7 x8 x9 x10 x11 x12 x13 x14 x15 x16 x17 x18 x19 x20 x21 x22 x23 x24 x25 = (fun _ => 1#1)) :
    (Cert.Sage.netOf x0 x1 x2 x3 x4 x5 x6 x7 x8 x9 x10 x11 x12 x13 x14 x15 x16 x17 x18 x19 x20 x21 x22 x23 x24 x25).Finite := by
  have h0 := congrFun h ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at h0
  obtain ⟨h0, h25⟩ := and_scalar h0
  obtain ⟨h0, h24⟩ := and_scalar h0
  obtain ⟨h0, h23⟩ := and_scalar h0
  obtain ⟨h0, h22⟩ := and_scalar h0
  obtain ⟨h0, h21⟩ := and_scalar h0
  obtain ⟨h0, h20⟩ := and_scalar h0
  obtain ⟨h0, h19⟩ := and_scalar h0
  obtain ⟨h0, h18⟩ := and_scalar h0
  obtain ⟨h0, h17⟩ := and_scalar h0
  obtain ⟨h0, h16⟩ := and_scalar h0
  obtain ⟨h0, h15⟩ := and_scalar h0
  obtain ⟨h0, h14⟩ := and_scalar h0
  obtain ⟨h0, h13⟩ := and_scalar h0
  obtain ⟨h0, h12⟩ := and_scalar h0
  obtain ⟨h0, h11⟩ := and_scalar h0
  obtain ⟨h0, h10⟩ := and_scalar h0
  obtain ⟨h0, h9⟩ := and_scalar h0
  obtain ⟨h0, h8⟩ := and_scalar h0
  obtain ⟨h0, h1⟩ := and_scalar h0
  have a0 := all_real _ _ _ x0 _ h0
  have a1 := all_real _ _ _ x1 _ h1
  have a8 := all_real _ _ _ x8 _ h8
  have a9 := all_real _ _ _ x9 _ h9
  have a10 := all_real _ _ _ x10 _ h10
  have a11 := all_real _ _ _ x11 _ h11
  have a12 := all_real _ _ _ x12 _ h12
  have a13 := all_real _ _ _ x13 _ h13
  have a14 := all_real _ _ _ x14 _ h14
  have a15 := all_real _ _ _ x15 _ h15
  have a16 := all_real _ _ _ x16 _ h16
  have a17 := all_real _ _ _ x17 _ h17
  have a18 := all_real _ _ _ x18 _ h18
  have a19 := all_real _ _ _ x19 _ h19
  have a20 := all_real _ _ _ x20 _ h20
  have a21 := all_real _ _ _ x21 _ h21
  have a22 := all_real _ _ _ x22 _ h22
  have a23 := all_real _ _ _ x23 _ h23
  have a24 := all_real _ _ _ x24 _ h24
  have a25 := all_real _ _ _ x25 _ h25
  exact ⟨fun i j => a0 (ix2 i j),
    fun i j => a1 (ix2 i j),
    fun i j => a8 (ix2 i j),
    fun i j => a9 (ix2 i j),
    fun j => a10 (ix1 j),
    fun i j => a11 (ix2 i j),
    fun i j => a12 (ix2 i j),
    fun j => a13 (ix1 j),
    fun i j => a14 (ix2 i j),
    fun i j => a15 (ix2 i j),
    fun j => a16 (ix1 j),
    fun i j => a17 (ix2 i j),
    fun i j => a18 (ix2 i j),
    fun j => a19 (ix1 j),
    fun i j => a20 (ix2 i j),
    fun i j => a21 (ix2 i j),
    fun j => a22 (ix1 j),
    fun i j => a23 (ix2 i j),
    fun i j => a24 (ix2 i j),
    fun j => a25 (ix1 j)⟩

/-- The same, for the arrays a memory holds at the idealized kernel's argument locations on a device. -/
theorem finite_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.Sage.netOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))).Finite :=
  netOf_finite _ _ _ _ _ _ _ _ _ _ _ _ _ _ _ _ _ _ _ _ _ _ _ _ _ _ (hpre c)

end Cert.Finite

end
-- ==== Proof.KerRun.lean ====
/-
  The kernel program's run with its two results named.

  The program is eight kernel launches among five stretches of host operations. Its buffer contents are followed
  boundary by boundary from the launch memory: a host stretch computes its results from what it finds, a launch
  replaces its output arrays by what its grid points wrote back and leaves every other buffer alone. Every buffer is
  written once, so a buffer read at a later boundary holds what its writer left. The run ends with every buffer at
  the last boundary's contents; the two results are the last two finish launches' output arrays.
-/
import proofs.«106252_j16209206575619_2_alg».proof.Proof.Gen.KernelIdeal.Frame
import Idealize.ShloMosaic.PureOps.Ideal

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the kernel program ends, without a fault, with its two results at the last
    boundary's contents of their buffers and its argument arrays as launched. -/
theorem run_results : θ_run defs (onTc (τ := τ) (main (F := Ideal))) ⟨m, fun _ => 0, ρ⟩ (fun r => ∀ c : Dev nD,
      r.2.mem ((c.tc : Thread nD τ).loc main_v114) = W13 m ρ c (Proc.devRef .tc main_v114)
      ∧ r.2.mem ((c.tc : Thread nD τ).loc main_v110) = W13 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v114 (by decide)),
       h c _ (mem_uc main_v110 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c),
       (h c _ (mem_uc main_arg25 (by decide))).trans (W13_main_arg25 m ρ c)⟩)

/-! ## A launch leaves the buffers it does not output alone -/

/-- Region 0 leaves every buffer that is not one of its outputs as it found it: an input array is never written,
    and a buffer that is none of its arrays is untouched. -/
theorem keep2 (c : Dev nD) (b : Ref sig .tc) (h3 : Pipeline.arrRef spec0 3 ≠ b) (h4 : Pipeline.arrRef spec0 4 ≠ b) :
    W2 m ρ c (Proc.devRef .tc b) = W1 m ρ c (Proc.devRef .tc b) := by
  by_cases e0 : Pipeline.arrRef spec0 0 = b
  · subst e0
    exact (W2_arr m ρ c 0).trans (((dat0 (V1 m ρ) c).arrAt_in 0 rfl _).trans (A_eq0 (V1 m ρ) c 0))
  by_cases e1 : Pipeline.arrRef spec0 1 = b
  · subst e1
    exact (W2_arr m ρ c 1).trans (((dat0 (V1 m ρ) c).arrAt_in 1 rfl _).trans (A_eq0 (V1 m ρ) c 1))
  by_cases e2 : Pipeline.arrRef spec0 2 = b
  · subst e2
    exact (W2_arr m ρ c 2).trans (((dat0 (V1 m ρ) c).arrAt_in 2 rfl _).trans (A_eq0 (V1 m ρ) c 2))
  refine W2_of_ne m ρ c b fun w => ?_
  have hW : cfg0.W = 5 := rfl
  rcases w with ⟨_ | _ | _ | _ | _ | n, hw⟩
  · exact e0
  · exact e1
  · exact e2
  · exact h3
  · exact h4
  · exact absurd hw (by omega)

/-- Region 1 leaves every buffer that is not one of its outputs as it found it: an input array is never written,
    and a buffer that is none of its arrays is untouched. -/
theorem keep3 (c : Dev nD) (b : Ref sig .tc) (h2 : Pipeline.arrRef spec1 2 ≠ b) :
    W3 m ρ c (Proc.devRef .tc b) = W2 m ρ c (Proc.devRef .tc b) := by
  by_cases e0 : Pipeline.arrRef spec1 0 = b
  · subst e0
    exact (W3_arr m ρ c 0).trans (((dat1 (V2 m ρ) c).arrAt_in 0 rfl _).trans (A_eq1 (V2 m ρ) c 0))
  by_cases e1 : Pipeline.arrRef spec1 1 = b
  · subst e1
    exact (W3_arr m ρ c 1).trans (((dat1 (V2 m ρ) c).arrAt_in 1 rfl _).trans (A_eq1 (V2 m ρ) c 1))
  refine W3_of_ne m ρ c b fun w => ?_
  have hW : cfg1.W = 3 := rfl
  rcases w with ⟨_ | _ | _ | n, hw⟩
  · exact e0
  · exact e1
  · exact h2
  · exact absurd hw (by omega)

/-- Region 2 leaves every buffer that is not one of its outputs as it found it: an input array is never written,
    and a buffer that is none of its arrays is untouched. -/
theorem keep5 (c : Dev nD) (b : Ref sig .tc) (h4 : Pipeline.arrRef spec2 4 ≠ b) :
    W5 m ρ c (Proc.devRef .tc b) = W4 m ρ c (Proc.devRef .tc b) := by
  by_cases e0 : Pipeline.arrRef spec2 0 = b
  · subst e0
    exact (W5_arr m ρ c 0).trans (((dat2 (V4 m ρ) c).arrAt_in 0 rfl _).trans (A_eq2 (V4 m ρ) c 0))
  by_cases e1 : Pipeline.arrRef spec2 1 = b
  · subst e1
    exact (W5_arr m ρ c 1).trans (((dat2 (V4 m ρ) c).arrAt_in 1 rfl _).trans (A_eq2 (V4 m ρ) c 1))
  by_cases e2 : Pipeline.arrRef spec2 2 = b
  · subst e2
    exact (W5_arr m ρ c 2).trans (((dat2 (V4 m ρ) c).arrAt_in 2 rfl _).trans (A_eq2 (V4 m ρ) c 2))
  by_cases e3 : Pipeline.arrRef spec2 3 = b
  · subst e3
    exact (W5_arr m ρ c 3).trans (((dat2 (V4 m ρ) c).arrAt_in 3 rfl _).trans (A_eq2 (V4 m ρ) c 3))
  refine W5_of_ne m ρ c b fun w => ?_
  have hW : cfg2.W = 5 := rfl
  rcases w with ⟨_ | _ | _ | _ | _ | n, hw⟩
  · exact e0
  · exact e1
  · exact e2
  · exact e3
  · exact h4
  · exact absurd hw (by omega)

/-- Region 3 leaves every buffer that is not one of its outputs as it found it: an input array is never written,
    and a buffer that is none of its arrays is untouched. -/
theorem keep7 (c : Dev nD) (b : Ref sig .tc) (h5 : Pipeline.arrRef spec3 5 ≠ b) :
    W7 m ρ c (Proc.devRef .tc b) = W6 m ρ c (Proc.devRef .tc b) := by
  by_cases e0 : Pipeline.arrRef spec3 0 = b
  · subst e0
    exact (W7_arr m ρ c 0).trans (((dat3 (V6 m ρ) c).arrAt_in 0 rfl _).trans (A_eq3 (V6 m ρ) c 0))
  by_cases e1 : Pipeline.arrRef spec3 1 = b
  · subst e1
    exact (W7_arr m ρ c 1).trans (((dat3 (V6 m ρ) c).arrAt_in 1 rfl _).trans (A_eq3 (V6 m ρ) c 1))
  by_cases e2 : Pipeline.arrRef spec3 2 = b
  · subst e2
    exact (W7_arr m ρ c 2).trans (((dat3 (V6 m ρ) c).arrAt_in 2 rfl _).trans (A_eq3 (V6 m ρ) c 2))
  by_cases e3 : Pipeline.arrRef spec3 3 = b
  · subst e3
    exact (W7_arr m ρ c 3).trans (((dat3 (V6 m ρ) c).arrAt_in 3 rfl _).trans (A_eq3 (V6 m ρ) c 3))
  by_cases e4 : Pipeline.arrRef spec3 4 = b
  · subst e4
    exact (W7_arr m ρ c 4).trans (((dat3 (V6 m ρ) c).arrAt_in 4 rfl _).trans (A_eq3 (V6 m ρ) c 4))
  refine W7_of_ne m ρ c b fun w => ?_
  have hW : cfg3.W = 6 := rfl
  rcases w with ⟨_ | _ | _ | _ | _ | _ | n, hw⟩
  · exact e0
  · exact e1
  · exact e2
  · exact e3
  · exact e4
  · exact h5
  · exact absurd hw (by omega)

/-- Region 4 leaves every buffer that is not one of its outputs as it found it: an input array is never written,
    and a buffer that is none of its arrays is untouched. -/
theorem keep8 (c : Dev nD) (b : Ref sig .tc) (h3 : Pipeline.arrRef spec4 3 ≠ b) (h4 : Pipeline.arrRef spec4 4 ≠ b) :
    W8 m ρ c (Proc.devRef .tc b) = W7 m ρ c (Proc.devRef .tc b) := by
  by_cases e0 : Pipeline.arrRef spec4 0 = b
  · subst e0
    exact (W8_arr m ρ c 0).trans (((dat4 (V7 m ρ) c).arrAt_in 0 rfl _).trans (A_eq4 (V7 m ρ) c 0))
  by_cases e1 : Pipeline.arrRef spec4 1 = b
  · subst e1
    exact (W8_arr m ρ c 1).trans (((dat4 (V7 m ρ) c).arrAt_in 1 rfl _).trans (A_eq4 (V7 m ρ) c 1))
  by_cases e2 : Pipeline.arrRef spec4 2 = b
  · subst e2
    exact (W8_arr m ρ c 2).trans (((dat4 (V7 m ρ) c).arrAt_in 2 rfl _).trans (A_eq4 (V7 m ρ) c 2))
  refine W8_of_ne m ρ c b fun w => ?_
  have hW : cfg4.W = 5 := rfl
  rcases w with ⟨_ | _ | _ | _ | _ | n, hw⟩
  · exact e0
  · exact e1
  · exact e2
  · exact h3
  · exact h4
  · exact absurd hw (by omega)

/-- Region 5 leaves every buffer that is not one of its outputs as it found it: an input array is never written,
    and a buffer that is none of its arrays is untouched. -/
theorem keep9 (c : Dev nD) (b : Ref sig .tc) (h2 : Pipeline.arrRef spec5 2 ≠ b) :
    W9 m ρ c (Proc.devRef .tc b) = W8 m ρ c (Proc.devRef .tc b) := by
  by_cases e0 : Pipeline.arrRef spec5 0 = b
  · subst e0
    exact (W9_arr m ρ c 0).trans (((dat5 (V8 m ρ) c).arrAt_in 0 rfl _).trans (A_eq5 (V8 m ρ) c 0))
  by_cases e1 : Pipeline.arrRef spec5 1 = b
  · subst e1
    exact (W9_arr m ρ c 1).trans (((dat5 (V8 m ρ) c).arrAt_in 1 rfl _).trans (A_eq5 (V8 m ρ) c 1))
  refine W9_of_ne m ρ c b fun w => ?_
  have hW : cfg5.W = 3 := rfl
  rcases w with ⟨_ | _ | _ | n, hw⟩
  · exact e0
  · exact e1
  · exact h2
  · exact absurd hw (by omega)

/-- Region 6 leaves every buffer that is not one of its outputs as it found it: an input array is never written,
    and a buffer that is none of its arrays is untouched. -/
theorem keep11 (c : Dev nD) (b : Ref sig .tc) (h4 : Pipeline.arrRef spec6 4 ≠ b) :
    W11 m ρ c (Proc.devRef .tc b) = W10 m ρ c (Proc.devRef .tc b) := by
  by_cases e0 : Pipeline.arrRef spec6 0 = b
  · subst e0
    exact (W11_arr m ρ c 0).trans (((dat6 (V10 m ρ) c).arrAt_in 0 rfl _).trans (A_eq6 (V10 m ρ) c 0))
  by_cases e1 : Pipeline.arrRef spec6 1 = b
  · subst e1
    exact (W11_arr m ρ c 1).trans (((dat6 (V10 m ρ) c).arrAt_in 1 rfl _).trans (A_eq6 (V10 m ρ) c 1))
  by_cases e2 : Pipeline.arrRef spec6 2 = b
  · subst e2
    exact (W11_arr m ρ c 2).trans (((dat6 (V10 m ρ) c).arrAt_in 2 rfl _).trans (A_eq6 (V10 m ρ) c 2))
  by_cases e3 : Pipeline.arrRef spec6 3 = b
  · subst e3
    exact (W11_arr m ρ c 3).trans (((dat6 (V10 m ρ) c).arrAt_in 3 rfl _).trans (A_eq6 (V10 m ρ) c 3))
  refine W11_of_ne m ρ c b fun w => ?_
  have hW : cfg6.W = 5 := rfl
  rcases w with ⟨_ | _ | _ | _ | _ | n, hw⟩
  · exact e0
  · exact e1
  · exact e2
  · exact e3
  · exact h4
  · exact absurd hw (by omega)

/-- Region 7 leaves every buffer that is not one of its outputs as it found it: an input array is never written,
    and a buffer that is none of its arrays is untouched. -/
theorem keep13 (c : Dev nD) (b : Ref sig .tc) (h5 : Pipeline.arrRef spec7 5 ≠ b) :
    W13 m ρ c (Proc.devRef .tc b) = W12 m ρ c (Proc.devRef .tc b) := by
  by_cases e0 : Pipeline.arrRef spec7 0 = b
  · subst e0
    exact (W13_arr m ρ c 0).trans (((dat7 (V12 m ρ) c).arrAt_in 0 rfl _).trans (A_eq7 (V12 m ρ) c 0))
  by_cases e1 : Pipeline.arrRef spec7 1 = b
  · subst e1
    exact (W13_arr m ρ c 1).trans (((dat7 (V12 m ρ) c).arrAt_in 1 rfl _).trans (A_eq7 (V12 m ρ) c 1))
  by_cases e2 : Pipeline.arrRef spec7 2 = b
  · subst e2
    exact (W13_arr m ρ c 2).trans (((dat7 (V12 m ρ) c).arrAt_in 2 rfl _).trans (A_eq7 (V12 m ρ) c 2))
  by_cases e3 : Pipeline.arrRef spec7 3 = b
  · subst e3
    exact (W13_arr m ρ c 3).trans (((dat7 (V12 m ρ) c).arrAt_in 3 rfl _).trans (A_eq7 (V12 m ρ) c 3))
  by_cases e4 : Pipeline.arrRef spec7 4 = b
  · subst e4
    exact (W13_arr m ρ c 4).trans (((dat7 (V12 m ρ) c).arrAt_in 4 rfl _).trans (A_eq7 (V12 m ρ) c 4))
  refine W13_of_ne m ρ c b fun w => ?_
  have hW : cfg7.W = 6 := rfl
  rcases w with ⟨_ | _ | _ | _ | _ | _ | n, hw⟩
  · exact e0
  · exact e1
  · exact e2
  · exact e3
  · exact e4
  · exact h5
  · exact absurd hw (by omega)

/-! The same facts in the form a rewriting pass can use: the buffer's reference is matched after the boundary, not before. -/

theorem keep2' (c : Dev nD) (b : Ref sig .tc) (h3 : Pipeline.arrRef spec0 3 ≠ b) (h4 : Pipeline.arrRef spec0 4 ≠ b) :
    W2 m ρ c (no_index (Proc.devRef .tc b)) = W1 m ρ c (Proc.devRef .tc b) :=
  keep2 m ρ c b h3 h4
theorem keep3' (c : Dev nD) (b : Ref sig .tc) (h2 : Pipeline.arrRef spec1 2 ≠ b) :
    W3 m ρ c (no_index (Proc.devRef .tc b)) = W2 m ρ c (Proc.devRef .tc b) :=
  keep3 m ρ c b h2
theorem keep5' (c : Dev nD) (b : Ref sig .tc) (h4 : Pipeline.arrRef spec2 4 ≠ b) :
    W5 m ρ c (no_index (Proc.devRef .tc b)) = W4 m ρ c (Proc.devRef .tc b) :=
  keep5 m ρ c b h4
theorem keep7' (c : Dev nD) (b : Ref sig .tc) (h5 : Pipeline.arrRef spec3 5 ≠ b) :
    W7 m ρ c (no_index (Proc.devRef .tc b)) = W6 m ρ c (Proc.devRef .tc b) :=
  keep7 m ρ c b h5
theorem keep8' (c : Dev nD) (b : Ref sig .tc) (h3 : Pipeline.arrRef spec4 3 ≠ b) (h4 : Pipeline.arrRef spec4 4 ≠ b) :
    W8 m ρ c (no_index (Proc.devRef .tc b)) = W7 m ρ c (Proc.devRef .tc b) :=
  keep8 m ρ c b h3 h4
theorem keep9' (c : Dev nD) (b : Ref sig .tc) (h2 : Pipeline.arrRef spec5 2 ≠ b) :
    W9 m ρ c (no_index (Proc.devRef .tc b)) = W8 m ρ c (Proc.devRef .tc b) :=
  keep9 m ρ c b h2
theorem keep11' (c : Dev nD) (b : Ref sig .tc) (h4 : Pipeline.arrRef spec6 4 ≠ b) :
    W11 m ρ c (no_index (Proc.devRef .tc b)) = W10 m ρ c (Proc.devRef .tc b) :=
  keep11 m ρ c b h4
theorem keep13' (c : Dev nD) (b : Ref sig .tc) (h5 : Pipeline.arrRef spec7 5 ≠ b) :
    W13 m ρ c (no_index (Proc.devRef .tc b)) = W12 m ρ c (Proc.devRef .tc b) :=
  keep13 m ρ c b h5

end Cert.KernelIdeal.KerRun

end
-- ==== Proof.KerArgs.lean ====
/-
  The argument arrays are never written: at every boundary of the kernel program's run an argument's buffer still
  holds what it was launched with. Stated here at exactly the boundaries where something reads an argument.
-/
import proofs.«106252_j16209206575619_2_alg».proof.Proof.KerRun

set_option maxRecDepth 16384

noncomputable section

namespace Cert.KernelIdeal.KerRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Follow a buffer's contents back through the boundaries: a launch that does not output it leaves it alone, a host
    operation that does not write it leaves it alone, and the host operation that writes it gives it its function's
    value of the operands' contents. -/
macro "xport" : tactic => `(tactic| simp (disch := decide) only [keep13', keep11', keep9', keep8', keep7', keep5', keep3', keep2',
  StableHlo.after_cons, StableHlo.after_nil,
  StableHlo.nullary_result', StableHlo.unary_result', StableHlo.binary_result', StableHlo.ternary_result',
  StableHlo.quaternary_result', StableHlo.reshape_result',
  StableHlo.nullary_result_ne', StableHlo.unary_result_ne', StableHlo.binary_result_ne', StableHlo.ternary_result_ne',
  StableHlo.quaternary_result_ne', StableHlo.reshape_result_ne'])

theorem arg0_at1 : W1 m ρ c (Proc.devRef .tc main_arg0) = m ((c.tc : Thread nD τ).loc main_arg0) := by
  xport <;> rfl
theorem arg8_at1 : W1 m ρ c (Proc.devRef .tc main_arg8) = m ((c.tc : Thread nD τ).loc main_arg8) := by
  xport <;> rfl
theorem arg14_at1 : W1 m ρ c (Proc.devRef .tc main_arg14) = m ((c.tc : Thread nD τ).loc main_arg14) := by
  xport <;> rfl
theorem arg1_at2 : W2 m ρ c (Proc.devRef .tc main_arg1) = m ((c.tc : Thread nD τ).loc main_arg1) := by
  xport <;> rfl
theorem arg11_at2 : W2 m ρ c (Proc.devRef .tc main_arg11) = m ((c.tc : Thread nD τ).loc main_arg11) := by
  xport <;> rfl
theorem arg2_at3 : W3 m ρ c (Proc.devRef .tc main_arg2) = m ((c.tc : Thread nD τ).loc main_arg2) := by
  xport <;> rfl
theorem arg3_at3 : W3 m ρ c (Proc.devRef .tc main_arg3) = m ((c.tc : Thread nD τ).loc main_arg3) := by
  xport <;> rfl
theorem arg4_at3 : W3 m ρ c (Proc.devRef .tc main_arg4) = m ((c.tc : Thread nD τ).loc main_arg4) := by
  xport <;> rfl
theorem arg5_at3 : W3 m ρ c (Proc.devRef .tc main_arg5) = m ((c.tc : Thread nD τ).loc main_arg5) := by
  xport <;> rfl
theorem arg6_at3 : W3 m ρ c (Proc.devRef .tc main_arg6) = m ((c.tc : Thread nD τ).loc main_arg6) := by
  xport <;> rfl
theorem arg7_at3 : W3 m ρ c (Proc.devRef .tc main_arg7) = m ((c.tc : Thread nD τ).loc main_arg7) := by
  xport <;> rfl
theorem arg10_at3 : W3 m ρ c (Proc.devRef .tc main_arg10) = m ((c.tc : Thread nD τ).loc main_arg10) := by
  xport <;> rfl
theorem arg1_at4 : W4 m ρ c (Proc.devRef .tc main_arg1) = m ((c.tc : Thread nD τ).loc main_arg1) := by
  xport <;> rfl
theorem arg9_at4 : W4 m ρ c (Proc.devRef .tc main_arg9) = m ((c.tc : Thread nD τ).loc main_arg9) := by
  xport <;> rfl
theorem arg12_at5 : W5 m ρ c (Proc.devRef .tc main_arg12) = m ((c.tc : Thread nD τ).loc main_arg12) := by
  xport <;> rfl
theorem arg15_at5 : W5 m ρ c (Proc.devRef .tc main_arg15) = m ((c.tc : Thread nD τ).loc main_arg15) := by
  xport <;> rfl
theorem arg13_at5 : W5 m ρ c (Proc.devRef .tc main_arg13) = m ((c.tc : Thread nD τ).loc main_arg13) := by
  xport <;> rfl
theorem arg16_at5 : W5 m ρ c (Proc.devRef .tc main_arg16) = m ((c.tc : Thread nD τ).loc main_arg16) := by
  xport <;> rfl
theorem arg0_at6 : W6 m ρ c (Proc.devRef .tc main_arg0) = m ((c.tc : Thread nD τ).loc main_arg0) := by
  xport <;> rfl
theorem arg17_at7 : W7 m ρ c (Proc.devRef .tc main_arg17) = m ((c.tc : Thread nD τ).loc main_arg17) := by
  xport <;> rfl
theorem arg23_at7 : W7 m ρ c (Proc.devRef .tc main_arg23) = m ((c.tc : Thread nD τ).loc main_arg23) := by
  xport <;> rfl
theorem arg20_at8 : W8 m ρ c (Proc.devRef .tc main_arg20) = m ((c.tc : Thread nD τ).loc main_arg20) := by
  xport <;> rfl
theorem arg2_at9 : W9 m ρ c (Proc.devRef .tc main_arg2) = m ((c.tc : Thread nD τ).loc main_arg2) := by
  xport <;> rfl
theorem arg3_at9 : W9 m ρ c (Proc.devRef .tc main_arg3) = m ((c.tc : Thread nD τ).loc main_arg3) := by
  xport <;> rfl
theorem arg4_at9 : W9 m ρ c (Proc.devRef .tc main_arg4) = m ((c.tc : Thread nD τ).loc main_arg4) := by
  xport <;> rfl
theorem arg5_at9 : W9 m ρ c (Proc.devRef .tc main_arg5) = m ((c.tc : Thread nD τ).loc main_arg5) := by
  xport <;> rfl
theorem arg6_at9 : W9 m ρ c (Proc.devRef .tc main_arg6) = m ((c.tc : Thread nD τ).loc main_arg6) := by
  xport <;> rfl
theorem arg7_at9 : W9 m ρ c (Proc.devRef .tc main_arg7) = m ((c.tc : Thread nD τ).loc main_arg7) := by
  xport <;> rfl
theorem arg19_at9 : W9 m ρ c (Proc.devRef .tc main_arg19) = m ((c.tc : Thread nD τ).loc main_arg19) := by
  xport <;> rfl
theorem arg18_at10 : W10 m ρ c (Proc.devRef .tc main_arg18) = m ((c.tc : Thread nD τ).loc main_arg18) := by
  xport <;> rfl
theorem arg21_at11 : W11 m ρ c (Proc.devRef .tc main_arg21) = m ((c.tc : Thread nD τ).loc main_arg21) := by
  xport <;> rfl
theorem arg24_at11 : W11 m ρ c (Proc.devRef .tc main_arg24) = m ((c.tc : Thread nD τ).loc main_arg24) := by
  xport <;> rfl
theorem arg22_at11 : W11 m ρ c (Proc.devRef .tc main_arg22) = m ((c.tc : Thread nD τ).loc main_arg22) := by
  xport <;> rfl
theorem arg25_at11 : W11 m ρ c (Proc.devRef .tc main_arg25) = m ((c.tc : Thread nD τ).loc main_arg25) := by
  xport <;> rfl

end Cert.KernelIdeal.KerRun

end
-- ==== Proof.LibRowOps.lean ====
import Idealize.ShloMosaic.PureOps.Ideal
import Idealize.ShloMosaic.Lib.ValueIdx

/-!
# Row gathers and row scatter-adds, read at an index

A table `x : [n, F]` indexed by an integer column `idx : [E, 1]`:

* the row gather `x[idx]` has result `[E, F]`; its entry `(e, f)` is `x (r, f)`, where `r` is the
  start index `idx (e, 0)` read as a signed integer and clamped into `[0, n - 1]`;
* the row scatter-add (a segment sum) adds update row `e` of `upd : [E, F]` into row `idx (e, 0)` of `x`;
  an update whose start index, read signed, is outside `[0, n)` is dropped. Entry `(r, f)` of the result is
  `x (r, f)` plus the sum of `upd (e, f)` over the update rows `e` that land on row `r`;
* the same for a vector `x : [n]` with updates `upd : [E]`.

Everything is stated for arbitrary extents `n`, `F`, `E` and an arbitrary index width `w`.
-/

noncomputable section

open scoped BigOperators

namespace Idealize.ShloMosaic.RowOps

open Idealize.ShloMosaic Idealize.ShloMosaic.ValueIdx

/-! ## Dimension numbers -/

/-- The dimension numbers of the row gather `x[idx]` for a table `[n, F]`, start indices `[E, 1]` and result
    `[E, F]`: one slice `[1, F]` per start index, the row axis collapsed, the column axis the result's offset
    axis; the index vector lies along axis 1 of the start indices and names operand axis 0. -/
abbrev rowGatherDims (n F E : Nat)
    (wf : GatherDims.WF ⟨2, ![n, F]⟩ ⟨2, ![E, 1]⟩ ⟨2, ![E, F]⟩ [1] [0] [] [0] [] 1 ![1, F]) :
    GatherDims ⟨2, ![n, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of the row scatter for a table `[n, F]`, scatter indices `[E, 1]` and updates
    `[E, F]`: each update row is a window `[1, F]` whose row axis is inserted; the index vector lies along axis 1
    of the scatter indices and names operand axis 0. -/
abbrev rowScatterDims (n F E : Nat) (wf : ScatterDims.WF ⟨2, ![n, F]⟩ ⟨2, ![E, 1]⟩ ⟨2, ![E, F]⟩ [1] [0] [0] 1) :
    ScatterDims ⟨2, ![n, F]⟩ ⟨2, ![E, 1]⟩ ⟨2, ![E, F]⟩ where
  updateWindowDims := [1]
  insertedWindowDims := [0]
  scatterDimsToOperandDims := [0]
  indexVectorDim := 1
  wf := wf

/-- The dimension numbers of the scatter into a vector `[n]` at scatter indices `[E, 1]` with updates `[E]`:
    each update is one element (no window axes), the vector's axis is inserted. -/
abbrev vecScatterDims (n E : Nat) (wf : ScatterDims.WF ⟨1, ![n]⟩ ⟨2, ![E, 1]⟩ ⟨1, ![E]⟩ [] [0] [0] 1) :
    ScatterDims ⟨1, ![n]⟩ ⟨2, ![E, 1]⟩ ⟨1, ![E]⟩ where
  updateWindowDims := []
  insertedWindowDims := [0]
  scatterDimsToOperandDims := [0]
  indexVectorDim := 1
  wf := wf

/-! ## Where an update lands, and which row a gather reads -/

/-- The row of an `n`-row operand on which update `e` lands: its start index `idx (e, 0)` read as a signed
    integer, when that is in `[0, n)`; `none` when it is not (the update is dropped). -/
def land (n : Nat) {E w : Nat} (idx : IVec ⟨2, ![E, 1]⟩ w) (e : Fin E) : Option (Fin n) :=
  if h : 0 ≤ (idx (ix2 e 0)).toInt ∧ (idx (ix2 e 0)).toInt < n then
    some ⟨(idx (ix2 e 0)).toInt.toNat, by omega⟩
  else none

/-- The row of an `n`-row operand that a gather reads for start index `e`: `idx (e, 0)` read as a signed
    integer and clamped into `[0, n - 1]` (a negative index reads row `0`). -/
def clampRow (n : Nat) (hn : 0 < n) {E w : Nat} (idx : IVec ⟨2, ![E, 1]⟩ w) (e : Fin E) : Fin n :=
  ⟨min (idx (ix2 e 0)).toInt.toNat (n - 1), by omega⟩

/-! ## The row scatter-add at an index -/

section RowScatter

variable {n F E w : Nat} (wf : ScatterDims.WF ⟨2, ![n, F]⟩ ⟨2, ![E, 1]⟩ ⟨2, ![E, F]⟩ [1] [0] [0] 1)

/-- The scatter-indices index at which update `(e, f)` reads its one start-index component: `(e, 0)`. -/
theorem rowScatter_siIdx (e : Fin E) (f : Fin F) :
    (rowScatterDims n F E wf).siIdx (ix2 e f) ⟨List.idxOf (0 : Fin 2) (rowScatterDims n F E wf).scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- On the row axis the window of update `(e, f)` starts at its start index, read signed. -/
theorem rowScatter_start_zero (idx : IVec ⟨2, ![E, 1]⟩ w) (e : Fin E) (f : Fin F) :
    (rowScatterDims n F E wf).start (ix2 e f) idx 0 = (idx (ix2 e 0)).toInt := by
  unfold ScatterDims.start
  rw [dif_pos (show (0 : Fin 2) ∈ (rowScatterDims n F E wf).scatterDimsToOperandDims from List.mem_singleton.mpr rfl),
    rowScatter_siIdx]

/-- On the column axis, which the start index does not name, the window starts at `0`. -/
theorem rowScatter_start_one (idx : IVec ⟨2, ![E, 1]⟩ w) (e : Fin E) (f : Fin F) :
    (rowScatterDims n F E wf).start (ix2 e f) idx 1 = 0 := by
  unfold ScatterDims.start
  rw [dif_neg (show (1 : Fin 2) ∉ (rowScatterDims n F E wf).scatterDimsToOperandDims from (by decide : (1 : Fin 2) ∉ ([0] : List (Fin 2))))]

/-- The row axis is inserted: the window coordinate there is `0`. -/
theorem rowScatter_window_zero (e : Fin E) (f : Fin F) : (rowScatterDims n F E wf).window (ix2 e f) 0 = 0 := by
  unfold ScatterDims.window
  rw [dif_neg (show (0 : Fin 2) ∉ (rowScatterDims n F E wf).sKept from (by decide : (0 : Fin 2) ∉ ([1] : List (Fin 2))))]

/-- On the column axis the window coordinate of update `(e, f)` is `f`. -/
theorem rowScatter_window_one (e : Fin E) (f : Fin F) : (rowScatterDims n F E wf).window (ix2 e f) 1 = f.val := by
  unfold ScatterDims.window
  rw [dif_pos (show (1 : Fin 2) ∈ (rowScatterDims n F E wf).sKept from (by decide : (1 : Fin 2) ∈ ([1] : List (Fin 2))))]
  rfl

/-- WHERE UPDATE `(e, f)` LANDS: at `(r, f)` when update row `e` lands on row `r`, nowhere when row `e` is dropped
    (the column coordinate `f < F` is always inside the operand). -/
theorem resultIdx?_row (idx : IVec ⟨2, ![E, 1]⟩ w) (e : Fin E) (f : Fin F) :
    (rowScatterDims n F E wf).resultIdx? (ix2 e f) idx = (land n idx e).map (fun r => ix2 r f) := by
  have key0 : (rowScatterDims n F E wf).start (ix2 e f) idx 0 + ((rowScatterDims n F E wf).window (ix2 e f) 0 : Nat)
      = (idx (ix2 e 0)).toInt := by
    rw [rowScatter_start_zero, rowScatter_window_zero]; simp
  have key1 : (rowScatterDims n F E wf).start (ix2 e f) idx 1 + ((rowScatterDims n F E wf).window (ix2 e f) 1 : Nat)
      = (f.val : Int) := by
    rw [rowScatter_start_one, rowScatter_window_one]; simp
  have hf : f.val < F := f.isLt
  unfold ScatterDims.resultIdx? land
  by_cases h : 0 ≤ (idx (ix2 e 0)).toInt ∧ (idx (ix2 e 0)).toInt < n
  · have hall : ∀ a, 0 ≤ (rowScatterDims n F E wf).start (ix2 e f) idx a + ((rowScatterDims n F E wf).window (ix2 e f) a : Nat) ∧
        (rowScatterDims n F E wf).start (ix2 e f) idx a + ((rowScatterDims n F E wf).window (ix2 e f) a : Nat)
          < ((⟨2, ![n, F]⟩ : Shape).size a : Nat) := by
      intro a
      match a with
      | ⟨0, _⟩ =>
        show 0 ≤ (rowScatterDims n F E wf).start (ix2 e f) idx 0 + ((rowScatterDims n F E wf).window (ix2 e f) 0 : Nat) ∧
          (rowScatterDims n F E wf).start (ix2 e f) idx 0 + ((rowScatterDims n F E wf).window (ix2 e f) 0 : Nat) < (n : Nat)
        rw [key0]; exact h
      | ⟨1, _⟩ =>
        show 0 ≤ (rowScatterDims n F E wf).start (ix2 e f) idx 1 + ((rowScatterDims n F E wf).window (ix2 e f) 1 : Nat) ∧
          (rowScatterDims n F E wf).start (ix2 e f) idx 1 + ((rowScatterDims n F E wf).window (ix2 e f) 1 : Nat) < (F : Nat)
        rw [key1]; omega
    rw [dif_pos hall, dif_pos h]
    show some _ = some _
    congr 1
    funext a
    refine Fin.ext ?_
    match a with
    | ⟨0, _⟩ =>
      show ((rowScatterDims n F E wf).start (ix2 e f) idx 0 + ((rowScatterDims n F E wf).window (ix2 e f) 0 : Nat)).toNat
        = (idx (ix2 e 0)).toInt.toNat
      rw [key0]
    | ⟨1, _⟩ =>
      show ((rowScatterDims n F E wf).start (ix2 e f) idx 1 + ((rowScatterDims n F E wf).window (ix2 e f) 1 : Nat)).toNat
        = f.val
      rw [key1]; rfl
  · have hnot : ¬ ∀ a, 0 ≤ (rowScatterDims n F E wf).start (ix2 e f) idx a + ((rowScatterDims n F E wf).window (ix2 e f) a : Nat) ∧
        (rowScatterDims n F E wf).start (ix2 e f) idx a + ((rowScatterDims n F E wf).window (ix2 e f) a : Nat)
          < ((⟨2, ![n, F]⟩ : Shape).size a : Nat) := by
      intro hall
      have h0 := hall 0
      rw [key0] at h0
      exact h h0
    rw [dif_neg hnot, dif_neg h]
    rfl

/-- Two rank-2 indices built from coordinates are equal exactly when their coordinates are. -/
theorem ix2_eq_ix2 {n0 n1 : Nat} {a a' : Fin n0} {b b' : Fin n1} : ix2 a b = ix2 a' b' ↔ a = a' ∧ b = b' :=
  ⟨fun h => ⟨congrFun h 0, congrFun h 1⟩, fun h => by rw [h.1, h.2]⟩

/-- Update `(e, f')` lands at `(r, f)` exactly when update row `e` lands on row `r` and `f' = f`. -/
theorem resultIdx?_row_eq_some (idx : IVec ⟨2, ![E, 1]⟩ w) (e : Fin E) (f' : Fin F) (r : Fin n) (f : Fin F) :
    (rowScatterDims n F E wf).resultIdx? (ix2 e f') idx = some (ix2 r f) ↔ land n idx e = some r ∧ f' = f := by
  rw [resultIdx?_row]
  cases land n idx e with
  | none => simp
  | some r' => simp [ix2_eq_ix2]

/-- THE ROW SCATTER-ADD READ AT `(r, f)`: the operand's entry plus the sum, over the update rows `e` that land on
    row `r`, of the update's entry `(e, f)`; a dropped update row contributes nothing. -/
theorem rowScatterAdd_apply (x : (⟨2, ![n, F]⟩ : Shape).Idx → EReal) (idx : IVec ⟨2, ![E, 1]⟩ w)
    (upd : (⟨2, ![E, F]⟩ : Shape).Idx → EReal) (r : Fin n) (f : Fin F) :
    Ideal.hostScatterAdd (rowScatterDims n F E wf) x idx upd (ix2 r f)
      = x (ix2 r f) + ∑ e ∈ Finset.univ.filter (fun e : Fin E => land n idx e = some r), upd (ix2 e f) := by
  unfold Ideal.hostScatterAdd
  congr 1
  refine Finset.sum_nbij' (fun j => (⟨(j 0).val, idx2_lt0 j⟩ : Fin E)) (fun e => ix2 e f) ?_ ?_ ?_ ?_ ?_
  · intro j hj
    obtain ⟨e, f', rfl⟩ : ∃ (e : Fin E) (f' : Fin F), j = ix2 e f' := ⟨j 0, j 1, eq_ix2 j⟩
    rw [Finset.mem_filter, resultIdx?_row_eq_some] at hj
    show e ∈ Finset.univ.filter (fun e : Fin E => land n idx e = some r)
    rw [Finset.mem_filter]
    exact ⟨Finset.mem_univ _, hj.2.1⟩
  · intro e he
    rw [Finset.mem_filter] at he ⊢
    exact ⟨Finset.mem_univ _, (resultIdx?_row_eq_some wf idx e f r f).mpr ⟨he.2, rfl⟩⟩
  · intro j hj
    obtain ⟨e, f', rfl⟩ : ∃ (e : Fin E) (f' : Fin F), j = ix2 e f' := ⟨j 0, j 1, eq_ix2 j⟩
    rw [Finset.mem_filter, resultIdx?_row_eq_some] at hj
    obtain ⟨-, -, rfl⟩ := hj
    rfl
  · intro e _
    rfl
  · intro j hj
    obtain ⟨e, f', rfl⟩ : ∃ (e : Fin E) (f' : Fin F), j = ix2 e f' := ⟨j 0, j 1, eq_ix2 j⟩
    rw [Finset.mem_filter, resultIdx?_row_eq_some] at hj
    obtain ⟨-, -, rfl⟩ := hj
    rfl

end RowScatter

/-! ## The scatter-add into a vector at an index -/

section VecScatter

variable {n E w : Nat} (wf : ScatterDims.WF ⟨1, ![n]⟩ ⟨2, ![E, 1]⟩ ⟨1, ![E]⟩ [] [0] [0] 1)

/-- The scatter-indices index at which update `e` reads its one start-index component: `(e, 0)`. -/
theorem vecScatter_siIdx (e : Fin E) :
    (vecScatterDims n E wf).siIdx (ix1 e) ⟨List.idxOf (0 : Fin 1) (vecScatterDims n E wf).scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- The window of update `e` starts at its start index, read signed. -/
theorem vecScatter_start (idx : IVec ⟨2, ![E, 1]⟩ w) (e : Fin E) :
    (vecScatterDims n E wf).start (ix1 e) idx 0 = (idx (ix2 e 0)).toInt := by
  unfold ScatterDims.start
  rw [dif_pos (show (0 : Fin 1) ∈ (vecScatterDims n E wf).scatterDimsToOperandDims from List.mem_singleton.mpr rfl),
    vecScatter_siIdx]

/-- The vector's one axis is inserted: the window coordinate there is `0`. -/
theorem vecScatter_window (e : Fin E) : (vecScatterDims n E wf).window (ix1 e) 0 = 0 := by
  unfold ScatterDims.window
  rw [dif_neg (show (0 : Fin 1) ∉ (vecScatterDims n E wf).sKept from
    (by decide : (0 : Fin 1) ∉ ([] : List (Fin 1))))]

/-- WHERE UPDATE `e` LANDS: at its start index read signed, when that is inside the vector; nowhere when it is not. -/
theorem resultIdx?_vec (idx : IVec ⟨2, ![E, 1]⟩ w) (e : Fin E) :
    (vecScatterDims n E wf).resultIdx? (ix1 e) idx = (land n idx e).map (fun r => ix1 r) := by
  have key0 : (vecScatterDims n E wf).start (ix1 e) idx 0 + ((vecScatterDims n E wf).window (ix1 e) 0 : Nat)
      = (idx (ix2 e 0)).toInt := by
    rw [vecScatter_start, vecScatter_window]; simp
  unfold ScatterDims.resultIdx? land
  by_cases h : 0 ≤ (idx (ix2 e 0)).toInt ∧ (idx (ix2 e 0)).toInt < n
  · have hall : ∀ a, 0 ≤ (vecScatterDims n E wf).start (ix1 e) idx a + ((vecScatterDims n E wf).window (ix1 e) a : Nat) ∧
        (vecScatterDims n E wf).start (ix1 e) idx a + ((vecScatterDims n E wf).window (ix1 e) a : Nat)
          < ((⟨1, ![n]⟩ : Shape).size a : Nat) := by
      intro a
      match a with
      | ⟨0, _⟩ =>
        show 0 ≤ (vecScatterDims n E wf).start (ix1 e) idx 0 + ((vecScatterDims n E wf).window (ix1 e) 0 : Nat) ∧
          (vecScatterDims n E wf).start (ix1 e) idx 0 + ((vecScatterDims n E wf).window (ix1 e) 0 : Nat) < (n : Nat)
        rw [key0]; exact h
    rw [dif_pos hall, dif_pos h]
    show some _ = some _
    congr 1
    funext a
    refine Fin.ext ?_
    match a with
    | ⟨0, _⟩ =>
      show ((vecScatterDims n E wf).start (ix1 e) idx 0 + ((vecScatterDims n E wf).window (ix1 e) 0 : Nat)).toNat
        = (idx (ix2 e 0)).toInt.toNat
      rw [key0]
  · have hnot : ¬ ∀ a, 0 ≤ (vecScatterDims n E wf).start (ix1 e) idx a + ((vecScatterDims n E wf).window (ix1 e) a : Nat) ∧
        (vecScatterDims n E wf).start (ix1 e) idx a + ((vecScatterDims n E wf).window (ix1 e) a : Nat)
          < ((⟨1, ![n]⟩ : Shape).size a : Nat) := by
      intro hall
      have h0 := hall 0
      rw [key0] at h0
      exact h h0
    rw [dif_neg hnot, dif_neg h]
    rfl

/-- Two rank-1 indices built from a coordinate are equal exactly when their coordinates are. -/
theorem ix1_eq_ix1 {n0 : Nat} {a a' : Fin n0} : ix1 a = ix1 a' ↔ a = a' :=
  ⟨fun h => congrFun h 0, fun h => by rw [h]⟩

/-- Update `e` lands at `r` exactly when its start index, read signed, is `r`. -/
theorem resultIdx?_vec_eq_some (idx : IVec ⟨2, ![E, 1]⟩ w) (e : Fin E) (r : Fin n) :
    (vecScatterDims n E wf).resultIdx? (ix1 e) idx = some (ix1 r) ↔ land n idx e = some r := by
  rw [resultIdx?_vec]
  cases land n idx e with
  | none => simp
  | some r' => simp [ix1_eq_ix1]

/-- THE VECTOR SCATTER-ADD READ AT `r`: the operand's entry plus the sum of the updates that land on `r`; a
    dropped update contributes nothing. -/
theorem vecScatterAdd_apply (x : (⟨1, ![n]⟩ : Shape).Idx → EReal) (idx : IVec ⟨2, ![E, 1]⟩ w)
    (upd : (⟨1, ![E]⟩ : Shape).Idx → EReal) (r : Fin n) :
    Ideal.hostScatterAdd (vecScatterDims n E wf) x idx upd (ix1 r)
      = x (ix1 r) + ∑ e ∈ Finset.univ.filter (fun e : Fin E => land n idx e = some r), upd (ix1 e) := by
  unfold Ideal.hostScatterAdd
  congr 1
  refine Finset.sum_nbij' (fun j => (⟨(j 0).val, (j 0).isLt⟩ : Fin E)) (fun e => ix1 e) ?_ ?_ ?_ ?_ ?_
  · intro j hj
    obtain ⟨e, rfl⟩ : ∃ e : Fin E, j = ix1 e := ⟨j 0, eq_ix1 j⟩
    rw [Finset.mem_filter, resultIdx?_vec_eq_some] at hj
    show e ∈ Finset.univ.filter (fun e : Fin E => land n idx e = some r)
    rw [Finset.mem_filter]
    exact ⟨Finset.mem_univ _, hj.2⟩
  · intro e he
    rw [Finset.mem_filter] at he ⊢
    exact ⟨Finset.mem_univ _, (resultIdx?_vec_eq_some wf idx e r).mpr he.2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end VecScatter

/-! ## The row gather at an index -/

section RowGather

variable {α : Type} {n F E w : Nat}

/-- THE ROW GATHER READ AT `(e, f)`: the table's entry `(r, f)`, where `r` is the start index `idx (e, 0)` read as a
    signed integer and clamped into `[0, n - 1]` (the slice has one row, so its start is clamped to the last row;
    a negative start index reads row `0`). -/
theorem rowGather_apply (hn : 0 < n)
    (wf : GatherDims.WF ⟨2, ![n, F]⟩ ⟨2, ![E, 1]⟩ ⟨2, ![E, F]⟩ [1] [0] [] [0] [] 1 ![1, F])
    (x : (⟨2, ![n, F]⟩ : Shape).Idx → α) (idx : IVec ⟨2, ![E, 1]⟩ w) (e : Fin E) (f : Fin F) :
    Host.gather (rowGatherDims n F E wf) x idx (ix2 e f) = x (ix2 (clampRow n hn idx e) f) := by
  unfold Host.gather
  congr 1
  funext a
  refine Fin.ext ?_
  match a with
  | ⟨0, _⟩ =>
    show (rowGatherDims n F E wf).start (ix2 e f) idx 0 + (rowGatherDims n F E wf).batchCoord (ix2 e f) 0
      + (rowGatherDims n F E wf).offCoord (ix2 e f) 0 = min (idx (ix2 e 0)).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n F E wf).startIndexMap from List.mem_singleton.mpr rfl)]
    have hsi : (rowGatherDims n F E wf).siIdx (ix2 e f) ⟨List.idxOf (0 : Fin 2) (rowGatherDims n F E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims n F E wf).start (ix2 e f) idx 1 + (rowGatherDims n F E wf).batchCoord (ix2 e f) 1
      + (rowGatherDims n F E wf).offCoord (ix2 e f) 1 = f.val
    rw [GatherDims.batchCoord_eq_zero _ _ _ List.not_mem_nil]
    have hst : (rowGatherDims n F E wf).start (ix2 e f) idx 1 = 0 := by
      unfold GatherDims.start
      rw [dif_neg (show (1 : Fin 2) ∉ (rowGatherDims n F E wf).startIndexMap from
        (by decide : (1 : Fin 2) ∉ ([0] : List (Fin 2))))]
    have hoff : (rowGatherDims n F E wf).offCoord (ix2 e f) 1 = f.val := by
      unfold GatherDims.offCoord
      rw [dif_pos (show (1 : Fin 2) ∈ (rowGatherDims n F E wf).sKept from
        (by decide : (1 : Fin 2) ∈ ([1] : List (Fin 2))))]
      rfl
    rw [hst, hoff]
    simp

end RowGather

/-! ## The scatter-adds as a program spells them -/

section Host

/-- The row scatter-add as a host operation at the ideal instance, read at `(r, f)`. -/
theorem rowScatterAdd_host_apply {φ : FTy} {n F E w : Nat}
    (wf : ScatterDims.WF ⟨2, ![n, F]⟩ ⟨2, ![E, 1]⟩ ⟨2, ![E, F]⟩ [1] [0] [0] 1)
    (x : FVec Ideal ⟨2, ![n, F]⟩ φ) (idx : IVec ⟨2, ![E, 1]⟩ w) (upd : FVec Ideal ⟨2, ![E, F]⟩ φ) (r : Fin n) (f : Fin F) :
    Host.scatterAdd (F := Ideal) (rowScatterDims n F E wf) x idx upd (ix2 r f)
      = x (ix2 r f) + ∑ e ∈ Finset.univ.filter (fun e : Fin E => land n idx e = some r), upd (ix2 e f) :=
  rowScatterAdd_apply wf x idx upd r f

/-- The scatter-add into a vector as a host operation at the ideal instance, read at `r`. -/
theorem vecScatterAdd_host_apply {φ : FTy} {n E w : Nat}
    (wf : ScatterDims.WF ⟨1, ![n]⟩ ⟨2, ![E, 1]⟩ ⟨1, ![E]⟩ [] [0] [0] 1)
    (x : FVec Ideal ⟨1, ![n]⟩ φ) (idx : IVec ⟨2, ![E, 1]⟩ w) (upd : FVec Ideal ⟨1, ![E]⟩ φ) (r : Fin n) :
    Host.scatterAdd (F := Ideal) (vecScatterDims n E wf) x idx upd (ix1 r)
      = x (ix1 r) + ∑ e ∈ Finset.univ.filter (fun e : Fin E => land n idx e = some r), upd (ix1 e) :=
  vecScatterAdd_apply wf x idx upd r

end Host

end Idealize.ShloMosaic.RowOps
-- ==== Proof.KerHost.lean ====
/-
  The kernel program's host operations, read at an index.

  Between its launches the program computes, per edge type, the reciprocal of each node's floored edge count (once,
  from the destination array alone) and, per layer, the mean aggregate of a 16-column matrix: the source rows are
  gathered, added into zeros at their landing nodes, and every node's row is scaled by its reciprocal count. Each of
  these chains is a fixed composition of broadcasts, one gather and one accumulating scatter; read at an index it is
  a sum over the edges landing on the node.
-/
import proofs.«106252_j16209206575619_2_alg».proof.Proof.Gen.KernelIdeal
import proofs.«106252_j16209206575619_2_alg».proof.Proof.Spec
import proofs.«106252_j16209206575619_2_alg».proof.Proof.LibRowOps
import Idealize.ShloMosaic.Lib.Pipeline.Value
import Idealize.ShloMosaic.Lib.ValueIdx

noncomputable section

namespace Cert.KernelIdeal.KerHost

open Idealize.ShloMosaic Idealize.ShloMosaic.ValueIdx Idealize.ShloMosaic.RowOps
open Cert.KernelIdeal Cert.KernelIdeal.Facts₀ Cert.KernelIdeal.Facts Cert.Sage

/-! ## Broadcasts read at an index -/

theorem bcastScalar_apply_2000000 {α : Type} (y : S_.Idx → α) (i : S2000000.Idx) :
    broadcastInDim S2000000 ![] bcast_S_S2000000 y i = y ix0 :=
  broadcastInDim_apply _ bcast_S_S2000000 y i ix0 (fun a => a.elim0)
theorem bcastScalar_apply_50000 {α : Type} (y : S_.Idx → α) (i : S50000.Idx) :
    broadcastInDim S50000 ![] bcast_S_S50000 y i = y ix0 :=
  broadcastInDim_apply _ bcast_S_S50000 y i ix0 (fun a => a.elim0)
theorem bcastScalar_apply_200000 {α : Type} (y : S_.Idx → α) (i : S200000.Idx) :
    broadcastInDim S200000 ![] bcast_S_S200000 y i = y ix0 :=
  broadcastInDim_apply _ bcast_S_S200000 y i ix0 (fun a => a.elim0)
theorem bcastScalar_apply_50000x16 {α : Type} (y : S_.Idx → α) (i : S50000x16.Idx) :
    broadcastInDim S50000x16 ![] bcast_S_S50000x16 y i = y ix0 :=
  broadcastInDim_apply _ bcast_S_S50000x16 y i ix0 (fun a => a.elim0)
theorem bcastScalar_apply_200000x16 {α : Type} (y : S_.Idx → α) (i : S200000x16.Idx) :
    broadcastInDim S200000x16 ![] bcast_S_S200000x16 y i = y ix0 :=
  broadcastInDim_apply _ bcast_S_S200000x16 y i ix0 (fun a => a.elim0)
/-- A column `[50000, 1]` repeated along 16 columns, read at `(d, o)`. -/
theorem bcastRow_apply_50000 {α : Type} (y : S50000x1.Idx → α) (d : Fin 50000) (o : Fin 16) :
    broadcastInDim S50000x16 ![0, 1] bcast_S50000x1_S50000x16_0_1 y (ix2 d o) = y (ix2 d 0) :=
  broadcastInDim_apply _ bcast_S50000x1_S50000x16_0_1 y (ix2 d o) (ix2 d 0) (fun a => match a with
    | ⟨0, _⟩ => by show d.val = if (50000 : Nat) = 1 then 0 else d.val; rw [if_neg (by decide)]
    | ⟨1, _⟩ => by show (0 : Nat) = if (1 : Nat) = 1 then 0 else o.val; rw [if_pos rfl])
/-- A vector `[50000]` laid out as a column `[50000, 1]`, read at `(d, 0)`. -/
theorem bcastCol_apply_50000 {α : Type} (y : S50000.Idx → α) (d : Fin 50000) :
    broadcastInDim S50000x1 ![0] bcast_S50000_S50000x1_0 y (ix2 d 0) = y (ix1 d) :=
  broadcastInDim_apply _ bcast_S50000_S50000x1_0 y (ix2 d 0) (ix1 d) (fun a => match a with
    | ⟨0, _⟩ => by show d.val = if (50000 : Nat) = 1 then 0 else d.val; rw [if_neg (by decide)])
/-- A column `[200000, 1]` repeated along 16 columns, read at `(d, o)`. -/
theorem bcastRow_apply_200000 {α : Type} (y : S200000x1.Idx → α) (d : Fin 200000) (o : Fin 16) :
    broadcastInDim S200000x16 ![0, 1] bcast_S200000x1_S200000x16_0_1 y (ix2 d o) = y (ix2 d 0) :=
  broadcastInDim_apply _ bcast_S200000x1_S200000x16_0_1 y (ix2 d o) (ix2 d 0) (fun a => match a with
    | ⟨0, _⟩ => by show d.val = if (200000 : Nat) = 1 then 0 else d.val; rw [if_neg (by decide)]
    | ⟨1, _⟩ => by show (0 : Nat) = if (1 : Nat) = 1 then 0 else o.val; rw [if_pos rfl])
/-- A vector `[200000]` laid out as a column `[200000, 1]`, read at `(d, 0)`. -/
theorem bcastCol_apply_200000 {α : Type} (y : S200000.Idx → α) (d : Fin 200000) :
    broadcastInDim S200000x1 ![0] bcast_S200000_S200000x1_0 y (ix2 d 0) = y (ix1 d) :=
  broadcastInDim_apply _ bcast_S200000_S200000x1_0 y (ix2 d 0) (ix1 d) (fun a => match a with
    | ⟨0, _⟩ => by show d.val = if (200000 : Nat) = 1 then 0 else d.val; rw [if_neg (by decide)])

/-- An edge array `[E]` laid out as a column `[E, 1]`, read at `(e, 0)`. -/
theorem bcastCol_apply {α : Type} (x : S2000000.Idx → α) (e : Fin 2000000) :
    broadcastInDim S2000000x1 ![0] bcast_S2000000_S2000000x1_0 x (ix2 e 0) = x (ix1 e) :=
  broadcastInDim_apply _ bcast_S2000000_S2000000x1_0 x (ix2 e 0) (ix1 e) (fun a => match a with
    | ⟨0, _⟩ => by show e.val = if (2000000 : Nat) = 1 then 0 else e.val; rw [if_neg (by decide)])

/-! ## The integer edge arrays -/

/-- The source array normalized as array indexing does it (a negative index counts from the end), as the host
    operations spell it: compare with zero, add the extent, select. -/
abbrev nsrc (nb : BitVec 32) (src : IVec S2000000 32) : IVec S2000000 32 :=
  select (cmpi .slt src (broadcastInDim S2000000 ![] bcast_S_S2000000 (constantI S_ 32 0#32)))
    (addi src (broadcastInDim S2000000 ![] bcast_S_S2000000 (constantI S_ 32 nb))) src

theorem nsrc_apply (nb : BitVec 32) (src : IVec S2000000 32) (i : S2000000.Idx) :
    nsrc nb src i = wrapIdx nb (src i) := by
  show Scalar.select (IntOp.cmpi .slt (src i) (broadcastInDim S2000000 ![] bcast_S_S2000000 (constantI S_ 32 0#32) i))
      (IntOp.addi (src i) (broadcastInDim S2000000 ![] bcast_S_S2000000 (constantI S_ 32 nb) i)) (src i) = _
  rw [bcastScalar_apply_2000000, bcastScalar_apply_2000000]
  rfl

/-- Where an update row lands depends on its index word alone. -/
theorem land_of_word (n : Nat) {E w : Nat} (idx : IVec ⟨2, ![E, 1]⟩ w) (e : Fin E) (v : BitVec w)
    (h : idx (ix2 e 0) = v) :
    RowOps.land n idx e = if h : 0 ≤ v.toInt ∧ v.toInt < n then some ⟨v.toInt.toNat, by omega⟩ else none := by
  subst h; rfl

/-- The row a gather reads depends on its index word alone. -/
theorem clampRow_of_word (n : Nat) (hn : 0 < n) {E w : Nat} (idx : IVec ⟨2, ![E, 1]⟩ w) (e : Fin E) (v : BitVec w)
    (h : idx (ix2 e 0) = v) :
    RowOps.clampRow n hn idx e = ⟨min v.toInt.toNat (n - 1), by omega⟩ := by
  subst h; rfl

/-- Where an update row lands, read off the destination array itself. -/
theorem land_bcast (n : Nat) (dst : IVec S2000000 32) :
    RowOps.land n (broadcastInDim S2000000x1 ![0] bcast_S2000000_S2000000x1_0 dst) = landOf n dst := by
  funext e
  exact land_of_word n _ e _ (bcastCol_apply dst e)

/-- The row a gather reads, read off the source array itself. -/
theorem clampRow_nsrc (n : Nat) (hn : 0 < n) (src : IVec S2000000 32) :
    RowOps.clampRow n hn (broadcastInDim S2000000x1 ![0] bcast_S2000000_S2000000x1_0 (nsrc (BitVec.ofNat 32 n) src))
      = rowOf n hn src := by
  funext e
  exact clampRow_of_word n hn _ e _ ((bcastCol_apply _ e).trans (nsrc_apply _ src (ix1 e)))

/-! ## The bias row -/

/-- A bias vector `[16]` reshaped to a row `[1, 16]`, read at `(0, o)`. -/
theorem biasRow_apply {α : Type} (b : S16.Idx → α) (o : Fin 16) :
    shapeCast S1x16 b shapeCasts_S16_S1x16 (ix2 0 o) = b (ix1 o) := by
  refine (shapeCast_addUnit_apply (n := 1) ![16] b shapeCasts_S16_S1x16 (ix2 0 o)).trans ?_
  refine congrArg b (funext fun a => ?_)
  match a with
  | ⟨0, _⟩ => rfl

end Cert.KernelIdeal.KerHost

end
-- ==== Proof.KerChains.lean ====
/-
  The kernel program's host operations, read at an index.

  Between its launches the program computes, per edge type, the reciprocal of each node's floored edge count (once,
  from the destination array alone) and, per layer, the mean aggregate of a 16-column matrix: the source rows are
  gathered, added into zeros at their landing nodes, and every node's row is scaled by its reciprocal count. Each of
  these chains is a fixed composition of broadcasts, one gather and one accumulating scatter; read at an index it is
  a sum over the edges landing on the node.
-/
import proofs.«106252_j16209206575619_2_alg».proof.Proof.Gen.KernelIdeal
import proofs.«106252_j16209206575619_2_alg».proof.Proof.Spec
import proofs.«106252_j16209206575619_2_alg».proof.Proof.LibRowOps
import proofs.«106252_j16209206575619_2_alg».proof.Proof.KerHost
import Idealize.ShloMosaic.Lib.Pipeline.Value
import Idealize.ShloMosaic.Lib.ValueIdx

noncomputable section

namespace Cert.KernelIdeal.KerHost

open Idealize.ShloMosaic Idealize.ShloMosaic.ValueIdx Idealize.ShloMosaic.RowOps
open Cert.KernelIdeal Cert.KernelIdeal.Facts₀ Cert.KernelIdeal.Facts Cert.Sage

/-- The host's quotient at the exact instance, read at an index. -/
theorem hostDivf_apply {s : Shape} {φ : FTy} (a b : FVec Ideal s φ) (i : s.Idx) :
    Host.divf (F := Ideal) a b i = Ideal.div (a i) (b i) := rfl

/-! ## The reciprocal counts -/

/-- The reciprocal of the floored count of edges landing on each of 50000 nodes, as the host operations compute it
    (ones added into zeros at the landing nodes, floored at one, one divided by it, laid out as a column), read at `d`. -/
theorem inv_read_50000 (dst : IVec S2000000 32) (d : Fin 50000) :
    broadcastInDim S50000x1 ![0] bcast_S50000_S50000x1_0
      (Host.divf (F := Ideal) (broadcastInDim S50000 ![] bcast_S_S50000 (constant (F := Ideal) S_ .f32 0x3F800000#32))
        (maximumf (F := Ideal) (Host.scatterAdd (F := Ideal) scatter_S50000_S2000000x1_S2000000_n_0_0_1
            (broadcastInDim S50000 ![] bcast_S_S50000 (constant (F := Ideal) S_ .f32 0x00000000#32))
            (broadcastInDim S2000000x1 ![0] bcast_S2000000_S2000000x1_0 dst)
            (broadcastInDim S2000000 ![] bcast_S_S2000000 (constant (F := Ideal) S_ .f32 0x3F800000#32)))
          (broadcastInDim S50000 ![] bcast_S_S50000 (constant (F := Ideal) S_ .f32 0x3F800000#32)))) (ix2 d 0)
      = invCnt (landOf 50000 dst) d := by
  rw [bcastCol_apply_50000, hostDivf_apply, maximumf_apply]
  unfold invCnt segCnt
  refine congrArg₂ Ideal.div ?_ (congrArg₂ max ?_ ?_)
  · exact (bcastScalar_apply_50000 _ _).trans ((constant_apply _ _).trans ofBits_one)
  · refine (vecScatterAdd_host_apply (n := 50000) (E := 2000000) (w := 32)
      scatter_S50000_S2000000x1_S2000000_n_0_0_1_wf _ _ _ d).trans ?_
    rw [land_bcast]
    refine congrArg₂ (· + ·) ?_ (Finset.sum_congr (Finset.ext fun e => by
        simp only [Finset.mem_filter, Finset.mem_univ, true_and]) fun e _ => ?_)
    · exact (bcastScalar_apply_50000 _ _).trans ((constant_apply _ _).trans ofBits_zero)
    · exact (bcastScalar_apply_2000000 _ _).trans ((constant_apply _ _).trans ofBits_one)
  · exact (bcastScalar_apply_50000 _ _).trans ((constant_apply _ _).trans ofBits_one)

/-- The reciprocal of the floored count of edges landing on each of 200000 nodes, as the host operations compute it
    (ones added into zeros at the landing nodes, floored at one, one divided by it, laid out as a column), read at `d`. -/
theorem inv_read_200000 (dst : IVec S2000000 32) (d : Fin 200000) :
    broadcastInDim S200000x1 ![0] bcast_S200000_S200000x1_0
      (Host.divf (F := Ideal) (broadcastInDim S200000 ![] bcast_S_S200000 (constant (F := Ideal) S_ .f32 0x3F800000#32))
        (maximumf (F := Ideal) (Host.scatterAdd (F := Ideal) scatter_S200000_S2000000x1_S2000000_n_0_0_1
            (broadcastInDim S200000 ![] bcast_S_S200000 (constant (F := Ideal) S_ .f32 0x00000000#32))
            (broadcastInDim S2000000x1 ![0] bcast_S2000000_S2000000x1_0 dst)
            (broadcastInDim S2000000 ![] bcast_S_S2000000 (constant (F := Ideal) S_ .f32 0x3F800000#32)))
          (broadcastInDim S200000 ![] bcast_S_S200000 (constant (F := Ideal) S_ .f32 0x3F800000#32)))) (ix2 d 0)
      = invCnt (landOf 200000 dst) d := by
  rw [bcastCol_apply_200000, hostDivf_apply, maximumf_apply]
  unfold invCnt segCnt
  refine congrArg₂ Ideal.div ?_ (congrArg₂ max ?_ ?_)
  · exact (bcastScalar_apply_200000 _ _).trans ((constant_apply _ _).trans ofBits_one)
  · refine (vecScatterAdd_host_apply (n := 200000) (E := 2000000) (w := 32)
      scatter_S200000_S2000000x1_S2000000_n_0_0_1_wf _ _ _ d).trans ?_
    rw [land_bcast]
    refine congrArg₂ (· + ·) ?_ (Finset.sum_congr (Finset.ext fun e => by
        simp only [Finset.mem_filter, Finset.mem_univ, true_and]) fun e _ => ?_)
    · exact (bcastScalar_apply_200000 _ _).trans ((constant_apply _ _).trans ofBits_zero)
    · exact (bcastScalar_apply_2000000 _ _).trans ((constant_apply _ _).trans ofBits_one)
  · exact (bcastScalar_apply_200000 _ _).trans ((constant_apply _ _).trans ofBits_one)

/-! ## The aggregates -/

/-- The aggregate of a `[200000, 16]` matrix `Y` onto 50000 nodes, as the host operations compute it (gather the source rows,
    add them into zeros at the landing rows, scale each row by the node's factor), read at `(d, o)`. -/
theorem aggV_read (Y : FVec Ideal S200000x16 .f32) (src dst : IVec S2000000 32) (inv : FVec Ideal S50000x1 .f32)
    (d : Fin 50000) (o : Fin 16) :
    mulf (F := Ideal) (Host.scatterAdd (F := Ideal) scatter_S50000x16_S2000000x1_S2000000x16_1_0_0_1
            (broadcastInDim S50000x16 ![] bcast_S_S50000x16 (constant (F := Ideal) S_ .f32 0x00000000#32))
            (broadcastInDim S2000000x1 ![0] bcast_S2000000_S2000000x1_0 dst)
            (Host.gather gather_S200000x16_S2000000x1_S2000000x16_1_0_n_n_0_1_116 Y
               (broadcastInDim S2000000x1 ![0] bcast_S2000000_S2000000x1_0 (nsrc 200000#32 src))))
         (broadcastInDim S50000x16 ![0, 1] bcast_S50000x1_S50000x16_0_1 inv) (ix2 d o)
      = segSum (landOf 50000 dst) (fun e o' => Y (ix2 (rowOf 200000 (by decide) src e) o')) d o * inv (ix2 d 0) := by
  rw [mulf_apply]
  refine congrArg₂ (· * ·) ?_ ?_
  · refine (rowScatterAdd_host_apply (n := 50000) (F := 16) (E := 2000000) (w := 32)
      scatter_S50000x16_S2000000x1_S2000000x16_1_0_0_1_wf _ _ _ d o).trans ?_
    unfold segSum
    rw [land_bcast]
    refine congrArg₂ (· + ·) ?_ (Finset.sum_congr (Finset.ext fun e => by
        simp only [Finset.mem_filter, Finset.mem_univ, true_and]) fun e _ => ?_)
    · exact (bcastScalar_apply_50000x16 _ _).trans ((constant_apply _ _).trans ofBits_zero)
    · refine (rowGather_apply (n := 200000) (F := 16) (E := 2000000) (w := 32) (by decide)
        gather_S200000x16_S2000000x1_S2000000x16_1_0_n_n_0_1_116_wf Y _ e o).trans ?_
      rw [clampRow_nsrc]
  · exact bcastRow_apply_50000 inv d o

/-- The aggregate of a `[50000, 16]` matrix `Y` onto 200000 nodes, as the host operations compute it (gather the source rows,
    add them into zeros at the landing rows, scale each row by the node's factor), read at `(d, o)`. -/
theorem aggR_read (Y : FVec Ideal S50000x16 .f32) (src dst : IVec S2000000 32) (inv : FVec Ideal S200000x1 .f32)
    (d : Fin 200000) (o : Fin 16) :
    mulf (F := Ideal) (Host.scatterAdd (F := Ideal) scatter_S200000x16_S2000000x1_S2000000x16_1_0_0_1
            (broadcastInDim S200000x16 ![] bcast_S_S200000x16 (constant (F := Ideal) S_ .f32 0x00000000#32))
            (broadcastInDim S2000000x1 ![0] bcast_S2000000_S2000000x1_0 dst)
            (Host.gather gather_S50000x16_S2000000x1_S2000000x16_1_0_n_n_0_1_116 Y
               (broadcastInDim S2000000x1 ![0] bcast_S2000000_S2000000x1_0 (nsrc 50000#32 src))))
         (broadcastInDim S200000x16 ![0, 1] bcast_S200000x1_S200000x16_0_1 inv) (ix2 d o)
      = segSum (landOf 200000 dst) (fun e o' => Y (ix2 (rowOf 50000 (by decide) src e) o')) d o * inv (ix2 d 0) := by
  rw [mulf_apply]
  refine congrArg₂ (· * ·) ?_ ?_
  · refine (rowScatterAdd_host_apply (n := 200000) (F := 16) (E := 2000000) (w := 32)
      scatter_S200000x16_S2000000x1_S2000000x16_1_0_0_1_wf _ _ _ d o).trans ?_
    unfold segSum
    rw [land_bcast]
    refine congrArg₂ (· + ·) ?_ (Finset.sum_congr (Finset.ext fun e => by
        simp only [Finset.mem_filter, Finset.mem_univ, true_and]) fun e _ => ?_)
    · exact (bcastScalar_apply_200000x16 _ _).trans ((constant_apply _ _).trans ofBits_zero)
    · refine (rowGather_apply (n := 50000) (F := 16) (E := 2000000) (w := 32) (by decide)
        gather_S50000x16_S2000000x1_S2000000x16_1_0_n_n_0_1_116_wf Y _ e o).trans ?_
      rw [clampRow_nsrc]
  · exact bcastRow_apply_200000 inv d o

/-- The aggregate of a `[200000, 16]` matrix `Y` onto 200000 nodes, as the host operations compute it (gather the source rows,
    add them into zeros at the landing rows, scale each row by the node's factor), read at `(d, o)`. -/
theorem aggC_read (Y : FVec Ideal S200000x16 .f32) (src dst : IVec S2000000 32) (inv : FVec Ideal S200000x1 .f32)
    (d : Fin 200000) (o : Fin 16) :
    mulf (F := Ideal) (Host.scatterAdd (F := Ideal) scatter_S200000x16_S2000000x1_S2000000x16_1_0_0_1
            (broadcastInDim S200000x16 ![] bcast_S_S200000x16 (constant (F := Ideal) S_ .f32 0x00000000#32))
            (broadcastInDim S2000000x1 ![0] bcast_S2000000_S2000000x1_0 dst)
            (Host.gather gather_S200000x16_S2000000x1_S2000000x16_1_0_n_n_0_1_116 Y
               (broadcastInDim S2000000x1 ![0] bcast_S2000000_S2000000x1_0 (nsrc 200000#32 src))))
         (broadcastInDim S200000x16 ![0, 1] bcast_S200000x1_S200000x16_0_1 inv) (ix2 d o)
      = segSum (landOf 200000 dst) (fun e o' => Y (ix2 (rowOf 200000 (by decide) src e) o')) d o * inv (ix2 d 0) := by
  rw [mulf_apply]
  refine congrArg₂ (· * ·) ?_ ?_
  · refine (rowScatterAdd_host_apply (n := 200000) (F := 16) (E := 2000000) (w := 32)
      scatter_S200000x16_S2000000x1_S2000000x16_1_0_0_1_wf _ _ _ d o).trans ?_
    unfold segSum
    rw [land_bcast]
    refine congrArg₂ (· + ·) ?_ (Finset.sum_congr (Finset.ext fun e => by
        simp only [Finset.mem_filter, Finset.mem_univ, true_and]) fun e _ => ?_)
    · exact (bcastScalar_apply_200000x16 _ _).trans ((constant_apply _ _).trans ofBits_zero)
    · refine (rowGather_apply (n := 200000) (F := 16) (E := 2000000) (w := 32) (by decide)
        gather_S200000x16_S2000000x1_S2000000x16_1_0_n_n_0_1_116_wf Y _ e o).trans ?_
      rw [clampRow_nsrc]
  · exact bcastRow_apply_200000 inv d o

end Cert.KernelIdeal.KerHost

end
-- ==== Proof.LinearArrays.lean ====
import proofs.«106252_j16209206575619_2_alg».proof.Proof.Gen.KernelIdeal.Frame
import Idealize.ShloMosaic.Lib.ValueIdx
import Idealize.ShloMosaic.Lib.Pipeline.Value
import Idealize.ShloMosaic.PureOps.Ideal.Laws

/-!
# The linear layers' output arrays

Four of the program's regions compute a dense linear map, row tile by row tile: each grid point loads a
tile of rows of the input matrix and the whole (small) weight matrix, multiplies them into a zero accumulator,
and stores the product as the same tile of rows of the output matrix. At the extended reals the narrowing of
the operands before the product is the identity, so the output matrix is, entry by entry,

    out[r, o] = 0 + ∑ k, x[r, k] * w[k, o].

For each such output this file proves that equation for the array the region leaves, in three steps:
the product of one tile at an entry (a sum over the contraction axis); what one grid point writes back is
the corresponding tile of the whole product; and the tiles cover every row, so the whole array is the product.
-/

set_option maxRecDepth 16384

noncomputable section

namespace Cert.KernelIdeal.LinearArrays

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## The two linear layers on 200000 rows of 64 features (25 tiles of 8000 rows, one input, two weight matrices) -/

theorem arrRef0_0 : Pipeline.arrRef spec0 0 = main_arg0 := rfl
theorem arrRef0_1 : Pipeline.arrRef spec0 1 = main_arg8 := rfl
theorem arrRef0_2 : Pipeline.arrRef spec0 2 = main_arg14 := rfl
theorem arrRef0_3 : Pipeline.arrRef spec0 3 = main_v27_0 := rfl
theorem arrRef0_4 : Pipeline.arrRef spec0 4 = main_v27_1 := rfl

/-- The left operand's row is the output's row, whatever the contraction position. -/
theorem lhs0_row (i : S8000x16.Idx) (κ : dot_S8000x64_S64x16_S8000x16_1_0_0_1_n_n.contr.Idx) : (dot_S8000x64_S64x16_S8000x16_1_0_0_1_n_n.lhsIdx i κ 0).val = (i 0).val := by
  unfold DotDims.lhsIdx
  rw [dif_neg (show ¬(0 : Fin S8000x64.rank) ∈ dot_S8000x64_S64x16_S8000x16_1_0_0_1_n_n.lhsBatch by decide), dif_pos (show (0 : Fin S8000x64.rank) ∈ dot_S8000x64_S64x16_S8000x16_1_0_0_1_n_n.lhsNonContracting by decide)]
  rfl
/-- The left operand's column is the contraction position. -/
theorem lhs0_col (i : S8000x16.Idx) (κ : dot_S8000x64_S64x16_S8000x16_1_0_0_1_n_n.contr.Idx) : (dot_S8000x64_S64x16_S8000x16_1_0_0_1_n_n.lhsIdx i κ 1).val = (κ ⟨0, by decide⟩).val :=
  dot_S8000x64_S64x16_S8000x16_1_0_0_1_n_n.lhsIdx_val_of_single rfl i κ
/-- The right operand's row is the contraction position. -/
theorem rhs0_row (i : S8000x16.Idx) (κ : dot_S8000x64_S64x16_S8000x16_1_0_0_1_n_n.contr.Idx) : (dot_S8000x64_S64x16_S8000x16_1_0_0_1_n_n.rhsIdx i κ 0).val = (κ ⟨0, by decide⟩).val :=
  dot_S8000x64_S64x16_S8000x16_1_0_0_1_n_n.rhsIdx_val_of_single rfl i κ
/-- The right operand's column is the output's column, whatever the contraction position. -/
theorem rhs0_col (i : S8000x16.Idx) (κ : dot_S8000x64_S64x16_S8000x16_1_0_0_1_n_n.contr.Idx) : (dot_S8000x64_S64x16_S8000x16_1_0_0_1_n_n.rhsIdx i κ 1).val = (i 1).val := by
  unfold DotDims.rhsIdx
  rw [dif_neg (show ¬(1 : Fin S64x16.rank) ∈ dot_S8000x64_S64x16_S8000x16_1_0_0_1_n_n.rhsBatch by decide), dif_pos (show (1 : Fin S64x16.rank) ∈ dot_S8000x64_S64x16_S8000x16_1_0_0_1_n_n.rhsNonContracting by decide)]
  rfl

/-- One tile's product with the first weight matrix at an entry: the zero accumulator plus the sum over the 64 features. -/
theorem tile0_3_apply (x : Vec Ideal S8000x64 .f32) (w : Vec Ideal S64x16 .f32) (p : Fin 8000) (q : Fin 16) :
    k0_pay2 x w (ix2 p q) = 0 + ∑ k : Fin 64, x (ix2 p k) * w (ix2 k q) := by
  unfold k0_pay2
  refine (Ideal.matmul_apply dot_S8000x64_S64x16_S8000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S8000x64_S64x16_S8000x16_1_0_0_1_n_n 64 rfl rfl).symm]
  refine Finset.sum_congr rfl fun k _ => ?_
  have hk := contrEquiv1_symm_val dot_S8000x64_S64x16_S8000x16_1_0_0_1_n_n 64 rfl rfl k
  have el : dot_S8000x64_S64x16_S8000x16_1_0_0_1_n_n.lhsIdx (ix2 p q) ((contrEquiv1 dot_S8000x64_S64x16_S8000x16_1_0_0_1_n_n 64 rfl rfl).symm k) = ix2 p k :=
    funext fun a => Fin.ext (by
      match a with
      | ⟨0, _⟩ => exact lhs0_row _ _
      | ⟨1, _⟩ => exact (lhs0_col _ _).trans hk)
  have er : dot_S8000x64_S64x16_S8000x16_1_0_0_1_n_n.rhsIdx (ix2 p q) ((contrEquiv1 dot_S8000x64_S64x16_S8000x16_1_0_0_1_n_n 64 rfl rfl).symm k) = ix2 k q :=
    funext fun a => Fin.ext (by
      match a with
      | ⟨0, _⟩ => exact (rhs0_row _ _).trans hk
      | ⟨1, _⟩ => exact rhs0_col _ _)
  rw [el, er]
  rfl

/-- One tile's product with the second weight matrix at an entry: the zero accumulator plus the sum over the 64 features. -/
theorem tile0_4_apply (x : Vec Ideal S8000x64 .f32) (w : Vec Ideal S64x16 .f32) (p : Fin 8000) (q : Fin 16) :
    k0_pay3 x w (ix2 p q) = 0 + ∑ k : Fin 64, x (ix2 p k) * w (ix2 k q) := by
  unfold k0_pay3
  refine (Ideal.matmul_apply dot_S8000x64_S64x16_S8000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S8000x64_S64x16_S8000x16_1_0_0_1_n_n 64 rfl rfl).symm]
  refine Finset.sum_congr rfl fun k _ => ?_
  have hk := contrEquiv1_symm_val dot_S8000x64_S64x16_S8000x16_1_0_0_1_n_n 64 rfl rfl k
  have el : dot_S8000x64_S64x16_S8000x16_1_0_0_1_n_n.lhsIdx (ix2 p q) ((contrEquiv1 dot_S8000x64_S64x16_S8000x16_1_0_0_1_n_n 64 rfl rfl).symm k) = ix2 p k :=
    funext fun a => Fin.ext (by
      match a with
      | ⟨0, _⟩ => exact lhs0_row _ _
      | ⟨1, _⟩ => exact (lhs0_col _ _).trans hk)
  have er : dot_S8000x64_S64x16_S8000x16_1_0_0_1_n_n.rhsIdx (ix2 p q) ((contrEquiv1 dot_S8000x64_S64x16_S8000x16_1_0_0_1_n_n 64 rfl rfl).symm k) = ix2 k q :=
    funext fun a => Fin.ext (by
      match a with
      | ⟨0, _⟩ => exact (rhs0_row _ _).trans hk
      | ⟨1, _⟩ => exact rhs0_col _ _)
  rw [el, er]
  rfl

/-- The whole product, entry by entry. -/
def linear0 (x : S200000x64.Idx → EReal) (w : S64x16.Idx → EReal) : S200000x16.Idx → EReal :=
  fun i => 0 + ∑ k : Fin 64, x (ix2 (i 0) k) * w (ix2 k (i 1))

theorem linear0_apply (x : S200000x64.Idx → EReal) (w : S64x16.Idx → EReal) (r : Fin 200000) (o : Fin 16) :
    linear0 x w (ix2 r o) = 0 + ∑ k : Fin 64, x (ix2 r k) * w (ix2 k o) := rfl

/-- Where the windows' blocks sit at grid point `t`: the input rows and the output rows at tile `t`, the weights whole. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input tile at point `t` is rows `8000 t … 8000 t + 7999` of the input matrix. -/
theorem rows0 (c : Dev nD) (t : Fin cfg0.N) (p : Fin 8000) (k : Fin 64) (i : S200000x64.Idx)
    (h0 : (i 0).val = t.val * 8000 + p.val) (h1 : (i 1).val = k.val) :
    (iblk0 V c 0 t : Vec Ideal S8000x64 .f32) (ix2 p k) = (V c (Pipeline.arrRef spec0 0) : S200000x64.Idx → EReal) i := by
  obtain ⟨e0, e1, -⟩ := blocks0 t
  show (V c (Pipeline.arrRef spec0 0) : S200000x64.Idx → EReal) (((cfg0.win 0).blk t).view.emb (ix2 p k)) = _
  refine congrArg (V c (Pipeline.arrRef spec0 0) : S200000x64.Idx → EReal) (funext fun a => Fin.ext ?_)
  match a with
  | ⟨0, _⟩ => show win0_0.index t (0 : Fin 2) * 8000 + 1 * p.val = (i 0).val; omega
  | ⟨1, _⟩ => show win0_0.index t (1 : Fin 2) * 64 + 1 * k.val = (i 1).val; omega

/-- The first weight block at every point is the whole weight matrix. -/
theorem weights0_1 (c : Dev nD) (t : Fin cfg0.N) (k : Fin 64) (q : Fin 16) :
    (iblk0 V c 1 t : Vec Ideal S64x16 .f32) (ix2 k q) = (V c (Pipeline.arrRef spec0 1) : S64x16.Idx → EReal) (ix2 k q) := by
  obtain ⟨-, -, e0, e1, -, -, -, -, -, -⟩ := blocks0 t
  show (V c (Pipeline.arrRef spec0 1) : S64x16.Idx → EReal) (((cfg0.win 1).blk t).view.emb (ix2 k q)) = _
  refine congrArg (V c (Pipeline.arrRef spec0 1) : S64x16.Idx → EReal) (funext fun a => Fin.ext ?_)
  match a with
  | ⟨0, _⟩ => show win0_1.index t (0 : Fin 2) * 64 + 1 * k.val = k.val; omega
  | ⟨1, _⟩ => show win0_1.index t (1 : Fin 2) * 16 + 1 * q.val = q.val; omega

/-- What point `t` writes back to the first output is tile `t` of the whole product. -/
theorem flushed0_3_eq (c : Dev nD) (t : Fin cfg0.N) :
    (dat0 (F := Ideal) V c).flushed 3 t
      = ((cfg0.win 3).blk t).view.read (Elt Ideal) (linear0 (V c (Pipeline.arrRef spec0 0)) (V c (Pipeline.arrRef spec0 1))) := by
  show (cfg0.win 3).cut (grid0.coords t) ((dat0 V c).after 3 t) = _
  rw [after0_3]
  unfold out0_3
  rw [View.canon_unit_zero zero_offsets]
  simp only [View.ld_unit_zero (S := S8000x64) zero_offsets, View.ld_unit_zero (S := S64x16) zero_offsets]
  obtain ⟨-, -, -, -, -, -, e0, e1, -, -⟩ := blocks0 t
  funext j
  obtain ⟨p, q, rfl⟩ : ∃ (p : Fin 8000) (q : Fin 16), j = ix2 p q := ⟨j 0, j 1, eq_ix2 j⟩
  show k0_pay2 (iblk0 V c 0 t) (iblk0 V c 1 t) (ix2 p q)
    = linear0 (V c (Pipeline.arrRef spec0 0)) (V c (Pipeline.arrRef spec0 1)) (((cfg0.win 3).blk t).view.emb (ix2 p q))
  refine (tile0_3_apply (iblk0 V c 0 t) (iblk0 V c 1 t) p q).trans ?_
  refine congrArg (0 + ·) (Finset.sum_congr rfl fun k _ => ?_)
  have hr : ((((cfg0.win 3).blk t).view.emb (ix2 p q) : S200000x16.Idx) 0).val = t.val * 8000 + p.val := by
    show win0_3.index t (0 : Fin 2) * 8000 + 1 * p.val = _; omega
  have hc : (((cfg0.win 3).blk t).view.emb (ix2 p q) : S200000x16.Idx) 1 = q := Fin.ext (by
    show win0_3.index t (1 : Fin 2) * 16 + 1 * q.val = _; omega)
  rw [rows0 V c t p k (ix2 ((((cfg0.win 3).blk t).view.emb (ix2 p q) : S200000x16.Idx) 0) k) hr rfl, weights0_1 V c t k q, hc]

/-- An entry of the first output matrix lies in point `t`'s block iff each coordinate lies in the block's range. -/
theorem mem_blk0_3 (t : Fin cfg0.N) (i : S200000x16.Idx) :
    i ∈ ((cfg0.win 3).blk t).view.set ↔ ∀ a : Fin 2, win0_3.index t a * S8000x16.size a ≤ (i a).val ∧ (i a).val < win0_3.index t a * S8000x16.size a + S8000x16.size a := by
  show i ∈ ((View.whole main_v27_0).slice (win0_3.rect t)).set ↔ _
  rw [View.set_slice_whole, Rect.mem_set_unit]
  exact Iff.rfl

/-- The 25 row tiles cover the first output matrix: row `r` lies in tile `r / 8000`. -/
theorem cover0_3 (i : S200000x16.Idx) :
    ∃ t : Fin cfg0.N, (cfg0.win 3).flush t = true ∧ i ∈ ((cfg0.win 3).blk t).view.set := by
  have hi0 : (i 0).val < 200000 := (i 0).isLt
  have hi1 : (i 1).val < 16 := (i 1).isLt
  have hN : cfg0.N = 25 := N_0
  refine ⟨⟨(i 0).val / 8000, by rw [hN]; omega⟩, flush0_3 _, ?_⟩
  obtain ⟨-, -, -, -, -, -, e0, e1, -, -⟩ := blocks0 ⟨(i 0).val / 8000, by rw [hN]; omega⟩
  rw [mem_blk0_3]
  intro a
  match a with
  | ⟨0, _⟩ => show win0_3.index _ (0 : Fin 2) * 8000 ≤ (i 0).val ∧ (i 0).val < win0_3.index _ (0 : Fin 2) * 8000 + 8000; rw [e0]; show (i 0).val / 8000 * 8000 ≤ (i 0).val ∧ (i 0).val < (i 0).val / 8000 * 8000 + 8000; omega
  | ⟨1, _⟩ => show win0_3.index _ (1 : Fin 2) * 16 ≤ (i 1).val ∧ (i 1).val < win0_3.index _ (1 : Fin 2) * 16 + 16; rw [e1]; omega

/-- The first output matrix after the region is the whole product of the region's input matrices. -/
theorem final0_3 (c : Dev nD) :
    (dat0 (F := Ideal) V c).arrAt 3 cfg0.N = linear0 (V c (Pipeline.arrRef spec0 0)) (V c (Pipeline.arrRef spec0 1)) :=
  (dat0 (F := Ideal) V c).arrAt_eq_of_cover 3 (linear0 (V c (Pipeline.arrRef spec0 0)) (V c (Pipeline.arrRef spec0 1)))
    (fun t _ => flushed0_3_eq V c t) cover0_3

/-- Entry by entry: the first output is the zero accumulator plus the sum over the 64 features of input times weight. -/
theorem arr0_3 (c : Dev nD) (r : Fin 200000) (o : Fin 16) :
    ((dat0 (F := Ideal) V c).arrAt 3 cfg0.N : S200000x16.Idx → EReal) (ix2 r o)
      = 0 + ∑ k : Fin 64, @HMul.hMul EReal EReal EReal instHMul (V c (Pipeline.arrRef spec0 0) (ix2 r k)) (V c (Pipeline.arrRef spec0 1) (ix2 k o)) :=
  (congrFun (final0_3 V c) (ix2 r o)).trans (linear0_apply _ _ r o)

/-- The second weight block at every point is the whole weight matrix. -/
theorem weights0_2 (c : Dev nD) (t : Fin cfg0.N) (k : Fin 64) (q : Fin 16) :
    (iblk0 V c 2 t : Vec Ideal S64x16 .f32) (ix2 k q) = (V c (Pipeline.arrRef spec0 2) : S64x16.Idx → EReal) (ix2 k q) := by
  obtain ⟨-, -, -, -, e0, e1, -, -, -, -⟩ := blocks0 t
  show (V c (Pipeline.arrRef spec0 2) : S64x16.Idx → EReal) (((cfg0.win 2).blk t).view.emb (ix2 k q)) = _
  refine congrArg (V c (Pipeline.arrRef spec0 2) : S64x16.Idx → EReal) (funext fun a => Fin.ext ?_)
  match a with
  | ⟨0, _⟩ => show win0_2.index t (0 : Fin 2) * 64 + 1 * k.val = k.val; omega
  | ⟨1, _⟩ => show win0_2.index t (1 : Fin 2) * 16 + 1 * q.val = q.val; omega

/-- What point `t` writes back to the second output is tile `t` of the whole product. -/
theorem flushed0_4_eq (c : Dev nD) (t : Fin cfg0.N) :
    (dat0 (F := Ideal) V c).flushed 4 t
      = ((cfg0.win 4).blk t).view.read (Elt Ideal) (linear0 (V c (Pipeline.arrRef spec0 0)) (V c (Pipeline.arrRef spec0 2))) := by
  show (cfg0.win 4).cut (grid0.coords t) ((dat0 V c).after 4 t) = _
  rw [after0_4]
  unfold out0_4
  rw [View.canon_unit_zero zero_offsets]
  simp only [View.ld_unit_zero (S := S8000x64) zero_offsets, View.ld_unit_zero (S := S64x16) zero_offsets]
  obtain ⟨-, -, -, -, -, -, -, -, e0, e1⟩ := blocks0 t
  funext j
  obtain ⟨p, q, rfl⟩ : ∃ (p : Fin 8000) (q : Fin 16), j = ix2 p q := ⟨j 0, j 1, eq_ix2 j⟩
  show k0_pay3 (iblk0 V c 0 t) (iblk0 V c 2 t) (ix2 p q)
    = linear0 (V c (Pipeline.arrRef spec0 0)) (V c (Pipeline.arrRef spec0 2)) (((cfg0.win 4).blk t).view.emb (ix2 p q))
  refine (tile0_4_apply (iblk0 V c 0 t) (iblk0 V c 2 t) p q).trans ?_
  refine congrArg (0 + ·) (Finset.sum_congr rfl fun k _ => ?_)
  have hr : ((((cfg0.win 4).blk t).view.emb (ix2 p q) : S200000x16.Idx) 0).val = t.val * 8000 + p.val := by
    show win0_4.index t (0 : Fin 2) * 8000 + 1 * p.val = _; omega
  have hc : (((cfg0.win 4).blk t).view.emb (ix2 p q) : S200000x16.Idx) 1 = q := Fin.ext (by
    show win0_4.index t (1 : Fin 2) * 16 + 1 * q.val = _; omega)
  rw [rows0 V c t p k (ix2 ((((cfg0.win 4).blk t).view.emb (ix2 p q) : S200000x16.Idx) 0) k) hr rfl, weights0_2 V c t k q, hc]

/-- An entry of the second output matrix lies in point `t`'s block iff each coordinate lies in the block's range. -/
theorem mem_blk0_4 (t : Fin cfg0.N) (i : S200000x16.Idx) :
    i ∈ ((cfg0.win 4).blk t).view.set ↔ ∀ a : Fin 2, win0_4.index t a * S8000x16.size a ≤ (i a).val ∧ (i a).val < win0_4.index t a * S8000x16.size a + S8000x16.size a := by
  show i ∈ ((View.whole main_v27_1).slice (win0_4.rect t)).set ↔ _
  rw [View.set_slice_whole, Rect.mem_set_unit]
  exact Iff.rfl

/-- The 25 row tiles cover the second output matrix: row `r` lies in tile `r / 8000`. -/
theorem cover0_4 (i : S200000x16.Idx) :
    ∃ t : Fin cfg0.N, (cfg0.win 4).flush t = true ∧ i ∈ ((cfg0.win 4).blk t).view.set := by
  have hi0 : (i 0).val < 200000 := (i 0).isLt
  have hi1 : (i 1).val < 16 := (i 1).isLt
  have hN : cfg0.N = 25 := N_0
  refine ⟨⟨(i 0).val / 8000, by rw [hN]; omega⟩, flush0_4 _, ?_⟩
  obtain ⟨-, -, -, -, -, -, -, -, e0, e1⟩ := blocks0 ⟨(i 0).val / 8000, by rw [hN]; omega⟩
  rw [mem_blk0_4]
  intro a
  match a with
  | ⟨0, _⟩ => show win0_4.index _ (0 : Fin 2) * 8000 ≤ (i 0).val ∧ (i 0).val < win0_4.index _ (0 : Fin 2) * 8000 + 8000; rw [e0]; show (i 0).val / 8000 * 8000 ≤ (i 0).val ∧ (i 0).val < (i 0).val / 8000 * 8000 + 8000; omega
  | ⟨1, _⟩ => show win0_4.index _ (1 : Fin 2) * 16 ≤ (i 1).val ∧ (i 1).val < win0_4.index _ (1 : Fin 2) * 16 + 16; rw [e1]; omega

/-- The second output matrix after the region is the whole product of the region's input matrices. -/
theorem final0_4 (c : Dev nD) :
    (dat0 (F := Ideal) V c).arrAt 4 cfg0.N = linear0 (V c (Pipeline.arrRef spec0 0)) (V c (Pipeline.arrRef spec0 2)) :=
  (dat0 (F := Ideal) V c).arrAt_eq_of_cover 4 (linear0 (V c (Pipeline.arrRef spec0 0)) (V c (Pipeline.arrRef spec0 2)))
    (fun t _ => flushed0_4_eq V c t) cover0_4

/-- Entry by entry: the second output is the zero accumulator plus the sum over the 64 features of input times weight. -/
theorem arr0_4 (c : Dev nD) (r : Fin 200000) (o : Fin 16) :
    ((dat0 (F := Ideal) V c).arrAt 4 cfg0.N : S200000x16.Idx → EReal) (ix2 r o)
      = 0 + ∑ k : Fin 64, @HMul.hMul EReal EReal EReal instHMul (V c (Pipeline.arrRef spec0 0) (ix2 r k)) (V c (Pipeline.arrRef spec0 2) (ix2 k o)) :=
  (congrFun (final0_4 V c) (ix2 r o)).trans (linear0_apply _ _ r o)

/-! ## The single linear layer on 50000 rows of 32 features (five tiles of 10000 rows) -/

theorem arrRef1_0 : Pipeline.arrRef spec1 0 = main_arg1 := rfl
theorem arrRef1_1 : Pipeline.arrRef spec1 1 = main_arg11 := rfl
theorem arrRef1_2 : Pipeline.arrRef spec1 2 = main_v28 := rfl

/-- The left operand's row is the output's row, whatever the contraction position. -/
theorem lhs1_row (i : S10000x16.Idx) (κ : dot_S10000x32_S32x16_S10000x16_1_0_0_1_n_n.contr.Idx) : (dot_S10000x32_S32x16_S10000x16_1_0_0_1_n_n.lhsIdx i κ 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
/-- The left operand's column is the contraction position. -/
theorem lhs1_col (i : S10000x16.Idx) (κ : dot_S10000x32_S32x16_S10000x16_1_0_0_1_n_n.contr.Idx) : (dot_S10000x32_S32x16_S10000x16_1_0_0_1_n_n.lhsIdx i κ 1).val = (κ ⟨0, by decide⟩).val :=
  dot_S10000x32_S32x16_S10000x16_1_0_0_1_n_n.lhsIdx_val_of_single rfl i κ
/-- The right operand's row is the contraction position. -/
theorem rhs1_row (i : S10000x16.Idx) (κ : dot_S10000x32_S32x16_S10000x16_1_0_0_1_n_n.contr.Idx) : (dot_S10000x32_S32x16_S10000x16_1_0_0_1_n_n.rhsIdx i κ 0).val = (κ ⟨0, by decide⟩).val :=
  dot_S10000x32_S32x16_S10000x16_1_0_0_1_n_n.rhsIdx_val_of_single rfl i κ
/-- The right operand's column is the output's column, whatever the contraction position. -/
theorem rhs1_col (i : S10000x16.Idx) (κ : dot_S10000x32_S32x16_S10000x16_1_0_0_1_n_n.contr.Idx) : (dot_S10000x32_S32x16_S10000x16_1_0_0_1_n_n.rhsIdx i κ 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- One tile's product at an entry: the zero accumulator plus the sum over the 32 features. -/
theorem tile1_2_apply (x : Vec Ideal S10000x32 .f32) (w : Vec Ideal S32x16 .f32) (p : Fin 10000) (q : Fin 16) :
    k1_pay1 x w (ix2 p q) = 0 + ∑ k : Fin 32, x (ix2 p k) * w (ix2 k q) := by
  unfold k1_pay1
  refine (Ideal.matmul_apply dot_S10000x32_S32x16_S10000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 p q) ((contrEquiv1 dot_S10000x32_S32x16_S10000x16_1_0_0_1_n_n 32 rfl rfl).symm k) = ix2 p k :=
    funext fun a => Fin.ext (by
      match a with
      | ⟨0, _⟩ => exact lhs1_row _ _
      | ⟨1, _⟩ => exact (lhs1_col _ _).trans hk)
  have er : dot_S10000x32_S32x16_S10000x16_1_0_0_1_n_n.rhsIdx (ix2 p q) ((contrEquiv1 dot_S10000x32_S32x16_S10000x16_1_0_0_1_n_n 32 rfl rfl).symm k) = ix2 k q :=
    funext fun a => Fin.ext (by
      match a with
      | ⟨0, _⟩ => exact (rhs1_row _ _).trans hk
      | ⟨1, _⟩ => exact rhs1_col _ _)
  rw [el, er]
  rfl

/-- The whole product, entry by entry. -/
def linear1 (x : S50000x32.Idx → EReal) (w : S32x16.Idx → EReal) : S50000x16.Idx → EReal :=
  fun i => 0 + ∑ k : Fin 32, x (ix2 (i 0) k) * w (ix2 k (i 1))

theorem linear1_apply (x : S50000x32.Idx → EReal) (w : S32x16.Idx → EReal) (r : Fin 50000) (o : Fin 16) :
    linear1 x w (ix2 r o) = 0 + ∑ k : Fin 32, x (ix2 r k) * w (ix2 k o) := rfl

/-- Where the windows' blocks sit at grid point `t`: the input rows and the output rows at tile `t`, the weights whole. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input tile at point `t` is rows `10000 t … 10000 t + 9999` of the input matrix. -/
theorem rows1 (c : Dev nD) (t : Fin cfg1.N) (p : Fin 10000) (k : Fin 32) (i : S50000x32.Idx)
    (h0 : (i 0).val = t.val * 10000 + p.val) (h1 : (i 1).val = k.val) :
    (iblk1 V c 0 t : Vec Ideal S10000x32 .f32) (ix2 p k) = (V c (Pipeline.arrRef spec1 0) : S50000x32.Idx → EReal) i := by
  obtain ⟨e0, e1, -⟩ := blocks1 t
  show (V c (Pipeline.arrRef spec1 0) : S50000x32.Idx → EReal) (((cfg1.win 0).blk t).view.emb (ix2 p k)) = _
  refine congrArg (V c (Pipeline.arrRef spec1 0) : S50000x32.Idx → EReal) (funext fun a => Fin.ext ?_)
  match a with
  | ⟨0, _⟩ => show win1_0.index t (0 : Fin 2) * 10000 + 1 * p.val = (i 0).val; omega
  | ⟨1, _⟩ => show win1_0.index t (1 : Fin 2) * 32 + 1 * k.val = (i 1).val; omega

/-- The weight block at every point is the whole weight matrix. -/
theorem weights1_1 (c : Dev nD) (t : Fin cfg1.N) (k : Fin 32) (q : Fin 16) :
    (iblk1 V c 1 t : Vec Ideal S32x16 .f32) (ix2 k q) = (V c (Pipeline.arrRef spec1 1) : S32x16.Idx → EReal) (ix2 k q) := by
  obtain ⟨-, -, e0, e1, -, -⟩ := blocks1 t
  show (V c (Pipeline.arrRef spec1 1) : S32x16.Idx → EReal) (((cfg1.win 1).blk t).view.emb (ix2 k q)) = _
  refine congrArg (V c (Pipeline.arrRef spec1 1) : S32x16.Idx → EReal) (funext fun a => Fin.ext ?_)
  match a with
  | ⟨0, _⟩ => show win1_1.index t (0 : Fin 2) * 32 + 1 * k.val = k.val; omega
  | ⟨1, _⟩ => show win1_1.index t (1 : Fin 2) * 16 + 1 * q.val = q.val; omega

/-- What point `t` writes back to the output is tile `t` of the whole product. -/
theorem flushed1_2_eq (c : Dev nD) (t : Fin cfg1.N) :
    (dat1 (F := Ideal) V c).flushed 2 t
      = ((cfg1.win 2).blk t).view.read (Elt Ideal) (linear1 (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S10000x32) zero_offsets, View.ld_unit_zero (S := S32x16) zero_offsets]
  obtain ⟨-, -, -, -, e0, e1⟩ := blocks1 t
  funext j
  obtain ⟨p, q, rfl⟩ : ∃ (p : Fin 10000) (q : Fin 16), j = ix2 p q := ⟨j 0, j 1, eq_ix2 j⟩
  show k1_pay1 (iblk1 V c 0 t) (iblk1 V c 1 t) (ix2 p q)
    = linear1 (V c (Pipeline.arrRef spec1 0)) (V c (Pipeline.arrRef spec1 1)) (((cfg1.win 2).blk t).view.emb (ix2 p q))
  refine (tile1_2_apply (iblk1 V c 0 t) (iblk1 V c 1 t) p q).trans ?_
  refine congrArg (0 + ·) (Finset.sum_congr rfl fun k _ => ?_)
  have hr : ((((cfg1.win 2).blk t).view.emb (ix2 p q) : S50000x16.Idx) 0).val = t.val * 10000 + p.val := by
    show win1_2.index t (0 : Fin 2) * 10000 + 1 * p.val = _; omega
  have hc : (((cfg1.win 2).blk t).view.emb (ix2 p q) : S50000x16.Idx) 1 = q := Fin.ext (by
    show win1_2.index t (1 : Fin 2) * 16 + 1 * q.val = _; omega)
  rw [rows1 V c t p k (ix2 ((((cfg1.win 2).blk t).view.emb (ix2 p q) : S50000x16.Idx) 0) k) hr rfl, weights1_1 V c t k q, hc]

/-- An entry of the output matrix lies in point `t`'s block iff each coordinate lies in the block's range. -/
theorem mem_blk1_2 (t : Fin cfg1.N) (i : S50000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v28).slice (win1_2.rect t)).set ↔ _
  rw [View.set_slice_whole, Rect.mem_set_unit]
  exact Iff.rfl

/-- The 5 row tiles cover the output matrix: row `r` lies in tile `r / 10000`. -/
theorem cover1_2 (i : S50000x16.Idx) :
    ∃ t : Fin cfg1.N, (cfg1.win 2).flush t = true ∧ i ∈ ((cfg1.win 2).blk t).view.set := by
  have hi0 : (i 0).val < 50000 := (i 0).isLt
  have hi1 : (i 1).val < 16 := (i 1).isLt
  have hN : cfg1.N = 5 := N_1
  refine ⟨⟨(i 0).val / 10000, by rw [hN]; omega⟩, flush1_2 _, ?_⟩
  obtain ⟨-, -, -, -, e0, e1⟩ := blocks1 ⟨(i 0).val / 10000, by rw [hN]; omega⟩
  rw [mem_blk1_2]
  intro a
  match a with
  | ⟨0, _⟩ => show win1_2.index _ (0 : Fin 2) * 10000 ≤ (i 0).val ∧ (i 0).val < win1_2.index _ (0 : Fin 2) * 10000 + 10000; rw [e0]; show (i 0).val / 10000 * 10000 ≤ (i 0).val ∧ (i 0).val < (i 0).val / 10000 * 10000 + 10000; omega
  | ⟨1, _⟩ => show win1_2.index _ (1 : Fin 2) * 16 ≤ (i 1).val ∧ (i 1).val < win1_2.index _ (1 : Fin 2) * 16 + 16; rw [e1]; omega

/-- The output matrix after the region is the whole product of the region's input matrices. -/
theorem final1_2 (c : Dev nD) :
    (dat1 (F := Ideal) V c).arrAt 2 cfg1.N = linear1 (V c (Pipeline.arrRef spec1 0)) (V c (Pipeline.arrRef spec1 1)) :=
  (dat1 (F := Ideal) V c).arrAt_eq_of_cover 2 (linear1 (V c (Pipeline.arrRef spec1 0)) (V c (Pipeline.arrRef spec1 1)))
    (fun t _ => flushed1_2_eq V c t) cover1_2

/-- Entry by entry: the output is the zero accumulator plus the sum over the 32 features of input times weight. -/
theorem arr1_2 (c : Dev nD) (r : Fin 50000) (o : Fin 16) :
    ((dat1 (F := Ideal) V c).arrAt 2 cfg1.N : S50000x16.Idx → EReal) (ix2 r o)
      = 0 + ∑ k : Fin 32, @HMul.hMul EReal EReal EReal instHMul (V c (Pipeline.arrRef spec1 0) (ix2 r k)) (V c (Pipeline.arrRef spec1 1) (ix2 k o)) :=
  (congrFun (final1_2 V c) (ix2 r o)).trans (linear1_apply _ _ r o)

/-! ## The two second-layer linear maps on 200000 rows of 16 features (25 tiles of 8000 rows, one input, two weight matrices) -/

theorem arrRef4_0 : Pipeline.arrRef spec4 0 = main_v70 := rfl
theorem arrRef4_1 : Pipeline.arrRef spec4 1 = main_arg17 := rfl
theorem arrRef4_2 : Pipeline.arrRef spec4 2 = main_arg23 := rfl
theorem arrRef4_3 : Pipeline.arrRef spec4 3 = main_v71_0 := rfl
theorem arrRef4_4 : Pipeline.arrRef spec4 4 = main_v71_1 := rfl

/-- The left operand's row is the output's row, whatever the contraction position. -/
theorem lhs4_row (i : S8000x16.Idx) (κ : dot_S8000x16_S16x16_S8000x16_1_0_0_1_n_n.contr.Idx) : (dot_S8000x16_S16x16_S8000x16_1_0_0_1_n_n.lhsIdx i κ 0).val = (i 0).val := by
  unfold DotDims.lhsIdx
  rw [dif_neg (show ¬(0 : Fin S8000x16.rank) ∈ dot_S8000x16_S16x16_S8000x16_1_0_0_1_n_n.lhsBatch by decide), dif_pos (show (0 : Fin S8000x16.rank) ∈ dot_S8000x16_S16x16_S8000x16_1_0_0_1_n_n.lhsNonContracting by decide)]
  rfl
/-- The left operand's column is the contraction position. -/
theorem lhs4_col (i : S8000x16.Idx) (κ : dot_S8000x16_S16x16_S8000x16_1_0_0_1_n_n.contr.Idx) : (dot_S8000x16_S16x16_S8000x16_1_0_0_1_n_n.lhsIdx i κ 1).val = (κ ⟨0, by decide⟩).val :=
  dot_S8000x16_S16x16_S8000x16_1_0_0_1_n_n.lhsIdx_val_of_single rfl i κ
/-- The right operand's row is the contraction position. -/
theorem rhs4_row (i : S8000x16.Idx) (κ : dot_S8000x16_S16x16_S8000x16_1_0_0_1_n_n.contr.Idx) : (dot_S8000x16_S16x16_S8000x16_1_0_0_1_n_n.rhsIdx i κ 0).val = (κ ⟨0, by decide⟩).val :=
  dot_S8000x16_S16x16_S8000x16_1_0_0_1_n_n.rhsIdx_val_of_single rfl i κ
/-- The right operand's column is the output's column, whatever the contraction position. -/
theorem rhs4_col (i : S8000x16.Idx) (κ : dot_S8000x16_S16x16_S8000x16_1_0_0_1_n_n.contr.Idx) : (dot_S8000x16_S16x16_S8000x16_1_0_0_1_n_n.rhsIdx i κ 1).val = (i 1).val := by
  unfold DotDims.rhsIdx
  rw [dif_neg (show ¬(1 : Fin S16x16.rank) ∈ dot_S8000x16_S16x16_S8000x16_1_0_0_1_n_n.rhsBatch by decide), dif_pos (show (1 : Fin S16x16.rank) ∈ dot_S8000x16_S16x16_S8000x16_1_0_0_1_n_n.rhsNonContracting by decide)]
  rfl

/-- Before the product the input tile is re-laid in its own shape and narrowed: at the extended reals, nothing happens to it. -/
theorem narrow4 (x : Vec Ideal S8000x16 .f32) : (k4_pay1 x : S8000x16.Idx → EReal) = x := by
  unfold k4_pay1
  exact shapeCast_self x _

/-- One tile's product with the first weight matrix at an entry: the zero accumulator plus the sum over the 16 features. -/
theorem tile4_3_apply (x : Vec Ideal S8000x16 .f32) (w : Vec Ideal S16x16 .f32) (p : Fin 8000) (q : Fin 16) :
    k4_pay2 x w (ix2 p q) = 0 + ∑ k : Fin 16, x (ix2 p k) * w (ix2 k q) := by
  unfold k4_pay2
  refine (Ideal.matmul_apply dot_S8000x16_S16x16_S8000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 p q) ((contrEquiv1 dot_S8000x16_S16x16_S8000x16_1_0_0_1_n_n 16 rfl rfl).symm k) = ix2 p k :=
    funext fun a => Fin.ext (by
      match a with
      | ⟨0, _⟩ => exact lhs4_row _ _
      | ⟨1, _⟩ => exact (lhs4_col _ _).trans hk)
  have er : dot_S8000x16_S16x16_S8000x16_1_0_0_1_n_n.rhsIdx (ix2 p q) ((contrEquiv1 dot_S8000x16_S16x16_S8000x16_1_0_0_1_n_n 16 rfl rfl).symm k) = ix2 k q :=
    funext fun a => Fin.ext (by
      match a with
      | ⟨0, _⟩ => exact (rhs4_row _ _).trans hk
      | ⟨1, _⟩ => exact rhs4_col _ _)
  rw [el, er]
  exact congrArg (· * w (ix2 k q)) (congrFun (narrow4 x) (ix2 p k))

/-- One tile's product with the second weight matrix at an entry: the zero accumulator plus the sum over the 16 features. -/
theorem tile4_4_apply (x : Vec Ideal S8000x16 .f32) (w : Vec Ideal S16x16 .f32) (p : Fin 8000) (q : Fin 16) :
    k4_pay3 x w (ix2 p q) = 0 + ∑ k : Fin 16, x (ix2 p k) * w (ix2 k q) := by
  unfold k4_pay3
  refine (Ideal.matmul_apply dot_S8000x16_S16x16_S8000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 p q) ((contrEquiv1 dot_S8000x16_S16x16_S8000x16_1_0_0_1_n_n 16 rfl rfl).symm k) = ix2 p k :=
    funext fun a => Fin.ext (by
      match a with
      | ⟨0, _⟩ => exact lhs4_row _ _
      | ⟨1, _⟩ => exact (lhs4_col _ _).trans hk)
  have er : dot_S8000x16_S16x16_S8000x16_1_0_0_1_n_n.rhsIdx (ix2 p q) ((contrEquiv1 dot_S8000x16_S16x16_S8000x16_1_0_0_1_n_n 16 rfl rfl).symm k) = ix2 k q :=
    funext fun a => Fin.ext (by
      match a with
      | ⟨0, _⟩ => exact (rhs4_row _ _).trans hk
      | ⟨1, _⟩ => exact rhs4_col _ _)
  rw [el, er]
  exact congrArg (· * w (ix2 k q)) (congrFun (narrow4 x) (ix2 p k))

/-- The whole product, entry by entry. -/
def linear4 (x : S200000x16.Idx → EReal) (w : S16x16.Idx → EReal) : S200000x16.Idx → EReal :=
  fun i => 0 + ∑ k : Fin 16, x (ix2 (i 0) k) * w (ix2 k (i 1))

theorem linear4_apply (x : S200000x16.Idx → EReal) (w : S16x16.Idx → EReal) (r : Fin 200000) (o : Fin 16) :
    linear4 x w (ix2 r o) = 0 + ∑ k : Fin 16, x (ix2 r k) * w (ix2 k o) := rfl

/-- Where the windows' blocks sit at grid point `t`: the input rows and the output rows at tile `t`, the weights whole. -/
theorem blocks4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The input tile at point `t` is rows `8000 t … 8000 t + 7999` of the input matrix. -/
theorem rows4 (c : Dev nD) (t : Fin cfg4.N) (p : Fin 8000) (k : Fin 16) (i : S200000x16.Idx)
    (h0 : (i 0).val = t.val * 8000 + p.val) (h1 : (i 1).val = k.val) :
    (iblk4 V c 0 t : Vec Ideal S8000x16 .f32) (ix2 p k) = (V c (Pipeline.arrRef spec4 0) : S200000x16.Idx → EReal) i := by
  obtain ⟨e0, e1, -⟩ := blocks4 t
  show (V c (Pipeline.arrRef spec4 0) : S200000x16.Idx → EReal) (((cfg4.win 0).blk t).view.emb (ix2 p k)) = _
  refine congrArg (V c (Pipeline.arrRef spec4 0) : S200000x16.Idx → EReal) (funext fun a => Fin.ext ?_)
  match a with
  | ⟨0, _⟩ => show win4_0.index t (0 : Fin 2) * 8000 + 1 * p.val = (i 0).val; omega
  | ⟨1, _⟩ => show win4_0.index t (1 : Fin 2) * 16 + 1 * k.val = (i 1).val; omega

/-- The first weight block at every point is the whole weight matrix. -/
theorem weights4_1 (c : Dev nD) (t : Fin cfg4.N) (k : Fin 16) (q : Fin 16) :
    (iblk4 V c 1 t : Vec Ideal S16x16 .f32) (ix2 k q) = (V c (Pipeline.arrRef spec4 1) : S16x16.Idx → EReal) (ix2 k q) := by
  obtain ⟨-, -, e0, e1, -, -, -, -, -, -⟩ := blocks4 t
  show (V c (Pipeline.arrRef spec4 1) : S16x16.Idx → EReal) (((cfg4.win 1).blk t).view.emb (ix2 k q)) = _
  refine congrArg (V c (Pipeline.arrRef spec4 1) : S16x16.Idx → EReal) (funext fun a => Fin.ext ?_)
  match a with
  | ⟨0, _⟩ => show win4_1.index t (0 : Fin 2) * 16 + 1 * k.val = k.val; omega
  | ⟨1, _⟩ => show win4_1.index t (1 : Fin 2) * 16 + 1 * q.val = q.val; omega

/-- What point `t` writes back to the first output is tile `t` of the whole product. -/
theorem flushed4_3_eq (c : Dev nD) (t : Fin cfg4.N) :
    (dat4 (F := Ideal) V c).flushed 3 t
      = ((cfg4.win 3).blk t).view.read (Elt Ideal) (linear4 (V c (Pipeline.arrRef spec4 0)) (V c (Pipeline.arrRef spec4 1))) := by
  show (cfg4.win 3).cut (grid4.coords t) ((dat4 V c).after 3 t) = _
  rw [after4_3]
  unfold out4_3
  rw [View.canon_unit_zero zero_offsets]
  simp only [View.ld_unit_zero (S := S8000x16) zero_offsets, View.ld_unit_zero (S := S16x16) zero_offsets]
  obtain ⟨-, -, -, -, -, -, e0, e1, -, -⟩ := blocks4 t
  funext j
  obtain ⟨p, q, rfl⟩ : ∃ (p : Fin 8000) (q : Fin 16), j = ix2 p q := ⟨j 0, j 1, eq_ix2 j⟩
  show k4_pay2 (iblk4 V c 0 t) (iblk4 V c 1 t) (ix2 p q)
    = linear4 (V c (Pipeline.arrRef spec4 0)) (V c (Pipeline.arrRef spec4 1)) (((cfg4.win 3).blk t).view.emb (ix2 p q))
  refine (tile4_3_apply (iblk4 V c 0 t) (iblk4 V c 1 t) p q).trans ?_
  refine congrArg (0 + ·) (Finset.sum_congr rfl fun k _ => ?_)
  have hr : ((((cfg4.win 3).blk t).view.emb (ix2 p q) : S200000x16.Idx) 0).val = t.val * 8000 + p.val := by
    show win4_3.index t (0 : Fin 2) * 8000 + 1 * p.val = _; omega
  have hc : (((cfg4.win 3).blk t).view.emb (ix2 p q) : S200000x16.Idx) 1 = q := Fin.ext (by
    show win4_3.index t (1 : Fin 2) * 16 + 1 * q.val = _; omega)
  rw [rows4 V c t p k (ix2 ((((cfg4.win 3).blk t).view.emb (ix2 p q) : S200000x16.Idx) 0) k) hr rfl, weights4_1 V c t k q, hc]

/-- An entry of the first output matrix lies in point `t`'s block iff each coordinate lies in the block's range. -/
theorem mem_blk4_3 (t : Fin cfg4.N) (i : S200000x16.Idx) :
    i ∈ ((cfg4.win 3).blk t).view.set ↔ ∀ a : Fin 2, win4_3.index t a * S8000x16.size a ≤ (i a).val ∧ (i a).val < win4_3.index t a * S8000x16.size a + S8000x16.size a := by
  show i ∈ ((View.whole main_v71_0).slice (win4_3.rect t)).set ↔ _
  rw [View.set_slice_whole, Rect.mem_set_unit]
  exact Iff.rfl

/-- The 25 row tiles cover the first output matrix: row `r` lies in tile `r / 8000`. -/
theorem cover4_3 (i : S200000x16.Idx) :
    ∃ t : Fin cfg4.N, (cfg4.win 3).flush t = true ∧ i ∈ ((cfg4.win 3).blk t).view.set := by
  have hi0 : (i 0).val < 200000 := (i 0).isLt
  have hi1 : (i 1).val < 16 := (i 1).isLt
  have hN : cfg4.N = 25 := N_4
  refine ⟨⟨(i 0).val / 8000, by rw [hN]; omega⟩, flush4_3 _, ?_⟩
  obtain ⟨-, -, -, -, -, -, e0, e1, -, -⟩ := blocks4 ⟨(i 0).val / 8000, by rw [hN]; omega⟩
  rw [mem_blk4_3]
  intro a
  match a with
  | ⟨0, _⟩ => show win4_3.index _ (0 : Fin 2) * 8000 ≤ (i 0).val ∧ (i 0).val < win4_3.index _ (0 : Fin 2) * 8000 + 8000; rw [e0]; show (i 0).val / 8000 * 8000 ≤ (i 0).val ∧ (i 0).val < (i 0).val / 8000 * 8000 + 8000; omega
  | ⟨1, _⟩ => show win4_3.index _ (1 : Fin 2) * 16 ≤ (i 1).val ∧ (i 1).val < win4_3.index _ (1 : Fin 2) * 16 + 16; rw [e1]; omega

/-- The first output matrix after the region is the whole product of the region's input matrices. -/
theorem final4_3 (c : Dev nD) :
    (dat4 (F := Ideal) V c).arrAt 3 cfg4.N = linear4 (V c (Pipeline.arrRef spec4 0)) (V c (Pipeline.arrRef spec4 1)) :=
  (dat4 (F := Ideal) V c).arrAt_eq_of_cover 3 (linear4 (V c (Pipeline.arrRef spec4 0)) (V c (Pipeline.arrRef spec4 1)))
    (fun t _ => flushed4_3_eq V c t) cover4_3

/-- Entry by entry: the first output is the zero accumulator plus the sum over the 16 features of input times weight. -/
theorem arr4_3 (c : Dev nD) (r : Fin 200000) (o : Fin 16) :
    ((dat4 (F := Ideal) V c).arrAt 3 cfg4.N : S200000x16.Idx → EReal) (ix2 r o)
      = 0 + ∑ k : Fin 16, @HMul.hMul EReal EReal EReal instHMul (V c (Pipeline.arrRef spec4 0) (ix2 r k)) (V c (Pipeline.arrRef spec4 1) (ix2 k o)) :=
  (congrFun (final4_3 V c) (ix2 r o)).trans (linear4_apply _ _ r o)

/-- The second weight block at every point is the whole weight matrix. -/
theorem weights4_2 (c : Dev nD) (t : Fin cfg4.N) (k : Fin 16) (q : Fin 16) :
    (iblk4 V c 2 t : Vec Ideal S16x16 .f32) (ix2 k q) = (V c (Pipeline.arrRef spec4 2) : S16x16.Idx → EReal) (ix2 k q) := by
  obtain ⟨-, -, -, -, e0, e1, -, -, -, -⟩ := blocks4 t
  show (V c (Pipeline.arrRef spec4 2) : S16x16.Idx → EReal) (((cfg4.win 2).blk t).view.emb (ix2 k q)) = _
  refine congrArg (V c (Pipeline.arrRef spec4 2) : S16x16.Idx → EReal) (funext fun a => Fin.ext ?_)
  match a with
  | ⟨0, _⟩ => show win4_2.index t (0 : Fin 2) * 16 + 1 * k.val = k.val; omega
  | ⟨1, _⟩ => show win4_2.index t (1 : Fin 2) * 16 + 1 * q.val = q.val; omega

/-- What point `t` writes back to the second output is tile `t` of the whole product. -/
theorem flushed4_4_eq (c : Dev nD) (t : Fin cfg4.N) :
    (dat4 (F := Ideal) V c).flushed 4 t
      = ((cfg4.win 4).blk t).view.read (Elt Ideal) (linear4 (V c (Pipeline.arrRef spec4 0)) (V c (Pipeline.arrRef spec4 2))) := by
  show (cfg4.win 4).cut (grid4.coords t) ((dat4 V c).after 4 t) = _
  rw [after4_4]
  unfold out4_4
  rw [View.canon_unit_zero zero_offsets]
  simp only [View.ld_unit_zero (S := S8000x16) zero_offsets, View.ld_unit_zero (S := S16x16) zero_offsets]
  obtain ⟨-, -, -, -, -, -, -, -, e0, e1⟩ := blocks4 t
  funext j
  obtain ⟨p, q, rfl⟩ : ∃ (p : Fin 8000) (q : Fin 16), j = ix2 p q := ⟨j 0, j 1, eq_ix2 j⟩
  show k4_pay3 (iblk4 V c 0 t) (iblk4 V c 2 t) (ix2 p q)
    = linear4 (V c (Pipeline.arrRef spec4 0)) (V c (Pipeline.arrRef spec4 2)) (((cfg4.win 4).blk t).view.emb (ix2 p q))
  refine (tile4_4_apply (iblk4 V c 0 t) (iblk4 V c 2 t) p q).trans ?_
  refine congrArg (0 + ·) (Finset.sum_congr rfl fun k _ => ?_)
  have hr : ((((cfg4.win 4).blk t).view.emb (ix2 p q) : S200000x16.Idx) 0).val = t.val * 8000 + p.val := by
    show win4_4.index t (0 : Fin 2) * 8000 + 1 * p.val = _; omega
  have hc : (((cfg4.win 4).blk t).view.emb (ix2 p q) : S200000x16.Idx) 1 = q := Fin.ext (by
    show win4_4.index t (1 : Fin 2) * 16 + 1 * q.val = _; omega)
  rw [rows4 V c t p k (ix2 ((((cfg4.win 4).blk t).view.emb (ix2 p q) : S200000x16.Idx) 0) k) hr rfl, weights4_2 V c t k q, hc]

/-- An entry of the second output matrix lies in point `t`'s block iff each coordinate lies in the block's range. -/
theorem mem_blk4_4 (t : Fin cfg4.N) (i : S200000x16.Idx) :
    i ∈ ((cfg4.win 4).blk t).view.set ↔ ∀ a : Fin 2, win4_4.index t a * S8000x16.size a ≤ (i a).val ∧ (i a).val < win4_4.index t a * S8000x16.size a + S8000x16.size a := by
  show i ∈ ((View.whole main_v71_1).slice (win4_4.rect t)).set ↔ _
  rw [View.set_slice_whole, Rect.mem_set_unit]
  exact Iff.rfl

/-- The 25 row tiles cover the second output matrix: row `r` lies in tile `r / 8000`. -/
theorem cover4_4 (i : S200000x16.Idx) :
    ∃ t : Fin cfg4.N, (cfg4.win 4).flush t = true ∧ i ∈ ((cfg4.win 4).blk t).view.set := by
  have hi0 : (i 0).val < 200000 := (i 0).isLt
  have hi1 : (i 1).val < 16 := (i 1).isLt
  have hN : cfg4.N = 25 := N_4
  refine ⟨⟨(i 0).val / 8000, by rw [hN]; omega⟩, flush4_4 _, ?_⟩
  obtain ⟨-, -, -, -, -, -, -, -, e0, e1⟩ := blocks4 ⟨(i 0).val / 8000, by rw [hN]; omega⟩
  rw [mem_blk4_4]
  intro a
  match a with
  | ⟨0, _⟩ => show win4_4.index _ (0 : Fin 2) * 8000 ≤ (i 0).val ∧ (i 0).val < win4_4.index _ (0 : Fin 2) * 8000 + 8000; rw [e0]; show (i 0).val / 8000 * 8000 ≤ (i 0).val ∧ (i 0).val < (i 0).val / 8000 * 8000 + 8000; omega
  | ⟨1, _⟩ => show win4_4.index _ (1 : Fin 2) * 16 ≤ (i 1).val ∧ (i 1).val < win4_4.index _ (1 : Fin 2) * 16 + 16; rw [e1]; omega

/-- The second output matrix after the region is the whole product of the region's input matrices. -/
theorem final4_4 (c : Dev nD) :
    (dat4 (F := Ideal) V c).arrAt 4 cfg4.N = linear4 (V c (Pipeline.arrRef spec4 0)) (V c (Pipeline.arrRef spec4 2)) :=
  (dat4 (F := Ideal) V c).arrAt_eq_of_cover 4 (linear4 (V c (Pipeline.arrRef spec4 0)) (V c (Pipeline.arrRef spec4 2)))
    (fun t _ => flushed4_4_eq V c t) cover4_4

/-- Entry by entry: the second output is the zero accumulator plus the sum over the 16 features of input times weight. -/
theorem arr4_4 (c : Dev nD) (r : Fin 200000) (o : Fin 16) :
    ((dat4 (F := Ideal) V c).arrAt 4 cfg4.N : S200000x16.Idx → EReal) (ix2 r o)
      = 0 + ∑ k : Fin 16, @HMul.hMul EReal EReal EReal instHMul (V c (Pipeline.arrRef spec4 0) (ix2 r k)) (V c (Pipeline.arrRef spec4 2) (ix2 k o)) :=
  (congrFun (final4_4 V c) (ix2 r o)).trans (linear4_apply _ _ r o)

/-! ## The single second-layer linear map on 50000 rows of 16 features (five tiles of 10000 rows) -/

theorem arrRef5_0 : Pipeline.arrRef spec5 0 = main_v66 := rfl
theorem arrRef5_1 : Pipeline.arrRef spec5 1 = main_arg20 := rfl
theorem arrRef5_2 : Pipeline.arrRef spec5 2 = main_v72 := rfl

/-- The left operand's row is the output's row, whatever the contraction position. -/
theorem lhs5_row (i : S10000x16.Idx) (κ : dot_S10000x16_S16x16_S10000x16_1_0_0_1_n_n.contr.Idx) : (dot_S10000x16_S16x16_S10000x16_1_0_0_1_n_n.lhsIdx i κ 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
/-- The left operand's column is the contraction position. -/
theorem lhs5_col (i : S10000x16.Idx) (κ : dot_S10000x16_S16x16_S10000x16_1_0_0_1_n_n.contr.Idx) : (dot_S10000x16_S16x16_S10000x16_1_0_0_1_n_n.lhsIdx i κ 1).val = (κ ⟨0, by decide⟩).val :=
  dot_S10000x16_S16x16_S10000x16_1_0_0_1_n_n.lhsIdx_val_of_single rfl i κ
/-- The right operand's row is the contraction position. -/
theorem rhs5_row (i : S10000x16.Idx) (κ : dot_S10000x16_S16x16_S10000x16_1_0_0_1_n_n.contr.Idx) : (dot_S10000x16_S16x16_S10000x16_1_0_0_1_n_n.rhsIdx i κ 0).val = (κ ⟨0, by decide⟩).val :=
  dot_S10000x16_S16x16_S10000x16_1_0_0_1_n_n.rhsIdx_val_of_single rfl i κ
/-- The right operand's column is the output's column, whatever the contraction position. -/
theorem rhs5_col (i : S10000x16.Idx) (κ : dot_S10000x16_S16x16_S10000x16_1_0_0_1_n_n.contr.Idx) : (dot_S10000x16_S16x16_S10000x16_1_0_0_1_n_n.rhsIdx i κ 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- One tile's product at an entry: the zero accumulator plus the sum over the 16 features. -/
theorem tile5_2_apply (x : Vec Ideal S10000x16 .f32) (w : Vec Ideal S16x16 .f32) (p : Fin 10000) (q : Fin 16) :
    k5_pay1 x w (ix2 p q) = 0 + ∑ k : Fin 16, x (ix2 p k) * w (ix2 k q) := by
  unfold k5_pay1
  refine (Ideal.matmul_apply dot_S10000x16_S16x16_S10000x16_1_0_0_1_n_n none _ _ _ (ix2 p q)).trans ?_
  show Ideal.ofBits .f32 0x00000000#32 + _ = _
  rw [Ideal.ofBits_zero_f32]
  refine congrArg (0 + ·) ?_
  rw [← Equiv.sum_comp (contrEquiv1 dot_S10000x16_S16x16_S10000x16_1_0_0_1_n_n 16 rfl rfl).symm]
  refine Finset.sum_congr rfl fun k _ => ?_
  have hk := contrEquiv1_symm_val dot_S10000x16_S16x16_S10000x16_1_0_0_1_n_n 16 rfl rfl k
  have el : dot_S10000x16_S16x16_S10000x16_1_0_0_1_n_n.lhsIdx (ix2 p q) ((contrEquiv1 dot_S10000x16_S16x16_S10000x16_1_0_0_1_n_n 16 rfl rfl).symm k) = ix2 p k :=
    funext fun a => Fin.ext (by
      match a with
      | ⟨0, _⟩ => exact lhs5_row _ _
      | ⟨1, _⟩ => exact (lhs5_col _ _).trans hk)
  have er : dot_S10000x16_S16x16_S10000x16_1_0_0_1_n_n.rhsIdx (ix2 p q) ((contrEquiv1 dot_S10000x16_S16x16_S10000x16_1_0_0_1_n_n 16 rfl rfl).symm k) = ix2 k q :=
    funext fun a => Fin.ext (by
      match a with
      | ⟨0, _⟩ => exact (rhs5_row _ _).trans hk
      | ⟨1, _⟩ => exact rhs5_col _ _)
  rw [el, er]
  exact congrArg (· * w (ix2 k q)) (congrFun (shapeCast_self x shapeCasts_S10000x16_S10000x16) (ix2 p k))

/-- The whole product, entry by entry. -/
def linear5 (x : S50000x16.Idx → EReal) (w : S16x16.Idx → EReal) : S50000x16.Idx → EReal :=
  fun i => 0 + ∑ k : Fin 16, x (ix2 (i 0) k) * w (ix2 k (i 1))

theorem linear5_apply (x : S50000x16.Idx → EReal) (w : S16x16.Idx → EReal) (r : Fin 50000) (o : Fin 16) :
    linear5 x w (ix2 r o) = 0 + ∑ k : Fin 16, x (ix2 r k) * w (ix2 k o) := rfl

/-- Where the windows' blocks sit at grid point `t`: the input rows and the output rows at tile `t`, the weights whole. -/
theorem blocks5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input tile at point `t` is rows `10000 t … 10000 t + 9999` of the input matrix. -/
theorem rows5 (c : Dev nD) (t : Fin cfg5.N) (p : Fin 10000) (k : Fin 16) (i : S50000x16.Idx)
    (h0 : (i 0).val = t.val * 10000 + p.val) (h1 : (i 1).val = k.val) :
    (iblk5 V c 0 t : Vec Ideal S10000x16 .f32) (ix2 p k) = (V c (Pipeline.arrRef spec5 0) : S50000x16.Idx → EReal) i := by
  obtain ⟨e0, e1, -⟩ := blocks5 t
  show (V c (Pipeline.arrRef spec5 0) : S50000x16.Idx → EReal) (((cfg5.win 0).blk t).view.emb (ix2 p k)) = _
  refine congrArg (V c (Pipeline.arrRef spec5 0) : S50000x16.Idx → EReal) (funext fun a => Fin.ext ?_)
  match a with
  | ⟨0, _⟩ => show win5_0.index t (0 : Fin 2) * 10000 + 1 * p.val = (i 0).val; omega
  | ⟨1, _⟩ => show win5_0.index t (1 : Fin 2) * 16 + 1 * k.val = (i 1).val; omega

/-- The weight block at every point is the whole weight matrix. -/
theorem weights5_1 (c : Dev nD) (t : Fin cfg5.N) (k : Fin 16) (q : Fin 16) :
    (iblk5 V c 1 t : Vec Ideal S16x16 .f32) (ix2 k q) = (V c (Pipeline.arrRef spec5 1) : S16x16.Idx → EReal) (ix2 k q) := by
  obtain ⟨-, -, e0, e1, -, -⟩ := blocks5 t
  show (V c (Pipeline.arrRef spec5 1) : S16x16.Idx → EReal) (((cfg5.win 1).blk t).view.emb (ix2 k q)) = _
  refine congrArg (V c (Pipeline.arrRef spec5 1) : S16x16.Idx → EReal) (funext fun a => Fin.ext ?_)
  match a with
  | ⟨0, _⟩ => show win5_1.index t (0 : Fin 2) * 16 + 1 * k.val = k.val; omega
  | ⟨1, _⟩ => show win5_1.index t (1 : Fin 2) * 16 + 1 * q.val = q.val; omega

/-- What point `t` writes back to the output is tile `t` of the whole product. -/
theorem flushed5_2_eq (c : Dev nD) (t : Fin cfg5.N) :
    (dat5 (F := Ideal) V c).flushed 2 t
      = ((cfg5.win 2).blk t).view.read (Elt Ideal) (linear5 (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S10000x16) zero_offsets, View.ld_unit_zero (S := S16x16) zero_offsets]
  obtain ⟨-, -, -, -, e0, e1⟩ := blocks5 t
  funext j
  obtain ⟨p, q, rfl⟩ : ∃ (p : Fin 10000) (q : Fin 16), j = ix2 p q := ⟨j 0, j 1, eq_ix2 j⟩
  show k5_pay1 (iblk5 V c 0 t) (iblk5 V c 1 t) (ix2 p q)
    = linear5 (V c (Pipeline.arrRef spec5 0)) (V c (Pipeline.arrRef spec5 1)) (((cfg5.win 2).blk t).view.emb (ix2 p q))
  refine (tile5_2_apply (iblk5 V c 0 t) (iblk5 V c 1 t) p q).trans ?_
  refine congrArg (0 + ·) (Finset.sum_congr rfl fun k _ => ?_)
  have hr : ((((cfg5.win 2).blk t).view.emb (ix2 p q) : S50000x16.Idx) 0).val = t.val * 10000 + p.val := by
    show win5_2.index t (0 : Fin 2) * 10000 + 1 * p.val = _; omega
  have hc : (((cfg5.win 2).blk t).view.emb (ix2 p q) : S50000x16.Idx) 1 = q := Fin.ext (by
    show win5_2.index t (1 : Fin 2) * 16 + 1 * q.val = _; omega)
  rw [rows5 V c t p k (ix2 ((((cfg5.win 2).blk t).view.emb (ix2 p q) : S50000x16.Idx) 0) k) hr rfl, weights5_1 V c t k q, hc]

/-- An entry of the output matrix lies in point `t`'s block iff each coordinate lies in the block's range. -/
theorem mem_blk5_2 (t : Fin cfg5.N) (i : S50000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v72).slice (win5_2.rect t)).set ↔ _
  rw [View.set_slice_whole, Rect.mem_set_unit]
  exact Iff.rfl

/-- The 5 row tiles cover the output matrix: row `r` lies in tile `r / 10000`. -/
theorem cover5_2 (i : S50000x16.Idx) :
    ∃ t : Fin cfg5.N, (cfg5.win 2).flush t = true ∧ i ∈ ((cfg5.win 2).blk t).view.set := by
  have hi0 : (i 0).val < 50000 := (i 0).isLt
  have hi1 : (i 1).val < 16 := (i 1).isLt
  have hN : cfg5.N = 5 := N_5
  refine ⟨⟨(i 0).val / 10000, by rw [hN]; omega⟩, flush5_2 _, ?_⟩
  obtain ⟨-, -, -, -, e0, e1⟩ := blocks5 ⟨(i 0).val / 10000, by rw [hN]; omega⟩
  rw [mem_blk5_2]
  intro a
  match a with
  | ⟨0, _⟩ => show win5_2.index _ (0 : Fin 2) * 10000 ≤ (i 0).val ∧ (i 0).val < win5_2.index _ (0 : Fin 2) * 10000 + 10000; rw [e0]; show (i 0).val / 10000 * 10000 ≤ (i 0).val ∧ (i 0).val < (i 0).val / 10000 * 10000 + 10000; omega
  | ⟨1, _⟩ => show win5_2.index _ (1 : Fin 2) * 16 ≤ (i 1).val ∧ (i 1).val < win5_2.index _ (1 : Fin 2) * 16 + 16; rw [e1]; omega

/-- The output matrix after the region is the whole product of the region's input matrices. -/
theorem final5_2 (c : Dev nD) :
    (dat5 (F := Ideal) V c).arrAt 2 cfg5.N = linear5 (V c (Pipeline.arrRef spec5 0)) (V c (Pipeline.arrRef spec5 1)) :=
  (dat5 (F := Ideal) V c).arrAt_eq_of_cover 2 (linear5 (V c (Pipeline.arrRef spec5 0)) (V c (Pipeline.arrRef spec5 1)))
    (fun t _ => flushed5_2_eq V c t) cover5_2

/-- Entry by entry: the output is the zero accumulator plus the sum over the 16 features of input times weight. -/
theorem arr5_2 (c : Dev nD) (r : Fin 50000) (o : Fin 16) :
    ((dat5 (F := Ideal) V c).arrAt 2 cfg5.N : S50000x16.Idx → EReal) (ix2 r o)
      = 0 + ∑ k : Fin 16, @HMul.hMul EReal EReal EReal instHMul (V c (Pipeline.arrRef spec5 0) (ix2 r k)) (V c (Pipeline.arrRef spec5 1) (ix2 k o)) :=
  (congrFun (final5_2 V c) (ix2 r o)).trans (linear5_apply _ _ r o)

end Cert.KernelIdeal.LinearArrays

end
-- ==== Proof.FinishArrays.lean ====
/-
  The four "finish" regions of the kernel, read as arrays. Each region computes, tile of rows by tile of rows,

      out = max (xd · wr + agg [+ agg'] + bias, 0)

  where xd is a tall array of rows, wr a small square-ish weight contracted against xd's columns, agg (and, on the
  200000-row side, a second aggregate agg') has the output's shape, and bias is one row added to every row. At the
  ideal values a change of float format is the identity and the product into the zero accumulator is the plain sum
  over the contracted axis, so entry (r, o) of the output array is

      max (((0 + ∑ k, xd (r, k) * wr (k, o)) + agg (r, o)) [+ agg' (r, o)] + bias (0, o), 0),

  the additions in the order the body makes them. Per region, in this order: the product at an entry (matmulK_apply);
  the body's stored value at an entry of its tile from the loaded blocks (payK_apply, payK_apply_of); each loaded block
  as rows of its array (…_read: a row tile at point t holds rows T·t … T·t + T − 1, the weight and the bias are whole at
  every point); what point t writes back is tile t of ONE whole-array function finishK (flushedK_W_eq); the tiles cover
  the array (coverK_W_arr), so the array after the region is finishK (finalK_W), read at an entry (arrK_W, and
  arrK_W_of with the input arrays named by whatever functions they are known to be). Regions 2 and 6 are the
  50000-row side of layers 1 and 2 (5 tiles of 10000 rows), regions 3 and 7 the 200000-row side (25 tiles of 8000
  rows); the four proofs differ in sizes and in which operands pass through an identity shape cast.
-/
import proofs.«106252_j16209206575619_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.FinishArrays

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a rank-2 whole-block access, however spelt. -/
theorem hz : (![0, 0] : Fin 2 → Nat) = fun _ => 0 := funext fun a => by fin_cases a <;> rfl

/-! ## Layer 1, the 50000-row side: relu (xd · wr + agg + bias), 5 tiles of 10000 rows -/
theorem arrRef2_0 : Pipeline.arrRef spec2 0 = main_v40 := rfl
theorem arrRef2_1 : Pipeline.arrRef spec2 1 = main_arg1 := rfl
theorem arrRef2_2 : Pipeline.arrRef spec2 2 = main_arg9 := rfl
theorem arrRef2_3 : Pipeline.arrRef spec2 3 = main_v65 := rfl
theorem arrRef2_4 : Pipeline.arrRef spec2 4 = main_v66 := rfl

/-- The product's left operand is read in the output's row … -/
theorem lhs2_0 (i : S10000x16.Idx) (q : dot_S10000x32_S32x16_S10000x16_1_0_0_1_n_n.contr.Idx) : (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
/-- … and its right operand in the output's column. -/
theorem rhs2_1 (i : S10000x16.Idx) (q : dot_S10000x32_S32x16_S10000x16_1_0_0_1_n_n.contr.Idx) : (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- A [10000,32] × [32,16] product into the zero accumulator, at row p and column q: zero plus the sum over the
    contracted axis of the row's entries times the column's. -/
theorem matmul2_apply (l : FVec Ideal S10000x32 .bf16) (r : FVec Ideal S32x16 .bf16) (p : Fin 10000) (q : Fin 16) :
    matmul (F := Ideal) dot_S10000x32_S32x16_S10000x16_1_0_0_1_n_n none l r (constant S10000x16 .f32 0x00000000#32) (ix2 p q)
      = 0 + ∑ k : Fin 32, l (ix2 p k) * r (ix2 k q) := by
  refine (Ideal.matmul_apply dot_S10000x32_S32x16_S10000x16_1_0_0_1_n_n none l r _ (ix2 p q)).trans ?_
  refine congrArg₂ (· + ·) Ideal.ofBits_zero_f32 ?_
  rw [← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 p q) ((contrEquiv1 dot_S10000x32_S32x16_S10000x16_1_0_0_1_n_n 32 rfl rfl).symm k) = ix2 p k :=
    funext fun a => Fin.ext (by
      match a with
      | ⟨0, _⟩ => exact lhs2_0 _ _
      | ⟨1, _⟩ => exact (dot_S10000x32_S32x16_S10000x16_1_0_0_1_n_n.lhsIdx_val_of_single rfl (ix2 p q) _).trans hk)
  have er : dot_S10000x32_S32x16_S10000x16_1_0_0_1_n_n.rhsIdx (ix2 p q) ((contrEquiv1 dot_S10000x32_S32x16_S10000x16_1_0_0_1_n_n 32 rfl rfl).symm k) = ix2 k q :=
    funext fun a => Fin.ext (by
      match a with
      | ⟨0, _⟩ => exact (dot_S10000x32_S32x16_S10000x16_1_0_0_1_n_n.rhsIdx_val_of_single rfl (ix2 p q) _).trans hk
      | ⟨1, _⟩ => exact rhs2_1 _ _)
  rw [el, er]

/-- The body's value at row p, column q of its tile, from the loaded blocks: the product's entry, plus the
    aggregate's, plus the bias row's entry of that column, clamped below at zero. -/
theorem pay2_apply (xd : Vec Ideal S10000x32 .f32) (wr : Vec Ideal S32x16 .f32) (agg : Vec Ideal S10000x16 .f32) (b : Vec Ideal S1x16 .f32) (p : Fin 10000) (q : Fin 16) :
    k2_pay1 (F := Ideal) xd wr agg b (ix2 p q)
      = max (((0 + ∑ k : Fin 32, xd (ix2 p k) * wr (ix2 k q)) + agg (ix2 p q)) + b (ix2 (0 : Fin 1) q)) 0 := by
  unfold k2_pay1
  show max ((matmul (F := Ideal) dot_S10000x32_S32x16_S10000x16_1_0_0_1_n_n none (truncf (F := Ideal) .bf16 xd bitsLt_bf16_f32) (truncf (F := Ideal) .bf16 wr bitsLt_bf16_f32) (constant S10000x16 .f32 0x00000000#32) (ix2 p q)
        + shapeCast S10000x16 agg shapeCasts_S10000x16_S10000x16 (ix2 p q))
        + broadcastTo S10000x16 (shapeCast S1x16 b shapeCasts_S1x16_S1x16) broadcasts_S1x16_S10000x16 (ix2 p q))
      (Ideal.ofBits .f32 0x00000000#32) = _
  rw [shapeCast_self, shapeCast_self, matmul2_apply, broadcastTo_1b_ab_apply, Ideal.ofBits_zero_f32]
  rfl

/-- The same with each loaded entry NAMED: whatever the blocks are known to hold at the entries read. -/
theorem pay2_apply_of (xd : Vec Ideal S10000x32 .f32) (wr : Vec Ideal S32x16 .f32) (agg : Vec Ideal S10000x16 .f32) (b : Vec Ideal S1x16 .f32) (p : Fin 10000) (q : Fin 16) (XD WR : Fin 32 → EReal) (A B : EReal)
    (hxd : ∀ k, xd (ix2 p k) = XD k) (hwr : ∀ k, wr (ix2 k q) = WR k) (ha0 : agg (ix2 p q) = A)
    (hb : b (ix2 (0 : Fin 1) q) = B) :
    k2_pay1 (F := Ideal) xd wr agg b (ix2 p q) = max (((0 + ∑ k : Fin 32, XD k * WR k) + A) + B) 0 := by
  refine (pay2_apply xd wr agg b p q).trans ?_
  rw [ha0, hb]
  refine congrArg (fun s : EReal => max (((0 + s) + A) + B) 0) (Finset.sum_congr rfl fun k _ => ?_)
  rw [hxd k, hwr k]

/-- What the body leaves in the output's buffer is its one store's value of the loaded blocks. -/
theorem out2_4_eq (x0 : Vec Ideal S10000x16 .f32) (x1 : Vec Ideal S10000x32 .f32) (x2 : Vec Ideal S32x16 .f32) (x3 : Vec Ideal S1x16 .f32) :
    out2_4 x0 x1 x2 x3 = k2_pay1 x1 x2 x0 x3 := by
  unfold out2_4
  rw [View.canon_unit_zero hz]
  simp only [View.ld_unit_zero (S := S10000x16) hz, View.ld_unit_zero (S := S10000x32) hz, View.ld_unit_zero (S := S32x16) hz, View.ld_unit_zero (S := S1x16) hz]

/-- The region's input arrays as it finds them, at their literal shapes: the aggregate, the rows xd, the weight
    wr and the one-row bias. -/
abbrev agg2 (c : Dev nD) : S50000x16.Idx → EReal := V c (Pipeline.arrRef spec2 0)
abbrev xd2 (c : Dev nD) : S50000x32.Idx → EReal := V c (Pipeline.arrRef spec2 1)
abbrev wr2 (c : Dev nD) : S32x16.Idx → EReal := V c (Pipeline.arrRef spec2 2)
abbrev bias2 (c : Dev nD) : S1x16.Idx → EReal := V c (Pipeline.arrRef spec2 3)

/-- The printed index maps over the 5 points: the row tiles (aggregate, xd, output) sit at block row t, column
    block 0; the weight and the bias are whole at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of tile t is row 10000 t + p of the array. -/
def row2 (t : Fin cfg2.N) (p : Fin 10000) : Fin 50000 :=
  ⟨t.val * 10000 + p.val, by have hN : cfg2.N = 5 := N_2; have := t.isLt; have := p.isLt; omega⟩

/-- The tile of agg2 at point t reads the array at the tile's rows. -/
theorem agg2_read (c : Dev nD) (t : Fin cfg2.N) (p : Fin 10000) (q : Fin 16) :
    (iblk2 V c 0 t : Vec Ideal S10000x16 .f32) (ix2 p q) = agg2 V c (ix2 (row2 t p) q) := by
  obtain ⟨e0, e1, -⟩ := idx_facts2 t
  show agg2 V c (((cfg2.win 0).blk t).view.emb (ix2 p q)) = _
  refine congrArg (agg2 V c) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 16 + 1 * q.val = q.val; rw [e1]; omega

/-- The tile of xd2 at point t reads the array at the tile's rows. -/
theorem xd2_read (c : Dev nD) (t : Fin cfg2.N) (p : Fin 10000) (q : Fin 32) :
    (iblk2 V c 1 t : Vec Ideal S10000x32 .f32) (ix2 p q) = xd2 V c (ix2 (row2 t p) q) := by
  obtain ⟨-, -, e0, e1, -⟩ := idx_facts2 t
  show xd2 V c (((cfg2.win 1).blk t).view.emb (ix2 p q)) = _
  refine congrArg (xd2 V c) (funext fun a => Fin.ext ?_)
  match a with
  | ⟨0, _⟩ => show win2_1.index t (0 : Fin 2) * 10000 + 1 * p.val = t.val * 10000 + p.val; rw [e0]; omega
  | ⟨1, _⟩ => show win2_1.index t (1 : Fin 2) * 32 + 1 * q.val = q.val; rw [e1]; omega

/-- The block of wr2 at every point is the whole array. -/
theorem wr2_read (c : Dev nD) (t : Fin cfg2.N) (p : Fin 32) (q : Fin 16) :
    (iblk2 V c 2 t : Vec Ideal S32x16 .f32) (ix2 p q) = wr2 V c (ix2 p q) := by
  obtain ⟨-, -, -, -, e0, e1, -⟩ := idx_facts2 t
  show wr2 V c (((cfg2.win 2).blk t).view.emb (ix2 p q)) = _
  refine congrArg (wr2 V c) (funext fun a => Fin.ext ?_)
  match a with
  | ⟨0, _⟩ => show win2_2.index t (0 : Fin 2) * 32 + 1 * p.val = p.val; rw [e0]; omega
  | ⟨1, _⟩ => show win2_2.index t (1 : Fin 2) * 16 + 1 * q.val = q.val; rw [e1]; omega

/-- The block of bias2 at every point is the whole array. -/
theorem bias2_read (c : Dev nD) (t : Fin cfg2.N) (p : Fin 1) (q : Fin 16) :
    (iblk2 V c 3 t : Vec Ideal S1x16 .f32) (ix2 p q) = bias2 V c (ix2 p q) := by
  obtain ⟨-, -, -, -, -, -, e0, e1, -⟩ := idx_facts2 t
  show bias2 V c (((cfg2.win 3).blk t).view.emb (ix2 p q)) = _
  refine congrArg (bias2 V c) (funext fun a => Fin.ext ?_)
  match a with
  | ⟨0, _⟩ => show win2_3.index t (0 : Fin 2) * 1 + 1 * p.val = p.val; rw [e0]; omega
  | ⟨1, _⟩ => show win2_3.index t (1 : Fin 2) * 16 + 1 * q.val = q.val; rw [e1]; omega

/-- The finished entry at row r, column o: the xd row times the weight column, plus the aggregate, plus the bias of
    the column, clamped below at zero. -/
def finish2At (c : Dev nD) (r : Fin 50000) (o : Fin 16) : EReal :=
  max (((0 + ∑ k : Fin 32, xd2 V c (ix2 r k) * wr2 V c (ix2 k o)) + agg2 V c (ix2 r o)) + bias2 V c (ix2 (0 : Fin 1) o)) 0

/-- The finished array as one function of the region's input arrays. -/
def finish2 (c : Dev nD) : S50000x16.Idx → EReal := fun i => finish2At V c (i 0) (i 1)

/-- What point t writes back is tile t of the finished array. -/
theorem flushed2_4_eq (c : Dev nD) (t : Fin cfg2.N) :
    (dat2 (F := Ideal) V c).flushed 4 t = ((cfg2.win 4).blk t).view.read (Elt Ideal) (finish2 V c) := by
  show (cfg2.win 4).cut (grid2.coords t) ((dat2 V c).after 4 t) = _
  rw [after2_4, out2_4_eq]
  funext j
  obtain ⟨p, q, rfl⟩ : ∃ (p : Fin 10000) (q : Fin 16), j = ix2 p q := ⟨j 0, j 1, eq_ix2 j⟩
  show k2_pay1 (F := Ideal) (iblk2 V c 1 t) (iblk2 V c 2 t) (iblk2 V c 0 t) (iblk2 V c 3 t) (ix2 p q)
    = finish2 V c (((cfg2.win 4).blk t).view.emb (ix2 p q))
  obtain ⟨-, -, -, -, -, -, -, -, e0, e1⟩ := idx_facts2 t
  have hemb : ((cfg2.win 4).blk t).view.emb (ix2 p q) = ix2 (row2 t p) q := by
    funext a; apply Fin.ext
    match a with
    | ⟨0, _⟩ => show win2_4.index t (0 : Fin 2) * 10000 + 1 * p.val = t.val * 10000 + p.val; rw [e0]; omega
    | ⟨1, _⟩ => show win2_4.index t (1 : Fin 2) * 16 + 1 * q.val = q.val; rw [e1]; omega
  rw [hemb]
  show _ = finish2At V c (row2 t p) q
  unfold finish2At
  exact pay2_apply_of (iblk2 V c 1 t) (iblk2 V c 2 t) (iblk2 V c 0 t) (iblk2 V c 3 t) p q
    (fun k => xd2 V c (ix2 (row2 t p) k)) (fun k => wr2 V c (ix2 k q)) (agg2 V c (ix2 (row2 t p) q)) (bias2 V c (ix2 (0 : Fin 1) q))
    (fun k => xd2_read V c t p k) (fun k => wr2_read V c t k q) (agg2_read V c t p q) (bias2_read V c t 0 q)

/-- An index of the array is in point t's tile iff each coordinate is in the tile's range on its axis. -/
theorem mem_blk2_4 (t : Fin cfg2.N) (i : S50000x16.Idx) :
    i ∈ ((cfg2.win 4).blk t).view.set ↔ ∀ a : Fin 2, win2_4.index t a * S10000x16.size a ≤ (i a).val ∧ (i a).val < win2_4.index t a * S10000x16.size a + S10000x16.size a := by
  show i ∈ ((View.whole main_v66).slice (win2_4.rect t)).set ↔ _
  rw [View.set_slice_whole, Rect.mem_set_unit]
  exact Iff.rfl

/-- The 5 tiles cover the array: row r is in tile r / 10000. -/
theorem cover2_4_arr (i : S50000x16.Idx) :
    ∃ t : Fin cfg2.N, (cfg2.win 4).flush t = true ∧ i ∈ ((cfg2.win 4).blk t).view.set := by
  have hN : cfg2.N = 5 := N_2
  have hi0 : (i 0).val < 50000 := (i 0).isLt
  have hi1 : (i 1).val < 16 := (i 1).isLt
  obtain ⟨t, ht⟩ : ∃ t : Fin cfg2.N, t.val = (i 0).val / 10000 := ⟨⟨(i 0).val / 10000, by omega⟩, rfl⟩
  obtain ⟨-, -, -, -, -, -, -, -, e0, e1⟩ := idx_facts2 t
  refine ⟨t, flush2_4 t, ?_⟩
  rw [mem_blk2_4]
  intro a
  match a with
  | ⟨0, _⟩ => show win2_4.index t (0 : Fin 2) * 10000 ≤ (i 0).val ∧ (i 0).val < win2_4.index t (0 : Fin 2) * 10000 + 10000; rw [e0]; omega
  | ⟨1, _⟩ => show win2_4.index t (1 : Fin 2) * 16 ≤ (i 1).val ∧ (i 1).val < win2_4.index t (1 : Fin 2) * 16 + 16; rw [e1]; omega

/-- The output array after the region is the finished array. -/
theorem final2_4 (c : Dev nD) : (dat2 (F := Ideal) V c).arrAt 4 cfg2.N = finish2 V c :=
  (dat2 V c).arrAt_eq_of_cover 4 (finish2 V c) (fun t _ => flushed2_4_eq V c t) cover2_4_arr

/-- THE OUTPUT ARRAY of the region, entry by entry, from its input arrays. -/
theorem arr2_4 (c : Dev nD) (r : Fin 50000) (o : Fin 16) :
    (dat2 (F := Ideal) V c).arrAt 4 cfg2.N (ix2 r o)
      = max (((0 + ∑ k : Fin 32, xd2 V c (ix2 r k) * wr2 V c (ix2 k o)) + agg2 V c (ix2 r o)) + bias2 V c (ix2 (0 : Fin 1) o)) 0 :=
  congrFun (final2_4 V c) (ix2 r o)

/-- The same with the input arrays NAMED by whatever functions they are known to be. -/
theorem arr2_4_of (c : Dev nD) (agg : S50000x16.Idx → EReal) (xd : S50000x32.Idx → EReal) (wr : S32x16.Idx → EReal)
    (b : S1x16.Idx → EReal) (h0 : V c (Pipeline.arrRef spec2 0) = agg) (h1 : V c (Pipeline.arrRef spec2 1) = xd)
    (h2 : V c (Pipeline.arrRef spec2 2) = wr) (h3 : V c (Pipeline.arrRef spec2 3) = b) (r : Fin 50000) (o : Fin 16) :
    (dat2 (F := Ideal) V c).arrAt 4 cfg2.N (ix2 r o)
      = max (((0 + ∑ k : Fin 32, xd (ix2 r k) * wr (ix2 k o)) + agg (ix2 r o)) + b (ix2 (0 : Fin 1) o)) 0 := by
  subst h0 h1 h2 h3
  exact arr2_4 V c r o

/-! ## Layer 1, the 200000-row side: relu (xd · wr + agg1 + agg2 + bias), 25 tiles of 8000 rows -/
theorem arrRef3_0 : Pipeline.arrRef spec3 0 = main_v52 := rfl
theorem arrRef3_1 : Pipeline.arrRef spec3 1 = main_v64 := rfl
theorem arrRef3_2 : Pipeline.arrRef spec3 2 = main_arg0 := rfl
theorem arrRef3_3 : Pipeline.arrRef spec3 3 = main_v67 := rfl
theorem arrRef3_4 : Pipeline.arrRef spec3 4 = main_v69 := rfl
theorem arrRef3_5 : Pipeline.arrRef spec3 5 = main_v70 := rfl

/-- The product's left operand is read in the output's row … -/
theorem lhs3_0 (i : S8000x16.Idx) (q : dot_S8000x64_S64x16_S8000x16_1_0_0_1_n_n.contr.Idx) : (dot_S8000x64_S64x16_S8000x16_1_0_0_1_n_n.lhsIdx i q 0).val = (i 0).val := by
  unfold DotDims.lhsIdx
  rw [dif_neg (show ¬(0 : Fin S8000x64.rank) ∈ dot_S8000x64_S64x16_S8000x16_1_0_0_1_n_n.lhsBatch by decide), dif_pos (show (0 : Fin S8000x64.rank) ∈ dot_S8000x64_S64x16_S8000x16_1_0_0_1_n_n.lhsNonContracting by decide)]
  rfl
/-- … and its right operand in the output's column. -/
theorem rhs3_1 (i : S8000x16.Idx) (q : dot_S8000x64_S64x16_S8000x16_1_0_0_1_n_n.contr.Idx) : (dot_S8000x64_S64x16_S8000x16_1_0_0_1_n_n.rhsIdx i q 1).val = (i 1).val := by
  unfold DotDims.rhsIdx
  rw [dif_neg (show ¬(1 : Fin S64x16.rank) ∈ dot_S8000x64_S64x16_S8000x16_1_0_0_1_n_n.rhsBatch by decide), dif_pos (show (1 : Fin S64x16.rank) ∈ dot_S8000x64_S64x16_S8000x16_1_0_0_1_n_n.rhsNonContracting by decide)]
  rfl

/-- A [8000,64] × [64,16] product into the zero accumulator, at row p and column q: zero plus the sum over the
    contracted axis of the row's entries times the column's. -/
theorem matmul3_apply (l : FVec Ideal S8000x64 .bf16) (r : FVec Ideal S64x16 .bf16) (p : Fin 8000) (q : Fin 16) :
    matmul (F := Ideal) dot_S8000x64_S64x16_S8000x16_1_0_0_1_n_n none l r (constant S8000x16 .f32 0x00000000#32) (ix2 p q)
      = 0 + ∑ k : Fin 64, l (ix2 p k) * r (ix2 k q) := by
  refine (Ideal.matmul_apply dot_S8000x64_S64x16_S8000x16_1_0_0_1_n_n none l r _ (ix2 p q)).trans ?_
  refine congrArg₂ (· + ·) Ideal.ofBits_zero_f32 ?_
  rw [← Equiv.sum_comp (contrEquiv1 dot_S8000x64_S64x16_S8000x16_1_0_0_1_n_n 64 rfl rfl).symm]
  refine Finset.sum_congr rfl fun k _ => ?_
  have hk := contrEquiv1_symm_val dot_S8000x64_S64x16_S8000x16_1_0_0_1_n_n 64 rfl rfl k
  have el : dot_S8000x64_S64x16_S8000x16_1_0_0_1_n_n.lhsIdx (ix2 p q) ((contrEquiv1 dot_S8000x64_S64x16_S8000x16_1_0_0_1_n_n 64 rfl rfl).symm k) = ix2 p k :=
    funext fun a => Fin.ext (by
      match a with
      | ⟨0, _⟩ => exact lhs3_0 _ _
      | ⟨1, _⟩ => exact (dot_S8000x64_S64x16_S8000x16_1_0_0_1_n_n.lhsIdx_val_of_single rfl (ix2 p q) _).trans hk)
  have er : dot_S8000x64_S64x16_S8000x16_1_0_0_1_n_n.rhsIdx (ix2 p q) ((contrEquiv1 dot_S8000x64_S64x16_S8000x16_1_0_0_1_n_n 64 rfl rfl).symm k) = ix2 k q :=
    funext fun a => Fin.ext (by
      match a with
      | ⟨0, _⟩ => exact (dot_S8000x64_S64x16_S8000x16_1_0_0_1_n_n.rhsIdx_val_of_single rfl (ix2 p q) _).trans hk
      | ⟨1, _⟩ => exact rhs3_1 _ _)
  rw [el, er]

/-- The body's value at row p, column q of its tile, from the loaded blocks: the product's entry, plus the
    aggregates', plus the bias row's entry of that column, clamped below at zero. -/
theorem pay3_apply (xd : Vec Ideal S8000x64 .f32) (wr : Vec Ideal S64x16 .f32) (agg1 : Vec Ideal S8000x16 .f32) (agg2 : Vec Ideal S8000x16 .f32) (b : Vec Ideal S1x16 .f32) (p : Fin 8000) (q : Fin 16) :
    k3_pay1 (F := Ideal) xd wr agg1 agg2 b (ix2 p q)
      = max ((((0 + ∑ k : Fin 64, xd (ix2 p k) * wr (ix2 k q)) + agg1 (ix2 p q)) + agg2 (ix2 p q)) + b (ix2 (0 : Fin 1) q)) 0 := by
  unfold k3_pay1
  show max (((matmul (F := Ideal) dot_S8000x64_S64x16_S8000x16_1_0_0_1_n_n none (truncf (F := Ideal) .bf16 xd bitsLt_bf16_f32) (truncf (F := Ideal) .bf16 (shapeCast S64x16 wr shapeCasts_S64x16_S64x16) bitsLt_bf16_f32) (constant S8000x16 .f32 0x00000000#32) (ix2 p q)
        + shapeCast S8000x16 agg1 shapeCasts_S8000x16_S8000x16 (ix2 p q))
        + shapeCast S8000x16 agg2 shapeCasts_S8000x16_S8000x16 (ix2 p q))
        + broadcastTo S8000x16 (shapeCast S1x16 b shapeCasts_S1x16_S1x16) broadcasts_S1x16_S8000x16 (ix2 p q))
      (Ideal.ofBits .f32 0x00000000#32) = _
  rw [shapeCast_self, shapeCast_self, shapeCast_self, shapeCast_self, matmul3_apply, broadcastTo_1b_ab_apply, Ideal.ofBits_zero_f32]
  rfl

/-- The same with each loaded entry NAMED: whatever the blocks are known to hold at the entries read. -/
theorem pay3_apply_of (xd : Vec Ideal S8000x64 .f32) (wr : Vec Ideal S64x16 .f32) (agg1 : Vec Ideal S8000x16 .f32) (agg2 : Vec Ideal S8000x16 .f32) (b : Vec Ideal S1x16 .f32) (p : Fin 8000) (q : Fin 16) (XD WR : Fin 64 → EReal) (A1 A2 B : EReal)
    (hxd : ∀ k, xd (ix2 p k) = XD k) (hwr : ∀ k, wr (ix2 k q) = WR k) (ha0 : agg1 (ix2 p q) = A1) (ha1 : agg2 (ix2 p q) = A2)
    (hb : b (ix2 (0 : Fin 1) q) = B) :
    k3_pay1 (F := Ideal) xd wr agg1 agg2 b (ix2 p q) = max ((((0 + ∑ k : Fin 64, XD k * WR k) + A1) + A2) + B) 0 := by
  refine (pay3_apply xd wr agg1 agg2 b p q).trans ?_
  rw [ha0, ha1, hb]
  refine congrArg (fun s : EReal => max ((((0 + s) + A1) + A2) + B) 0) (Finset.sum_congr rfl fun k _ => ?_)
  rw [hxd k, hwr k]

/-- What the body leaves in the output's buffer is its one store's value of the loaded blocks. -/
theorem out3_5_eq (x0 : Vec Ideal S8000x16 .f32) (x1 : Vec Ideal S8000x16 .f32) (x2 : Vec Ideal S8000x64 .f32) (x3 : Vec Ideal S64x16 .f32) (x4 : Vec Ideal S1x16 .f32) :
    out3_5 x0 x1 x2 x3 x4 = k3_pay1 x2 x3 x0 x1 x4 := by
  unfold out3_5
  rw [View.canon_unit_zero hz]
  simp only [View.ld_unit_zero (S := S8000x16) hz, View.ld_unit_zero (S := S8000x64) hz, View.ld_unit_zero (S := S64x16) hz, View.ld_unit_zero (S := S1x16) hz]

/-- The region's input arrays as it finds them, at their literal shapes: the aggregates, the rows xd, the weight
    wr and the one-row bias. -/
abbrev agg3a (c : Dev nD) : S200000x16.Idx → EReal := V c (Pipeline.arrRef spec3 0)
abbrev agg3b (c : Dev nD) : S200000x16.Idx → EReal := V c (Pipeline.arrRef spec3 1)
abbrev xd3 (c : Dev nD) : S200000x64.Idx → EReal := V c (Pipeline.arrRef spec3 2)
abbrev wr3 (c : Dev nD) : S64x16.Idx → EReal := V c (Pipeline.arrRef spec3 3)
abbrev bias3 (c : Dev nD) : S1x16.Idx → EReal := V c (Pipeline.arrRef spec3 4)

/-- The printed index maps over the 25 points: the row tiles (aggregates, xd, output) sit at block row t, column
    block 0; the weight and the bias are whole at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of tile t is row 8000 t + p of the array. -/
def row3 (t : Fin cfg3.N) (p : Fin 8000) : Fin 200000 :=
  ⟨t.val * 8000 + p.val, by have hN : cfg3.N = 25 := N_3; have := t.isLt; have := p.isLt; omega⟩

/-- The tile of agg3a at point t reads the array at the tile's rows. -/
theorem agg3a_read (c : Dev nD) (t : Fin cfg3.N) (p : Fin 8000) (q : Fin 16) :
    (iblk3 V c 0 t : Vec Ideal S8000x16 .f32) (ix2 p q) = agg3a V c (ix2 (row3 t p) q) := by
  obtain ⟨e0, e1, -⟩ := idx_facts3 t
  show agg3a V c (((cfg3.win 0).blk t).view.emb (ix2 p q)) = _
  refine congrArg (agg3a V c) (funext fun a => Fin.ext ?_)
  match a with
  | ⟨0, _⟩ => show win3_0.index t (0 : Fin 2) * 8000 + 1 * p.val = t.val * 8000 + p.val; rw [e0]; omega
  | ⟨1, _⟩ => show win3_0.index t (1 : Fin 2) * 16 + 1 * q.val = q.val; rw [e1]; omega

/-- The tile of agg3b at point t reads the array at the tile's rows. -/
theorem agg3b_read (c : Dev nD) (t : Fin cfg3.N) (p : Fin 8000) (q : Fin 16) :
    (iblk3 V c 1 t : Vec Ideal S8000x16 .f32) (ix2 p q) = agg3b V c (ix2 (row3 t p) q) := by
  obtain ⟨-, -, e0, e1, -⟩ := idx_facts3 t
  show agg3b V c (((cfg3.win 1).blk t).view.emb (ix2 p q)) = _
  refine congrArg (agg3b V c) (funext fun a => Fin.ext ?_)
  match a with
  | ⟨0, _⟩ => show win3_1.index t (0 : Fin 2) * 8000 + 1 * p.val = t.val * 8000 + p.val; rw [e0]; omega
  | ⟨1, _⟩ => show win3_1.index t (1 : Fin 2) * 16 + 1 * q.val = q.val; rw [e1]; omega

/-- The tile of xd3 at point t reads the array at the tile's rows. -/
theorem xd3_read (c : Dev nD) (t : Fin cfg3.N) (p : Fin 8000) (q : Fin 64) :
    (iblk3 V c 2 t : Vec Ideal S8000x64 .f32) (ix2 p q) = xd3 V c (ix2 (row3 t p) q) := by
  obtain ⟨-, -, -, -, e0, e1, -⟩ := idx_facts3 t
  show xd3 V c (((cfg3.win 2).blk t).view.emb (ix2 p q)) = _
  refine congrArg (xd3 V c) (funext fun a => Fin.ext ?_)
  match a with
  | ⟨0, _⟩ => show win3_2.index t (0 : Fin 2) * 8000 + 1 * p.val = t.val * 8000 + p.val; rw [e0]; omega
  | ⟨1, _⟩ => show win3_2.index t (1 : Fin 2) * 64 + 1 * q.val = q.val; rw [e1]; omega

/-- The block of wr3 at every point is the whole array. -/
theorem wr3_read (c : Dev nD) (t : Fin cfg3.N) (p : Fin 64) (q : Fin 16) :
    (iblk3 V c 3 t : Vec Ideal S64x16 .f32) (ix2 p q) = wr3 V c (ix2 p q) := by
  obtain ⟨-, -, -, -, -, -, e0, e1, -⟩ := idx_facts3 t
  show wr3 V c (((cfg3.win 3).blk t).view.emb (ix2 p q)) = _
  refine congrArg (wr3 V c) (funext fun a => Fin.ext ?_)
  match a with
  | ⟨0, _⟩ => show win3_3.index t (0 : Fin 2) * 64 + 1 * p.val = p.val; rw [e0]; omega
  | ⟨1, _⟩ => show win3_3.index t (1 : Fin 2) * 16 + 1 * q.val = q.val; rw [e1]; omega

/-- The block of bias3 at every point is the whole array. -/
theorem bias3_read (c : Dev nD) (t : Fin cfg3.N) (p : Fin 1) (q : Fin 16) :
    (iblk3 V c 4 t : Vec Ideal S1x16 .f32) (ix2 p q) = bias3 V c (ix2 p q) := by
  obtain ⟨-, -, -, -, -, -, -, -, e0, e1, -⟩ := idx_facts3 t
  show bias3 V c (((cfg3.win 4).blk t).view.emb (ix2 p q)) = _
  refine congrArg (bias3 V c) (funext fun a => Fin.ext ?_)
  match a with
  | ⟨0, _⟩ => show win3_4.index t (0 : Fin 2) * 1 + 1 * p.val = p.val; rw [e0]; omega
  | ⟨1, _⟩ => show win3_4.index t (1 : Fin 2) * 16 + 1 * q.val = q.val; rw [e1]; omega

/-- The finished entry at row r, column o: the xd row times the weight column, plus the aggregates, plus the bias of
    the column, clamped below at zero. -/
def finish3At (c : Dev nD) (r : Fin 200000) (o : Fin 16) : EReal :=
  max ((((0 + ∑ k : Fin 64, xd3 V c (ix2 r k) * wr3 V c (ix2 k o)) + agg3a V c (ix2 r o)) + agg3b V c (ix2 r o)) + bias3 V c (ix2 (0 : Fin 1) o)) 0

/-- The finished array as one function of the region's input arrays. -/
def finish3 (c : Dev nD) : S200000x16.Idx → EReal := fun i => finish3At V c (i 0) (i 1)

/-- What point t writes back is tile t of the finished array. -/
theorem flushed3_5_eq (c : Dev nD) (t : Fin cfg3.N) :
    (dat3 (F := Ideal) V c).flushed 5 t = ((cfg3.win 5).blk t).view.read (Elt Ideal) (finish3 V c) := by
  show (cfg3.win 5).cut (grid3.coords t) ((dat3 V c).after 5 t) = _
  rw [after3_5, out3_5_eq]
  funext j
  obtain ⟨p, q, rfl⟩ : ∃ (p : Fin 8000) (q : Fin 16), j = ix2 p q := ⟨j 0, j 1, eq_ix2 j⟩
  show k3_pay1 (F := Ideal) (iblk3 V c 2 t) (iblk3 V c 3 t) (iblk3 V c 0 t) (iblk3 V c 1 t) (iblk3 V c 4 t) (ix2 p q)
    = finish3 V c (((cfg3.win 5).blk t).view.emb (ix2 p q))
  obtain ⟨-, -, -, -, -, -, -, -, -, -, e0, e1⟩ := idx_facts3 t
  have hemb : ((cfg3.win 5).blk t).view.emb (ix2 p q) = ix2 (row3 t p) q := by
    funext a; apply Fin.ext
    match a with
    | ⟨0, _⟩ => show win3_5.index t (0 : Fin 2) * 8000 + 1 * p.val = t.val * 8000 + p.val; rw [e0]; omega
    | ⟨1, _⟩ => show win3_5.index t (1 : Fin 2) * 16 + 1 * q.val = q.val; rw [e1]; omega
  rw [hemb]
  show _ = finish3At V c (row3 t p) q
  unfold finish3At
  exact pay3_apply_of (iblk3 V c 2 t) (iblk3 V c 3 t) (iblk3 V c 0 t) (iblk3 V c 1 t) (iblk3 V c 4 t) p q
    (fun k => xd3 V c (ix2 (row3 t p) k)) (fun k => wr3 V c (ix2 k q)) (agg3a V c (ix2 (row3 t p) q)) (agg3b V c (ix2 (row3 t p) q)) (bias3 V c (ix2 (0 : Fin 1) q))
    (fun k => xd3_read V c t p k) (fun k => wr3_read V c t k q) (agg3a_read V c t p q) (agg3b_read V c t p q) (bias3_read V c t 0 q)

/-- An index of the array is in point t's tile iff each coordinate is in the tile's range on its axis. -/
theorem mem_blk3_5 (t : Fin cfg3.N) (i : S200000x16.Idx) :
    i ∈ ((cfg3.win 5).blk t).view.set ↔ ∀ a : Fin 2, win3_5.index t a * S8000x16.size a ≤ (i a).val ∧ (i a).val < win3_5.index t a * S8000x16.size a + S8000x16.size a := by
  show i ∈ ((View.whole main_v70).slice (win3_5.rect t)).set ↔ _
  rw [View.set_slice_whole, Rect.mem_set_unit]
  exact Iff.rfl

/-- The 25 tiles cover the array: row r is in tile r / 8000. -/
theorem cover3_5_arr (i : S200000x16.Idx) :
    ∃ t : Fin cfg3.N, (cfg3.win 5).flush t = true ∧ i ∈ ((cfg3.win 5).blk t).view.set := by
  have hN : cfg3.N = 25 := N_3
  have hi0 : (i 0).val < 200000 := (i 0).isLt
  have hi1 : (i 1).val < 16 := (i 1).isLt
  obtain ⟨t, ht⟩ : ∃ t : Fin cfg3.N, t.val = (i 0).val / 8000 := ⟨⟨(i 0).val / 8000, by omega⟩, rfl⟩
  obtain ⟨-, -, -, -, -, -, -, -, -, -, e0, e1⟩ := idx_facts3 t
  refine ⟨t, flush3_5 t, ?_⟩
  rw [mem_blk3_5]
  intro a
  match a with
  | ⟨0, _⟩ => show win3_5.index t (0 : Fin 2) * 8000 ≤ (i 0).val ∧ (i 0).val < win3_5.index t (0 : Fin 2) * 8000 + 8000; rw [e0]; omega
  | ⟨1, _⟩ => show win3_5.index t (1 : Fin 2) * 16 ≤ (i 1).val ∧ (i 1).val < win3_5.index t (1 : Fin 2) * 16 + 16; rw [e1]; omega

/-- The output array after the region is the finished array. -/
theorem final3_5 (c : Dev nD) : (dat3 (F := Ideal) V c).arrAt 5 cfg3.N = finish3 V c :=
  (dat3 V c).arrAt_eq_of_cover 5 (finish3 V c) (fun t _ => flushed3_5_eq V c t) cover3_5_arr

/-- THE OUTPUT ARRAY of the region, entry by entry, from its input arrays. -/
theorem arr3_5 (c : Dev nD) (r : Fin 200000) (o : Fin 16) :
    (dat3 (F := Ideal) V c).arrAt 5 cfg3.N (ix2 r o)
      = max ((((0 + ∑ k : Fin 64, xd3 V c (ix2 r k) * wr3 V c (ix2 k o)) + agg3a V c (ix2 r o)) + agg3b V c (ix2 r o)) + bias3 V c (ix2 (0 : Fin 1) o)) 0 :=
  congrFun (final3_5 V c) (ix2 r o)

/-- The same with the input arrays NAMED by whatever functions they are known to be. -/
theorem arr3_5_of (c : Dev nD) (agg1 : S200000x16.Idx → EReal) (agg2 : S200000x16.Idx → EReal) (xd : S200000x64.Idx → EReal) (wr : S64x16.Idx → EReal)
    (b : S1x16.Idx → EReal) (h0 : V c (Pipeline.arrRef spec3 0) = agg1) (h1 : V c (Pipeline.arrRef spec3 1) = agg2) (h2 : V c (Pipeline.arrRef spec3 2) = xd)
    (h3 : V c (Pipeline.arrRef spec3 3) = wr) (h4 : V c (Pipeline.arrRef spec3 4) = b) (r : Fin 200000) (o : Fin 16) :
    (dat3 (F := Ideal) V c).arrAt 5 cfg3.N (ix2 r o)
      = max ((((0 + ∑ k : Fin 64, xd (ix2 r k) * wr (ix2 k o)) + agg1 (ix2 r o)) + agg2 (ix2 r o)) + b (ix2 (0 : Fin 1) o)) 0 := by
  subst h0 h1 h2 h3 h4
  exact arr3_5 V c r o

/-! ## Layer 2, the 50000-row side: relu (xd · wr + agg + bias), 5 tiles of 10000 rows -/
theorem arrRef6_0 : Pipeline.arrRef spec6 0 = main_v84 := rfl
theorem arrRef6_1 : Pipeline.arrRef spec6 1 = main_v66 := rfl
theorem arrRef6_2 : Pipeline.arrRef spec6 2 = main_arg18 := rfl
theorem arrRef6_3 : Pipeline.arrRef spec6 3 = main_v109 := rfl
theorem arrRef6_4 : Pipeline.arrRef spec6 4 = main_v110 := rfl

/-- The product's left operand is read in the output's row … -/
theorem lhs6_0 (i : S10000x16.Idx) (q : dot_S10000x16_S16x16_S10000x16_1_0_0_1_n_n.contr.Idx) : (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
/-- … and its right operand in the output's column. -/
theorem rhs6_1 (i : S10000x16.Idx) (q : dot_S10000x16_S16x16_S10000x16_1_0_0_1_n_n.contr.Idx) : (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- A [10000,16] × [16,16] product into the zero accumulator, at row p and column q: zero plus the sum over the
    contracted axis of the row's entries times the column's. -/
theorem matmul6_apply (l : FVec Ideal S10000x16 .bf16) (r : FVec Ideal S16x16 .bf16) (p : Fin 10000) (q : Fin 16) :
    matmul (F := Ideal) dot_S10000x16_S16x16_S10000x16_1_0_0_1_n_n none l r (constant S10000x16 .f32 0x00000000#32) (ix2 p q)
      = 0 + ∑ k : Fin 16, l (ix2 p k) * r (ix2 k q) := by
  refine (Ideal.matmul_apply dot_S10000x16_S16x16_S10000x16_1_0_0_1_n_n none l r _ (ix2 p q)).trans ?_
  refine congrArg₂ (· + ·) Ideal.ofBits_zero_f32 ?_
  rw [← Equiv.sum_comp (contrEquiv1 dot_S10000x16_S16x16_S10000x16_1_0_0_1_n_n 16 rfl rfl).symm]
  refine Finset.sum_congr rfl fun k _ => ?_
  have hk := contrEquiv1_symm_val dot_S10000x16_S16x16_S10000x16_1_0_0_1_n_n 16 rfl rfl k
  have el : dot_S10000x16_S16x16_S10000x16_1_0_0_1_n_n.lhsIdx (ix2 p q) ((contrEquiv1 dot_S10000x16_S16x16_S10000x16_1_0_0_1_n_n 16 rfl rfl).symm k) = ix2 p k :=
    funext fun a => Fin.ext (by
      match a with
      | ⟨0, _⟩ => exact lhs6_0 _ _
      | ⟨1, _⟩ => exact (dot_S10000x16_S16x16_S10000x16_1_0_0_1_n_n.lhsIdx_val_of_single rfl (ix2 p q) _).trans hk)
  have er : dot_S10000x16_S16x16_S10000x16_1_0_0_1_n_n.rhsIdx (ix2 p q) ((contrEquiv1 dot_S10000x16_S16x16_S10000x16_1_0_0_1_n_n 16 rfl rfl).symm k) = ix2 k q :=
    funext fun a => Fin.ext (by
      match a with
      | ⟨0, _⟩ => exact (dot_S10000x16_S16x16_S10000x16_1_0_0_1_n_n.rhsIdx_val_of_single rfl (ix2 p q) _).trans hk
      | ⟨1, _⟩ => exact rhs6_1 _ _)
  rw [el, er]

/-- The body's value at row p, column q of its tile, from the loaded blocks: the product's entry, plus the
    aggregate's, plus the bias row's entry of that column, clamped below at zero. -/
theorem pay6_apply (xd : Vec Ideal S10000x16 .f32) (wr : Vec Ideal S16x16 .f32) (agg : Vec Ideal S10000x16 .f32) (b : Vec Ideal S1x16 .f32) (p : Fin 10000) (q : Fin 16) :
    k6_pay1 (F := Ideal) xd wr agg b (ix2 p q)
      = max (((0 + ∑ k : Fin 16, xd (ix2 p k) * wr (ix2 k q)) + agg (ix2 p q)) + b (ix2 (0 : Fin 1) q)) 0 := by
  unfold k6_pay1
  show max ((matmul (F := Ideal) dot_S10000x16_S16x16_S10000x16_1_0_0_1_n_n none (truncf (F := Ideal) .bf16 (shapeCast S10000x16 xd shapeCasts_S10000x16_S10000x16) bitsLt_bf16_f32) (truncf (F := Ideal) .bf16 wr bitsLt_bf16_f32) (constant S10000x16 .f32 0x00000000#32) (ix2 p q)
        + shapeCast S10000x16 agg shapeCasts_S10000x16_S10000x16 (ix2 p q))
        + broadcastTo S10000x16 (shapeCast S1x16 b shapeCasts_S1x16_S1x16) broadcasts_S1x16_S10000x16 (ix2 p q))
      (Ideal.ofBits .f32 0x00000000#32) = _
  rw [shapeCast_self, shapeCast_self, shapeCast_self, matmul6_apply, broadcastTo_1b_ab_apply, Ideal.ofBits_zero_f32]
  rfl

/-- The same with each loaded entry NAMED: whatever the blocks are known to hold at the entries read. -/
theorem pay6_apply_of (xd : Vec Ideal S10000x16 .f32) (wr : Vec Ideal S16x16 .f32) (agg : Vec Ideal S10000x16 .f32) (b : Vec Ideal S1x16 .f32) (p : Fin 10000) (q : Fin 16) (XD WR : Fin 16 → EReal) (A B : EReal)
    (hxd : ∀ k, xd (ix2 p k) = XD k) (hwr : ∀ k, wr (ix2 k q) = WR k) (ha0 : agg (ix2 p q) = A)
    (hb : b (ix2 (0 : Fin 1) q) = B) :
    k6_pay1 (F := Ideal) xd wr agg b (ix2 p q) = max (((0 + ∑ k : Fin 16, XD k * WR k) + A) + B) 0 := by
  refine (pay6_apply xd wr agg b p q).trans ?_
  rw [ha0, hb]
  refine congrArg (fun s : EReal => max (((0 + s) + A) + B) 0) (Finset.sum_congr rfl fun k _ => ?_)
  rw [hxd k, hwr k]

/-- What the body leaves in the output's buffer is its one store's value of the loaded blocks. -/
theorem out6_4_eq (x0 : Vec Ideal S10000x16 .f32) (x1 : Vec Ideal S10000x16 .f32) (x2 : Vec Ideal S16x16 .f32) (x3 : Vec Ideal S1x16 .f32) :
    out6_4 x0 x1 x2 x3 = k6_pay1 x1 x2 x0 x3 := by
  unfold out6_4
  rw [View.canon_unit_zero hz]
  simp only [View.ld_unit_zero (S := S10000x16) hz, View.ld_unit_zero (S := S16x16) hz, View.ld_unit_zero (S := S1x16) hz]

/-- The region's input arrays as it finds them, at their literal shapes: the aggregate, the rows xd, the weight
    wr and the one-row bias. -/
abbrev agg6 (c : Dev nD) : S50000x16.Idx → EReal := V c (Pipeline.arrRef spec6 0)
abbrev xd6 (c : Dev nD) : S50000x16.Idx → EReal := V c (Pipeline.arrRef spec6 1)
abbrev wr6 (c : Dev nD) : S16x16.Idx → EReal := V c (Pipeline.arrRef spec6 2)
abbrev bias6 (c : Dev nD) : S1x16.Idx → EReal := V c (Pipeline.arrRef spec6 3)

/-- The printed index maps over the 5 points: the row tiles (aggregate, xd, output) sit at block row t, column
    block 0; the weight and the bias are whole at block (0, 0). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row p of tile t is row 10000 t + p of the array. -/
def row6 (t : Fin cfg6.N) (p : Fin 10000) : Fin 50000 :=
  ⟨t.val * 10000 + p.val, by have hN : cfg6.N = 5 := N_6; have := t.isLt; have := p.isLt; omega⟩

/-- The tile of agg6 at point t reads the array at the tile's rows. -/
theorem agg6_read (c : Dev nD) (t : Fin cfg6.N) (p : Fin 10000) (q : Fin 16) :
    (iblk6 V c 0 t : Vec Ideal S10000x16 .f32) (ix2 p q) = agg6 V c (ix2 (row6 t p) q) := by
  obtain ⟨e0, e1, -⟩ := idx_facts6 t
  show agg6 V c (((cfg6.win 0).blk t).view.emb (ix2 p q)) = _
  refine congrArg (agg6 V c) (funext fun a => Fin.ext ?_)
  match a with
  | ⟨0, _⟩ => show win6_0.index t (0 : Fin 2) * 10000 + 1 * p.val = t.val * 10000 + p.val; rw [e0]; omega
  | ⟨1, _⟩ => show win6_0.index t (1 : Fin 2) * 16 + 1 * q.val = q.val; rw [e1]; omega

/-- The tile of xd6 at point t reads the array at the tile's rows. -/
theorem xd6_read (c : Dev nD) (t : Fin cfg6.N) (p : Fin 10000) (q : Fin 16) :
    (iblk6 V c 1 t : Vec Ideal S10000x16 .f32) (ix2 p q) = xd6 V c (ix2 (row6 t p) q) := by
  obtain ⟨-, -, e0, e1, -⟩ := idx_facts6 t
  show xd6 V c (((cfg6.win 1).blk t).view.emb (ix2 p q)) = _
  refine congrArg (xd6 V c) (funext fun a => Fin.ext ?_)
  match a with
  | ⟨0, _⟩ => show win6_1.index t (0 : Fin 2) * 10000 + 1 * p.val = t.val * 10000 + p.val; rw [e0]; omega
  | ⟨1, _⟩ => show win6_1.index t (1 : Fin 2) * 16 + 1 * q.val = q.val; rw [e1]; omega

/-- The block of wr6 at every point is the whole array. -/
theorem wr6_read (c : Dev nD) (t : Fin cfg6.N) (p : Fin 16) (q : Fin 16) :
    (iblk6 V c 2 t : Vec Ideal S16x16 .f32) (ix2 p q) = wr6 V c (ix2 p q) := by
  obtain ⟨-, -, -, -, e0, e1, -⟩ := idx_facts6 t
  show wr6 V c (((cfg6.win 2).blk t).view.emb (ix2 p q)) = _
  refine congrArg (wr6 V c) (funext fun a => Fin.ext ?_)
  match a with
  | ⟨0, _⟩ => show win6_2.index t (0 : Fin 2) * 16 + 1 * p.val = p.val; rw [e0]; omega
  | ⟨1, _⟩ => show win6_2.index t (1 : Fin 2) * 16 + 1 * q.val = q.val; rw [e1]; omega

/-- The block of bias6 at every point is the whole array. -/
theorem bias6_read (c : Dev nD) (t : Fin cfg6.N) (p : Fin 1) (q : Fin 16) :
    (iblk6 V c 3 t : Vec Ideal S1x16 .f32) (ix2 p q) = bias6 V c (ix2 p q) := by
  obtain ⟨-, -, -, -, -, -, e0, e1, -⟩ := idx_facts6 t
  show bias6 V c (((cfg6.win 3).blk t).view.emb (ix2 p q)) = _
  refine congrArg (bias6 V c) (funext fun a => Fin.ext ?_)
  match a with
  | ⟨0, _⟩ => show win6_3.index t (0 : Fin 2) * 1 + 1 * p.val = p.val; rw [e0]; omega
  | ⟨1, _⟩ => show win6_3.index t (1 : Fin 2) * 16 + 1 * q.val = q.val; rw [e1]; omega

/-- The finished entry at row r, column o: the xd row times the weight column, plus the aggregate, plus the bias of
    the column, clamped below at zero. -/
def finish6At (c : Dev nD) (r : Fin 50000) (o : Fin 16) : EReal :=
  max (((0 + ∑ k : Fin 16, xd6 V c (ix2 r k) * wr6 V c (ix2 k o)) + agg6 V c (ix2 r o)) + bias6 V c (ix2 (0 : Fin 1) o)) 0

/-- The finished array as one function of the region's input arrays. -/
def finish6 (c : Dev nD) : S50000x16.Idx → EReal := fun i => finish6At V c (i 0) (i 1)

/-- What point t writes back is tile t of the finished array. -/
theorem flushed6_4_eq (c : Dev nD) (t : Fin cfg6.N) :
    (dat6 (F := Ideal) V c).flushed 4 t = ((cfg6.win 4).blk t).view.read (Elt Ideal) (finish6 V c) := by
  show (cfg6.win 4).cut (grid6.coords t) ((dat6 V c).after 4 t) = _
  rw [after6_4, out6_4_eq]
  funext j
  obtain ⟨p, q, rfl⟩ : ∃ (p : Fin 10000) (q : Fin 16), j = ix2 p q := ⟨j 0, j 1, eq_ix2 j⟩
  show k6_pay1 (F := Ideal) (iblk6 V c 1 t) (iblk6 V c 2 t) (iblk6 V c 0 t) (iblk6 V c 3 t) (ix2 p q)
    = finish6 V c (((cfg6.win 4).blk t).view.emb (ix2 p q))
  obtain ⟨-, -, -, -, -, -, -, -, e0, e1⟩ := idx_facts6 t
  have hemb : ((cfg6.win 4).blk t).view.emb (ix2 p q) = ix2 (row6 t p) q := by
    funext a; apply Fin.ext
    match a with
    | ⟨0, _⟩ => show win6_4.index t (0 : Fin 2) * 10000 + 1 * p.val = t.val * 10000 + p.val; rw [e0]; omega
    | ⟨1, _⟩ => show win6_4.index t (1 : Fin 2) * 16 + 1 * q.val = q.val; rw [e1]; omega
  rw [hemb]
  show _ = finish6At V c (row6 t p) q
  unfold finish6At
  exact pay6_apply_of (iblk6 V c 1 t) (iblk6 V c 2 t) (iblk6 V c 0 t) (iblk6 V c 3 t) p q
    (fun k => xd6 V c (ix2 (row6 t p) k)) (fun k => wr6 V c (ix2 k q)) (agg6 V c (ix2 (row6 t p) q)) (bias6 V c (ix2 (0 : Fin 1) q))
    (fun k => xd6_read V c t p k) (fun k => wr6_read V c t k q) (agg6_read V c t p q) (bias6_read V c t 0 q)

/-- An index of the array is in point t's tile iff each coordinate is in the tile's range on its axis. -/
theorem mem_blk6_4 (t : Fin cfg6.N) (i : S50000x16.Idx) :
    i ∈ ((cfg6.win 4).blk t).view.set ↔ ∀ a : Fin 2, win6_4.index t a * S10000x16.size a ≤ (i a).val ∧ (i a).val < win6_4.index t a * S10000x16.size a + S10000x16.size a := by
  show i ∈ ((View.whole main_v110).slice (win6_4.rect t)).set ↔ _
  rw [View.set_slice_whole, Rect.mem_set_unit]
  exact Iff.rfl

/-- The 5 tiles cover the array: row r is in tile r / 10000. -/
theorem cover6_4_arr (i : S50000x16.Idx) :
    ∃ t : Fin cfg6.N, (cfg6.win 4).flush t = true ∧ i ∈ ((cfg6.win 4).blk t).view.set := by
  have hN : cfg6.N = 5 := N_6
  have hi0 : (i 0).val < 50000 := (i 0).isLt
  have hi1 : (i 1).val < 16 := (i 1).isLt
  obtain ⟨t, ht⟩ : ∃ t : Fin cfg6.N, t.val = (i 0).val / 10000 := ⟨⟨(i 0).val / 10000, by omega⟩, rfl⟩
  obtain ⟨-, -, -, -, -, -, -, -, e0, e1⟩ := idx_facts6 t
  refine ⟨t, flush6_4 t, ?_⟩
  rw [mem_blk6_4]
  intro a
  match a with
  | ⟨0, _⟩ => show win6_4.index t (0 : Fin 2) * 10000 ≤ (i 0).val ∧ (i 0).val < win6_4.index t (0 : Fin 2) * 10000 + 10000; rw [e0]; omega
  | ⟨1, _⟩ => show win6_4.index t (1 : Fin 2) * 16 ≤ (i 1).val ∧ (i 1).val < win6_4.index t (1 : Fin 2) * 16 + 16; rw [e1]; omega

/-- The output array after the region is the finished array. -/
theorem final6_4 (c : Dev nD) : (dat6 (F := Ideal) V c).arrAt 4 cfg6.N = finish6 V c :=
  (dat6 V c).arrAt_eq_of_cover 4 (finish6 V c) (fun t _ => flushed6_4_eq V c t) cover6_4_arr

/-- THE OUTPUT ARRAY of the region, entry by entry, from its input arrays. -/
theorem arr6_4 (c : Dev nD) (r : Fin 50000) (o : Fin 16) :
    (dat6 (F := Ideal) V c).arrAt 4 cfg6.N (ix2 r o)
      = max (((0 + ∑ k : Fin 16, xd6 V c (ix2 r k) * wr6 V c (ix2 k o)) + agg6 V c (ix2 r o)) + bias6 V c (ix2 (0 : Fin 1) o)) 0 :=
  congrFun (final6_4 V c) (ix2 r o)

/-- The same with the input arrays NAMED by whatever functions they are known to be. -/
theorem arr6_4_of (c : Dev nD) (agg : S50000x16.Idx → EReal) (xd : S50000x16.Idx → EReal) (wr : S16x16.Idx → EReal)
    (b : S1x16.Idx → EReal) (h0 : V c (Pipeline.arrRef spec6 0) = agg) (h1 : V c (Pipeline.arrRef spec6 1) = xd)
    (h2 : V c (Pipeline.arrRef spec6 2) = wr) (h3 : V c (Pipeline.arrRef spec6 3) = b) (r : Fin 50000) (o : Fin 16) :
    (dat6 (F := Ideal) V c).arrAt 4 cfg6.N (ix2 r o)
      = max (((0 + ∑ k : Fin 16, xd (ix2 r k) * wr (ix2 k o)) + agg (ix2 r o)) + b (ix2 (0 : Fin 1) o)) 0 := by
  subst h0 h1 h2 h3
  exact arr6_4 V c r o

/-! ## Layer 2, the 200000-row side: relu (xd · wr + agg1 + agg2 + bias), 25 tiles of 8000 rows -/
theorem arrRef7_0 : Pipeline.arrRef spec7 0 = main_v96 := rfl
theorem arrRef7_1 : Pipeline.arrRef spec7 1 = main_v108 := rfl
theorem arrRef7_2 : Pipeline.arrRef spec7 2 = main_v70 := rfl
theorem arrRef7_3 : Pipeline.arrRef spec7 3 = main_v111 := rfl
theorem arrRef7_4 : Pipeline.arrRef spec7 4 = main_v113 := rfl
theorem arrRef7_5 : Pipeline.arrRef spec7 5 = main_v114 := rfl

/-- The product's left operand is read in the output's row … -/
theorem lhs7_0 (i : S8000x16.Idx) (q : dot_S8000x16_S16x16_S8000x16_1_0_0_1_n_n.contr.Idx) : (dot_S8000x16_S16x16_S8000x16_1_0_0_1_n_n.lhsIdx i q 0).val = (i 0).val := by
  unfold DotDims.lhsIdx
  rw [dif_neg (show ¬(0 : Fin S8000x16.rank) ∈ dot_S8000x16_S16x16_S8000x16_1_0_0_1_n_n.lhsBatch by decide), dif_pos (show (0 : Fin S8000x16.rank) ∈ dot_S8000x16_S16x16_S8000x16_1_0_0_1_n_n.lhsNonContracting by decide)]
  rfl
/-- … and its right operand in the output's column. -/
theorem rhs7_1 (i : S8000x16.Idx) (q : dot_S8000x16_S16x16_S8000x16_1_0_0_1_n_n.contr.Idx) : (dot_S8000x16_S16x16_S8000x16_1_0_0_1_n_n.rhsIdx i q 1).val = (i 1).val := by
  unfold DotDims.rhsIdx
  rw [dif_neg (show ¬(1 : Fin S16x16.rank) ∈ dot_S8000x16_S16x16_S8000x16_1_0_0_1_n_n.rhsBatch by decide), dif_pos (show (1 : Fin S16x16.rank) ∈ dot_S8000x16_S16x16_S8000x16_1_0_0_1_n_n.rhsNonContracting by decide)]
  rfl

/-- A [8000,16] × [16,16] product into the zero accumulator, at row p and column q: zero plus the sum over the
    contracted axis of the row's entries times the column's. -/
theorem matmul7_apply (l : FVec Ideal S8000x16 .bf16) (r : FVec Ideal S16x16 .bf16) (p : Fin 8000) (q : Fin 16) :
    matmul (F := Ideal) dot_S8000x16_S16x16_S8000x16_1_0_0_1_n_n none l r (constant S8000x16 .f32 0x00000000#32) (ix2 p q)
      = 0 + ∑ k : Fin 16, l (ix2 p k) * r (ix2 k q) := by
  refine (Ideal.matmul_apply dot_S8000x16_S16x16_S8000x16_1_0_0_1_n_n none l r _ (ix2 p q)).trans ?_
  refine congrArg₂ (· + ·) Ideal.ofBits_zero_f32 ?_
  rw [← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 p q) ((contrEquiv1 dot_S8000x16_S16x16_S8000x16_1_0_0_1_n_n 16 rfl rfl).symm k) = ix2 p k :=
    funext fun a => Fin.ext (by
      match a with
      | ⟨0, _⟩ => exact lhs7_0 _ _
      | ⟨1, _⟩ => exact (dot_S8000x16_S16x16_S8000x16_1_0_0_1_n_n.lhsIdx_val_of_single rfl (ix2 p q) _).trans hk)
  have er : dot_S8000x16_S16x16_S8000x16_1_0_0_1_n_n.rhsIdx (ix2 p q) ((contrEquiv1 dot_S8000x16_S16x16_S8000x16_1_0_0_1_n_n 16 rfl rfl).symm k) = ix2 k q :=
    funext fun a => Fin.ext (by
      match a with
      | ⟨0, _⟩ => exact (dot_S8000x16_S16x16_S8000x16_1_0_0_1_n_n.rhsIdx_val_of_single rfl (ix2 p q) _).trans hk
      | ⟨1, _⟩ => exact rhs7_1 _ _)
  rw [el, er]

/-- The body's value at row p, column q of its tile, from the loaded blocks: the product's entry, plus the
    aggregates', plus the bias row's entry of that column, clamped below at zero. -/
theorem pay7_apply (xd : Vec Ideal S8000x16 .f32) (wr : Vec Ideal S16x16 .f32) (agg1 : Vec Ideal S8000x16 .f32) (agg2 : Vec Ideal S8000x16 .f32) (b : Vec Ideal S1x16 .f32) (p : Fin 8000) (q : Fin 16) :
    k7_pay1 (F := Ideal) xd wr agg1 agg2 b (ix2 p q)
      = max ((((0 + ∑ k : Fin 16, xd (ix2 p k) * wr (ix2 k q)) + agg1 (ix2 p q)) + agg2 (ix2 p q)) + b (ix2 (0 : Fin 1) q)) 0 := by
  unfold k7_pay1
  show max (((matmul (F := Ideal) dot_S8000x16_S16x16_S8000x16_1_0_0_1_n_n none (truncf (F := Ideal) .bf16 (shapeCast S8000x16 xd shapeCasts_S8000x16_S8000x16) bitsLt_bf16_f32) (truncf (F := Ideal) .bf16 (shapeCast S16x16 wr shapeCasts_S16x16_S16x16) bitsLt_bf16_f32) (constant S8000x16 .f32 0x00000000#32) (ix2 p q)
        + shapeCast S8000x16 agg1 shapeCasts_S8000x16_S8000x16 (ix2 p q))
        + shapeCast S8000x16 agg2 shapeCasts_S8000x16_S8000x16 (ix2 p q))
        + broadcastTo S8000x16 (shapeCast S1x16 b shapeCasts_S1x16_S1x16) broadcasts_S1x16_S8000x16 (ix2 p q))
      (Ideal.ofBits .f32 0x00000000#32) = _
  rw [shapeCast_self, shapeCast_self, shapeCast_self, shapeCast_self, shapeCast_self, matmul7_apply, broadcastTo_1b_ab_apply, Ideal.ofBits_zero_f32]
  rfl

/-- The same with each loaded entry NAMED: whatever the blocks are known to hold at the entries read. -/
theorem pay7_apply_of (xd : Vec Ideal S8000x16 .f32) (wr : Vec Ideal S16x16 .f32) (agg1 : Vec Ideal S8000x16 .f32) (agg2 : Vec Ideal S8000x16 .f32) (b : Vec Ideal S1x16 .f32) (p : Fin 8000) (q : Fin 16) (XD WR : Fin 16 → EReal) (A1 A2 B : EReal)
    (hxd : ∀ k, xd (ix2 p k) = XD k) (hwr : ∀ k, wr (ix2 k q) = WR k) (ha0 : agg1 (ix2 p q) = A1) (ha1 : agg2 (ix2 p q) = A2)
    (hb : b (ix2 (0 : Fin 1) q) = B) :
    k7_pay1 (F := Ideal) xd wr agg1 agg2 b (ix2 p q) = max ((((0 + ∑ k : Fin 16, XD k * WR k) + A1) + A2) + B) 0 := by
  refine (pay7_apply xd wr agg1 agg2 b p q).trans ?_
  rw [ha0, ha1, hb]
  refine congrArg (fun s : EReal => max ((((0 + s) + A1) + A2) + B) 0) (Finset.sum_congr rfl fun k _ => ?_)
  rw [hxd k, hwr k]

/-- What the body leaves in the output's buffer is its one store's value of the loaded blocks. -/
theorem out7_5_eq (x0 : Vec Ideal S8000x16 .f32) (x1 : Vec Ideal S8000x16 .f32) (x2 : Vec Ideal S8000x16 .f32) (x3 : Vec Ideal S16x16 .f32) (x4 : Vec Ideal S1x16 .f32) :
    out7_5 x0 x1 x2 x3 x4 = k7_pay1 x2 x3 x0 x1 x4 := by
  unfold out7_5
  rw [View.canon_unit_zero hz]
  simp only [View.ld_unit_zero (S := S8000x16) hz, View.ld_unit_zero (S := S16x16) hz, View.ld_unit_zero (S := S1x16) hz]

/-- The region's input arrays as it finds them, at their literal shapes: the aggregates, the rows xd, the weight
    wr and the one-row bias. -/
abbrev agg7a (c : Dev nD) : S200000x16.Idx → EReal := V c (Pipeline.arrRef spec7 0)
abbrev agg7b (c : Dev nD) : S200000x16.Idx → EReal := V c (Pipeline.arrRef spec7 1)
abbrev xd7 (c : Dev nD) : S200000x16.Idx → EReal := V c (Pipeline.arrRef spec7 2)
abbrev wr7 (c : Dev nD) : S16x16.Idx → EReal := V c (Pipeline.arrRef spec7 3)
abbrev bias7 (c : Dev nD) : S1x16.Idx → EReal := V c (Pipeline.arrRef spec7 4)

/-- The printed index maps over the 25 points: the row tiles (aggregates, xd, output) sit at block row t, column
    block 0; the weight and the bias are whole at block (0, 0). -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row p of tile t is row 8000 t + p of the array. -/
def row7 (t : Fin cfg7.N) (p : Fin 8000) : Fin 200000 :=
  ⟨t.val * 8000 + p.val, by have hN : cfg7.N = 25 := N_7; have := t.isLt; have := p.isLt; omega⟩

/-- The tile of agg7a at point t reads the array at the tile's rows. -/
theorem agg7a_read (c : Dev nD) (t : Fin cfg7.N) (p : Fin 8000) (q : Fin 16) :
    (iblk7 V c 0 t : Vec Ideal S8000x16 .f32) (ix2 p q) = agg7a V c (ix2 (row7 t p) q) := by
  obtain ⟨e0, e1, -⟩ := idx_facts7 t
  show agg7a V c (((cfg7.win 0).blk t).view.emb (ix2 p q)) = _
  refine congrArg (agg7a V c) (funext fun a => Fin.ext ?_)
  match a with
  | ⟨0, _⟩ => show win7_0.index t (0 : Fin 2) * 8000 + 1 * p.val = t.val * 8000 + p.val; rw [e0]; omega
  | ⟨1, _⟩ => show win7_0.index t (1 : Fin 2) * 16 + 1 * q.val = q.val; rw [e1]; omega

/-- The tile of agg7b at point t reads the array at the tile's rows. -/
theorem agg7b_read (c : Dev nD) (t : Fin cfg7.N) (p : Fin 8000) (q : Fin 16) :
    (iblk7 V c 1 t : Vec Ideal S8000x16 .f32) (ix2 p q) = agg7b V c (ix2 (row7 t p) q) := by
  obtain ⟨-, -, e0, e1, -⟩ := idx_facts7 t
  show agg7b V c (((cfg7.win 1).blk t).view.emb (ix2 p q)) = _
  refine congrArg (agg7b V c) (funext fun a => Fin.ext ?_)
  match a with
  | ⟨0, _⟩ => show win7_1.index t (0 : Fin 2) * 8000 + 1 * p.val = t.val * 8000 + p.val; rw [e0]; omega
  | ⟨1, _⟩ => show win7_1.index t (1 : Fin 2) * 16 + 1 * q.val = q.val; rw [e1]; omega

/-- The tile of xd7 at point t reads the array at the tile's rows. -/
theorem xd7_read (c : Dev nD) (t : Fin cfg7.N) (p : Fin 8000) (q : Fin 16) :
    (iblk7 V c 2 t : Vec Ideal S8000x16 .f32) (ix2 p q) = xd7 V c (ix2 (row7 t p) q) := by
  obtain ⟨-, -, -, -, e0, e1, -⟩ := idx_facts7 t
  show xd7 V c (((cfg7.win 2).blk t).view.emb (ix2 p q)) = _
  refine congrArg (xd7 V c) (funext fun a => Fin.ext ?_)
  match a with
  | ⟨0, _⟩ => show win7_2.index t (0 : Fin 2) * 8000 + 1 * p.val = t.val * 8000 + p.val; rw [e0]; omega
  | ⟨1, _⟩ => show win7_2.index t (1 : Fin 2) * 16 + 1 * q.val = q.val; rw [e1]; omega

/-- The block of wr7 at every point is the whole array. -/
theorem wr7_read (c : Dev nD) (t : Fin cfg7.N) (p : Fin 16) (q : Fin 16) :
    (iblk7 V c 3 t : Vec Ideal S16x16 .f32) (ix2 p q) = wr7 V c (ix2 p q) := by
  obtain ⟨-, -, -, -, -, -, e0, e1, -⟩ := idx_facts7 t
  show wr7 V c (((cfg7.win 3).blk t).view.emb (ix2 p q)) = _
  refine congrArg (wr7 V c) (funext fun a => Fin.ext ?_)
  match a with
  | ⟨0, _⟩ => show win7_3.index t (0 : Fin 2) * 16 + 1 * p.val = p.val; rw [e0]; omega
  | ⟨1, _⟩ => show win7_3.index t (1 : Fin 2) * 16 + 1 * q.val = q.val; rw [e1]; omega

/-- The block of bias7 at every point is the whole array. -/
theorem bias7_read (c : Dev nD) (t : Fin cfg7.N) (p : Fin 1) (q : Fin 16) :
    (iblk7 V c 4 t : Vec Ideal S1x16 .f32) (ix2 p q) = bias7 V c (ix2 p q) := by
  obtain ⟨-, -, -, -, -, -, -, -, e0, e1, -⟩ := idx_facts7 t
  show bias7 V c (((cfg7.win 4).blk t).view.emb (ix2 p q)) = _
  refine congrArg (bias7 V c) (funext fun a => Fin.ext ?_)
  match a with
  | ⟨0, _⟩ => show win7_4.index t (0 : Fin 2) * 1 + 1 * p.val = p.val; rw [e0]; omega
  | ⟨1, _⟩ => show win7_4.index t (1 : Fin 2) * 16 + 1 * q.val = q.val; rw [e1]; omega

/-- The finished entry at row r, column o: the xd row times the weight column, plus the aggregates, plus the bias of
    the column, clamped below at zero. -/
def finish7At (c : Dev nD) (r : Fin 200000) (o : Fin 16) : EReal :=
  max ((((0 + ∑ k : Fin 16, xd7 V c (ix2 r k) * wr7 V c (ix2 k o)) + agg7a V c (ix2 r o)) + agg7b V c (ix2 r o)) + bias7 V c (ix2 (0 : Fin 1) o)) 0

/-- The finished array as one function of the region's input arrays. -/
def finish7 (c : Dev nD) : S200000x16.Idx → EReal := fun i => finish7At V c (i 0) (i 1)

/-- What point t writes back is tile t of the finished array. -/
theorem flushed7_5_eq (c : Dev nD) (t : Fin cfg7.N) :
    (dat7 (F := Ideal) V c).flushed 5 t = ((cfg7.win 5).blk t).view.read (Elt Ideal) (finish7 V c) := by
  show (cfg7.win 5).cut (grid7.coords t) ((dat7 V c).after 5 t) = _
  rw [after7_5, out7_5_eq]
  funext j
  obtain ⟨p, q, rfl⟩ : ∃ (p : Fin 8000) (q : Fin 16), j = ix2 p q := ⟨j 0, j 1, eq_ix2 j⟩
  show k7_pay1 (F := Ideal) (iblk7 V c 2 t) (iblk7 V c 3 t) (iblk7 V c 0 t) (iblk7 V c 1 t) (iblk7 V c 4 t) (ix2 p q)
    = finish7 V c (((cfg7.win 5).blk t).view.emb (ix2 p q))
  obtain ⟨-, -, -, -, -, -, -, -, -, -, e0, e1⟩ := idx_facts7 t
  have hemb : ((cfg7.win 5).blk t).view.emb (ix2 p q) = ix2 (row7 t p) q := by
    funext a; apply Fin.ext
    match a with
    | ⟨0, _⟩ => show win7_5.index t (0 : Fin 2) * 8000 + 1 * p.val = t.val * 8000 + p.val; rw [e0]; omega
    | ⟨1, _⟩ => show win7_5.index t (1 : Fin 2) * 16 + 1 * q.val = q.val; rw [e1]; omega
  rw [hemb]
  show _ = finish7At V c (row7 t p) q
  unfold finish7At
  exact pay7_apply_of (iblk7 V c 2 t) (iblk7 V c 3 t) (iblk7 V c 0 t) (iblk7 V c 1 t) (iblk7 V c 4 t) p q
    (fun k => xd7 V c (ix2 (row7 t p) k)) (fun k => wr7 V c (ix2 k q)) (agg7a V c (ix2 (row7 t p) q)) (agg7b V c (ix2 (row7 t p) q)) (bias7 V c (ix2 (0 : Fin 1) q))
    (fun k => xd7_read V c t p k) (fun k => wr7_read V c t k q) (agg7a_read V c t p q) (agg7b_read V c t p q) (bias7_read V c t 0 q)

/-- An index of the array is in point t's tile iff each coordinate is in the tile's range on its axis. -/
theorem mem_blk7_5 (t : Fin cfg7.N) (i : S200000x16.Idx) :
    i ∈ ((cfg7.win 5).blk t).view.set ↔ ∀ a : Fin 2, win7_5.index t a * S8000x16.size a ≤ (i a).val ∧ (i a).val < win7_5.index t a * S8000x16.size a + S8000x16.size a := by
  show i ∈ ((View.whole main_v114).slice (win7_5.rect t)).set ↔ _
  rw [View.set_slice_whole, Rect.mem_set_unit]
  exact Iff.rfl

/-- The 25 tiles cover the array: row r is in tile r / 8000. -/
theorem cover7_5_arr (i : S200000x16.Idx) :
    ∃ t : Fin cfg7.N, (cfg7.win 5).flush t = true ∧ i ∈ ((cfg7.win 5).blk t).view.set := by
  have hN : cfg7.N = 25 := N_7
  have hi0 : (i 0).val < 200000 := (i 0).isLt
  have hi1 : (i 1).val < 16 := (i 1).isLt
  obtain ⟨t, ht⟩ : ∃ t : Fin cfg7.N, t.val = (i 0).val / 8000 := ⟨⟨(i 0).val / 8000, by omega⟩, rfl⟩
  obtain ⟨-, -, -, -, -, -, -, -, -, -, e0, e1⟩ := idx_facts7 t
  refine ⟨t, flush7_5 t, ?_⟩
  rw [mem_blk7_5]
  intro a
  match a with
  | ⟨0, _⟩ => show win7_5.index t (0 : Fin 2) * 8000 ≤ (i 0).val ∧ (i 0).val < win7_5.index t (0 : Fin 2) * 8000 + 8000; rw [e0]; omega
  | ⟨1, _⟩ => show win7_5.index t (1 : Fin 2) * 16 ≤ (i 1).val ∧ (i 1).val < win7_5.index t (1 : Fin 2) * 16 + 16; rw [e1]; omega

/-- The output array after the region is the finished array. -/
theorem final7_5 (c : Dev nD) : (dat7 (F := Ideal) V c).arrAt 5 cfg7.N = finish7 V c :=
  (dat7 V c).arrAt_eq_of_cover 5 (finish7 V c) (fun t _ => flushed7_5_eq V c t) cover7_5_arr

/-- THE OUTPUT ARRAY of the region, entry by entry, from its input arrays. -/
theorem arr7_5 (c : Dev nD) (r : Fin 200000) (o : Fin 16) :
    (dat7 (F := Ideal) V c).arrAt 5 cfg7.N (ix2 r o)
      = max ((((0 + ∑ k : Fin 16, xd7 V c (ix2 r k) * wr7 V c (ix2 k o)) + agg7a V c (ix2 r o)) + agg7b V c (ix2 r o)) + bias7 V c (ix2 (0 : Fin 1) o)) 0 :=
  congrFun (final7_5 V c) (ix2 r o)

/-- The same with the input arrays NAMED by whatever functions they are known to be. -/
theorem arr7_5_of (c : Dev nD) (agg1 : S200000x16.Idx → EReal) (agg2 : S200000x16.Idx → EReal) (xd : S200000x16.Idx → EReal) (wr : S16x16.Idx → EReal)
    (b : S1x16.Idx → EReal) (h0 : V c (Pipeline.arrRef spec7 0) = agg1) (h1 : V c (Pipeline.arrRef spec7 1) = agg2) (h2 : V c (Pipeline.arrRef spec7 2) = xd)
    (h3 : V c (Pipeline.arrRef spec7 3) = wr) (h4 : V c (Pipeline.arrRef spec7 4) = b) (r : Fin 200000) (o : Fin 16) :
    (dat7 (F := Ideal) V c).arrAt 5 cfg7.N (ix2 r o)
      = max ((((0 + ∑ k : Fin 16, xd (ix2 r k) * wr (ix2 k o)) + agg1 (ix2 r o)) + agg2 (ix2 r o)) + b (ix2 (0 : Fin 1) o)) 0 := by
  subst h0 h1 h2 h3 h4
  exact arr7_5 V c r o

end Cert.KernelIdeal.FinishArrays

end
-- ==== Proof.KerValue.lean ====
/-
  What the kernel program's buffers hold, boundary by boundary, as the network's functions.

  Each launch's output array is the matrix of one function of the network: a pushed-down product `X · Wl`, or a
  finished layer. Each host aggregate is the matrix of the kernel's mean aggregate of such a product. The facts
  follow the program's data flow; every one reads its operands where they were written.
-/
import proofs.«106252_j16209206575619_2_alg».proof.Proof.KerArgs
import proofs.«106252_j16209206575619_2_alg».proof.Proof.KerChains
import proofs.«106252_j16209206575619_2_alg».proof.Proof.LinearArrays
import proofs.«106252_j16209206575619_2_alg».proof.Proof.FinishArrays

set_option maxRecDepth 16384

noncomputable section

namespace Cert.KernelIdeal.KerValue

open Idealize.ShloMosaic Idealize.ShloMosaic.TcCoe Idealize.SL.Sem Idealize.ShloMosaic.ValueIdx
open Cert.KernelIdeal Cert.KernelIdeal.Gen Cert.KernelIdeal.KerRun Cert.KernelIdeal.KerHost
open Cert.KernelIdeal.LinearArrays Cert.KernelIdeal.FinishArrays Cert.Sage

/-- A function of a row and a column as an array. -/
def mat {a b : Nat} (f : Fin a → Fin b → EReal) : (⟨2, ![a, b]⟩ : Shape).Idx → EReal := fun i => f (i 0) (i 1)

theorem mat_apply {a b : Nat} (f : Fin a → Fin b → EReal) (r : Fin a) (o : Fin b) : mat f (ix2 r o) = f r o := rfl

/-- An array is the matrix of the function its entries are. -/
theorem eq_mat {a b : Nat} (v : (⟨2, ![a, b]⟩ : Shape).Idx → EReal) (f : Fin a → Fin b → EReal)
    (h : ∀ r o, v (ix2 r o) = f r o) : v = mat f := by
  funext i
  exact (congrArg v (eq_ix2 i)).trans (h (i 0) (i 1))

/-- A vector `[16]` as the one row of a `[1, 16]` array. -/
def rowVec (b : S16.Idx → EReal) : S1x16.Idx → EReal := fun i => b (ix1 (i 1))

theorem eq_rowVec (v : S1x16.Idx → EReal) (b : S16.Idx → EReal) (h : ∀ o : Fin 16, v (ix2 0 o) = b (ix1 o)) :
    v = rowVec b := by
  funext i
  have hi : i = ix2 (0 : Fin 1) (i 1) :=
    (eq_ix2 i).trans (congrArg (fun z : Fin 1 => ix2 z (i 1)) (Subsingleton.elim (α := Fin 1) (i 0) 0))
  exact (congrArg v hi).trans (h (i 1))

variable (m : (ℓ : Loc nD τ sig) → Buf (Elt Ideal) ℓ) (ρ : Dev nD → PrngReg) (c : Dev nD)

/-! ## The launch contents of the argument arrays, and the network they describe -/

abbrev A0 : S200000x64.Idx → EReal := m ((c.tc : Thread nD τ).loc main_arg0)
abbrev A1 : S50000x32.Idx → EReal := m ((c.tc : Thread nD τ).loc main_arg1)
abbrev A2 : S2000000.Idx → BitVec 32 := m ((c.tc : Thread nD τ).loc main_arg2)
abbrev A3 : S2000000.Idx → BitVec 32 := m ((c.tc : Thread nD τ).loc main_arg3)
abbrev A4 : S2000000.Idx → BitVec 32 := m ((c.tc : Thread nD τ).loc main_arg4)
abbrev A5 : S2000000.Idx → BitVec 32 := m ((c.tc : Thread nD τ).loc main_arg5)
abbrev A6 : S2000000.Idx → BitVec 32 := m ((c.tc : Thread nD τ).loc main_arg6)
abbrev A7 : S2000000.Idx → BitVec 32 := m ((c.tc : Thread nD τ).loc main_arg7)
abbrev A8 : S64x16.Idx → EReal := m ((c.tc : Thread nD τ).loc main_arg8)
abbrev A9 : S32x16.Idx → EReal := m ((c.tc : Thread nD τ).loc main_arg9)
abbrev A10 : S16.Idx → EReal := m ((c.tc : Thread nD τ).loc main_arg10)
abbrev A11 : S32x16.Idx → EReal := m ((c.tc : Thread nD τ).loc main_arg11)
abbrev A12 : S64x16.Idx → EReal := m ((c.tc : Thread nD τ).loc main_arg12)
abbrev A13 : S16.Idx → EReal := m ((c.tc : Thread nD τ).loc main_arg13)
abbrev A14 : S64x16.Idx → EReal := m ((c.tc : Thread nD τ).loc main_arg14)
abbrev A15 : S64x16.Idx → EReal := m ((c.tc : Thread nD τ).loc main_arg15)
abbrev A16 : S16.Idx → EReal := m ((c.tc : Thread nD τ).loc main_arg16)
abbrev A17 : S16x16.Idx → EReal := m ((c.tc : Thread nD τ).loc main_arg17)
abbrev A18 : S16x16.Idx → EReal := m ((c.tc : Thread nD τ).loc main_arg18)
abbrev A19 : S16.Idx → EReal := m ((c.tc : Thread nD τ).loc main_arg19)
abbrev A20 : S16x16.Idx → EReal := m ((c.tc : Thread nD τ).loc main_arg20)
abbrev A21 : S16x16.Idx → EReal := m ((c.tc : Thread nD τ).loc main_arg21)
abbrev A22 : S16.Idx → EReal := m ((c.tc : Thread nD τ).loc main_arg22)
abbrev A23 : S16x16.Idx → EReal := m ((c.tc : Thread nD τ).loc main_arg23)
abbrev A24 : S16x16.Idx → EReal := m ((c.tc : Thread nD τ).loc main_arg24)
abbrev A25 : S16.Idx → EReal := m ((c.tc : Thread nD τ).loc main_arg25)

/-- The network the launch memory describes. -/
def I : Net (Fin 200000) (Fin 50000) (Fin 2000000) := netOf (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c)

/-! ## Layer 1 -/

/-- Launch 0, first output: the `P` features times the `V` edges' left weight. -/
theorem Yv1 : (W2 m ρ c (Proc.devRef .tc main_v27_0) : S200000x16.Idx → EReal) = mat (mm0 (I m c).xp (I m c).W1v_l) := by
  refine ((W2_arr m ρ c 3).trans (final0_3 (V1 m ρ) c)).trans ?_
  rw [show V1 m ρ c (Pipeline.arrRef spec0 0) = A0 m c from arg0_at1 m ρ c,
    show V1 m ρ c (Pipeline.arrRef spec0 1) = A8 m c from arg8_at1 m ρ c]
  exact eq_mat _ _ fun r o => linear0_apply _ _ r o

/-- Launch 0, second output: the `P` features times the `C` edges' left weight. -/
theorem Yc1 : (W2 m ρ c (Proc.devRef .tc main_v27_1) : S200000x16.Idx → EReal) = mat (mm0 (I m c).xp (I m c).W1c_l) := by
  refine ((W2_arr m ρ c 4).trans (final0_4 (V1 m ρ) c)).trans ?_
  rw [show V1 m ρ c (Pipeline.arrRef spec0 0) = A0 m c from arg0_at1 m ρ c,
    show V1 m ρ c (Pipeline.arrRef spec0 2) = A14 m c from arg14_at1 m ρ c]
  exact eq_mat _ _ fun r o => linear0_apply _ _ r o

/-- Launch 1: the `U` features times the `R` edges' left weight. -/
theorem Yr1 : (W3 m ρ c (Proc.devRef .tc main_v28) : S50000x16.Idx → EReal) = mat (mm0 (I m c).xu (I m c).W1r_l) := by
  refine ((W3_arr m ρ c 2).trans (final1_2 (V2 m ρ) c)).trans ?_
  rw [show V2 m ρ c (Pipeline.arrRef spec1 0) = A1 m c from arg1_at2 m ρ c,
    show V2 m ρ c (Pipeline.arrRef spec1 1) = A11 m c from arg11_at2 m ρ c]
  exact eq_mat _ _ fun r o => linear1_apply _ _ r o

/-- The `V` edges' aggregate of layer 1. -/
theorem aggV1 : (W4 m ρ c (Proc.devRef .tc main_v40) : S50000x16.Idx → EReal)
    = mat (kerAgg (I m c).landV (I m c).rowV (I m c).xp (I m c).W1v_l) := by
  refine eq_mat _ _ fun d o => ?_
  xport
  refine (aggV_read _ _ _ _ d o).trans ?_
  unfold kerAgg
  refine congrArg₂ (· * ·) ?_ (inv_read_50000 _ d)
  refine congrArg (fun U => segSum _ U d o) (funext fun e => funext fun o' => ?_)
  exact congrFun (Yv1 m ρ c) _

/-- The `R` edges' aggregate of layer 1. -/
theorem aggR1 : (W6 m ρ c (Proc.devRef .tc main_v52) : S200000x16.Idx → EReal)
    = mat (kerAgg (I m c).landR (I m c).rowR (I m c).xu (I m c).W1r_l) := by
  refine eq_mat _ _ fun d o => ?_
  xport
  refine (aggR_read _ _ _ _ d o).trans ?_
  unfold kerAgg
  refine congrArg₂ (· * ·) ?_ (inv_read_200000 _ d)
  refine congrArg (fun U => segSum _ U d o) (funext fun e => funext fun o' => ?_)
  exact congrFun (Yr1 m ρ c) _

/-- The `C` edges' aggregate of layer 1. -/
theorem aggC1 : (W6 m ρ c (Proc.devRef .tc main_v64) : S200000x16.Idx → EReal)
    = mat (kerAgg (I m c).landC (I m c).rowC (I m c).xp (I m c).W1c_l) := by
  refine eq_mat _ _ fun d o => ?_
  xport
  refine (aggC_read _ _ _ _ d o).trans ?_
  unfold kerAgg
  refine congrArg₂ (· * ·) ?_ (inv_read_200000 _ d)
  refine congrArg (fun U => segSum _ U d o) (funext fun e => funext fun o' => ?_)
  exact congrFun (Yc1 m ρ c) _

/-- The `V` edges' bias of layer 1 as launch 2 finds it: a row. -/
theorem bias1v : (W4 m ρ c (Proc.devRef .tc main_v65) : S1x16.Idx → EReal) = rowVec (A10 m c) := by
  refine eq_rowVec _ _ fun o => ?_
  xport
  exact biasRow_apply _ o

/-- Launch 2: the `U` nodes after layer 1. -/
theorem U1 : (W5 m ρ c (Proc.devRef .tc main_v66) : S50000x16.Idx → EReal) = mat (I m c).kerU1 := by
  refine eq_mat _ _ fun r o => ?_
  refine ((congrFun (W5_arr m ρ c 4) (ix2 r o)).trans
    (arr2_4_of (V4 m ρ) c _ _ _ _ (aggV1 m ρ c) (arg1_at4 m ρ c) (arg9_at4 m ρ c) (bias1v m ρ c) r o)).trans ?_
  rfl

/-- The two right weights of the `P` nodes, added. -/
theorem wr1 : (W6 m ρ c (Proc.devRef .tc main_v67) : S64x16.Idx → EReal) = fun i => A12 m c i + A15 m c i := by
  xport
  rfl

/-- The two biases of the `P` nodes, added, as a row. -/
theorem bias1p : (W6 m ρ c (Proc.devRef .tc main_v69) : S1x16.Idx → EReal)
    = rowVec (fun j => A13 m c j + A16 m c j) := by
  refine eq_rowVec _ _ fun o => ?_
  xport
  exact biasRow_apply _ o

/-- Launch 3: the `P` nodes after layer 1. -/
theorem P1 : (W7 m ρ c (Proc.devRef .tc main_v70) : S200000x16.Idx → EReal) = mat (I m c).kerP1 := by
  refine eq_mat _ _ fun r o => ?_
  refine ((congrFun (W7_arr m ρ c 5) (ix2 r o)).trans
    (arr3_5_of (V6 m ρ) c _ _ _ _ _ (aggR1 m ρ c) (aggC1 m ρ c) (arg0_at6 m ρ c) (wr1 m ρ c) (bias1p m ρ c) r o)).trans ?_
  rfl

/-! ## Layer 2: the same launches and host chains, fed by layer 1's outputs -/

/-- Launch 4, first output: the `P` nodes after layer 1 times the `V` edges' left weight. -/
theorem Yv2 : (W8 m ρ c (Proc.devRef .tc main_v71_0) : S200000x16.Idx → EReal) = mat (mm0 (I m c).kerP1 (I m c).W2v_l) := by
  refine ((W8_arr m ρ c 3).trans (final4_3 (V7 m ρ) c)).trans ?_
  rw [show V7 m ρ c (Pipeline.arrRef spec4 0) = mat (I m c).kerP1 from P1 m ρ c,
    show V7 m ρ c (Pipeline.arrRef spec4 1) = A17 m c from arg17_at7 m ρ c]
  exact eq_mat _ _ fun r o => linear4_apply _ _ r o

/-- Launch 4, second output: the `P` nodes after layer 1 times the `C` edges' left weight. -/
theorem Yc2 : (W8 m ρ c (Proc.devRef .tc main_v71_1) : S200000x16.Idx → EReal) = mat (mm0 (I m c).kerP1 (I m c).W2c_l) := by
  refine ((W8_arr m ρ c 4).trans (final4_4 (V7 m ρ) c)).trans ?_
  rw [show V7 m ρ c (Pipeline.arrRef spec4 0) = mat (I m c).kerP1 from P1 m ρ c,
    show V7 m ρ c (Pipeline.arrRef spec4 2) = A23 m c from arg23_at7 m ρ c]
  exact eq_mat _ _ fun r o => linear4_apply _ _ r o

/-- The `U` nodes after layer 1, as launch 5 finds them. -/
theorem U1_at8 : (W8 m ρ c (Proc.devRef .tc main_v66) : S50000x16.Idx → EReal) = mat (I m c).kerU1 := by
  xport
  exact U1 m ρ c

/-- Launch 5: the `U` nodes after layer 1 times the `R` edges' left weight. -/
theorem Yr2 : (W9 m ρ c (Proc.devRef .tc main_v72) : S50000x16.Idx → EReal) = mat (mm0 (I m c).kerU1 (I m c).W2r_l) := by
  refine ((W9_arr m ρ c 2).trans (final5_2 (V8 m ρ) c)).trans ?_
  rw [show V8 m ρ c (Pipeline.arrRef spec5 0) = mat (I m c).kerU1 from U1_at8 m ρ c,
    show V8 m ρ c (Pipeline.arrRef spec5 1) = A20 m c from arg20_at8 m ρ c]
  exact eq_mat _ _ fun r o => linear5_apply _ _ r o

set_option maxHeartbeats 4000000 in
/-- The V edges' aggregate of layer 2. -/
theorem aggV2 : (W10 m ρ c (Proc.devRef .tc main_v84) : S50000x16.Idx → EReal)
    = mat (kerAgg (I m c).landV (I m c).rowV (I m c).kerP1 (I m c).W2v_l) := by
  refine eq_mat _ _ fun d o => ?_
  xport
  refine (aggV_read _ _ _ _ d o).trans ?_
  unfold kerAgg
  refine congrArg₂ (· * ·) ?_ (inv_read_50000 _ d)
  refine congrArg (fun U => segSum _ U d o) (funext fun e => funext fun o' => ?_)
  exact congrFun (Yv2 m ρ c) _

set_option maxHeartbeats 4000000 in
/-- The R edges' aggregate of layer 2. -/
theorem aggR2 : (W12 m ρ c (Proc.devRef .tc main_v96) : S200000x16.Idx → EReal)
    = mat (kerAgg (I m c).landR (I m c).rowR (I m c).kerU1 (I m c).W2r_l) := by
  refine eq_mat _ _ fun d o => ?_
  xport
  refine (aggR_read _ _ _ _ d o).trans ?_
  unfold kerAgg
  refine congrArg₂ (· * ·) ?_ (inv_read_200000 _ d)
  refine congrArg (fun U => segSum _ U d o) (funext fun e => funext fun o' => ?_)
  exact congrFun (Yr2 m ρ c) _

set_option maxHeartbeats 4000000 in
/-- The C edges' aggregate of layer 2. -/
theorem aggC2 : (W12 m ρ c (Proc.devRef .tc main_v108) : S200000x16.Idx → EReal)
    = mat (kerAgg (I m c).landC (I m c).rowC (I m c).kerP1 (I m c).W2c_l) := by
  refine eq_mat _ _ fun d o => ?_
  xport
  refine (aggC_read _ _ _ _ d o).trans ?_
  unfold kerAgg
  refine congrArg₂ (· * ·) ?_ (inv_read_200000 _ d)
  refine congrArg (fun U => segSum _ U d o) (funext fun e => funext fun o' => ?_)
  exact congrFun (Yc2 m ρ c) _

/-- The `V` edges' bias of layer 2, as a row. -/
theorem bias2v : (W10 m ρ c (Proc.devRef .tc main_v109) : S1x16.Idx → EReal) = rowVec (A19 m c) := by
  refine eq_rowVec _ _ fun o => ?_
  xport
  exact biasRow_apply _ o

/-- The `U` nodes after layer 1, as launch 6 finds them. -/
theorem U1_at10 : (W10 m ρ c (Proc.devRef .tc main_v66) : S50000x16.Idx → EReal) = mat (I m c).kerU1 := by
  xport
  exact U1 m ρ c

/-- Launch 6: the `U` nodes after layer 2. -/
theorem U2 : (W11 m ρ c (Proc.devRef .tc main_v110) : S50000x16.Idx → EReal) = mat (I m c).kerU2 := by
  refine eq_mat _ _ fun r o => ?_
  refine ((congrFun (W11_arr m ρ c 4) (ix2 r o)).trans
    (arr6_4_of (V10 m ρ) c _ _ _ _ (aggV2 m ρ c) (U1_at10 m ρ c) (arg18_at10 m ρ c) (bias2v m ρ c) r o)).trans ?_
  rfl

/-- The two right weights of the `P` nodes in layer 2, added. -/
theorem wr2 : (W12 m ρ c (Proc.devRef .tc main_v111) : S16x16.Idx → EReal) = fun i => A21 m c i + A24 m c i := by
  xport
  rfl

/-- The two biases of the `P` nodes in layer 2, added, as a row. -/
theorem bias2p : (W12 m ρ c (Proc.devRef .tc main_v113) : S1x16.Idx → EReal)
    = rowVec (fun j => A22 m c j + A25 m c j) := by
  refine eq_rowVec _ _ fun o => ?_
  xport
  exact biasRow_apply _ o

/-- The `P` nodes after layer 1, as launch 7 finds them. -/
theorem P1_at12 : (W12 m ρ c (Proc.devRef .tc main_v70) : S200000x16.Idx → EReal) = mat (I m c).kerP1 := by
  xport
  exact P1 m ρ c

/-- Launch 7: the `P` nodes after layer 2, the program's first result. -/
theorem P2 : (W13 m ρ c (Proc.devRef .tc main_v114) : S200000x16.Idx → EReal) = mat (I m c).kerP2 := by
  refine eq_mat _ _ fun r o => ?_
  refine ((congrFun (W13_arr m ρ c 5) (ix2 r o)).trans
    (arr7_5_of (V12 m ρ) c _ _ _ _ _ (aggR2 m ρ c) (aggC2 m ρ c) (P1_at12 m ρ c) (wr2 m ρ c) (bias2p m ρ c) r o)).trans ?_
  rfl

/-- The program's second result: the `U` nodes after layer 2, still there when the run ends. -/
theorem U2_final : (W13 m ρ c (Proc.devRef .tc main_v110) : S50000x16.Idx → EReal) = mat (I m c).kerU2 := by
  xport
  exact U2 m ρ c

end Cert.KernelIdeal.KerValue

end
-- ==== Proof.RefValueA.lean ====
import proofs.«106252_j16209206575619_2_alg».proof.Proof.Gen.ReferenceIdeal
import proofs.«106252_j16209206575619_2_alg».proof.Proof.Spec
import proofs.«106252_j16209206575619_2_alg».proof.Proof.LibRowOps
import Idealize.ShloMosaic.Lib.Pipeline.Value
import Idealize.ShloMosaic.Lib.ValueIdx

/-!
# Edge arrays, segment sums and edge counts, read at an index

An edge array `x : [E]` (here `E = 2000000`) reaches a gather or a scatter as the column `[E, 1]` whose entry
`(e, 0)` is `x e`. Read through that column, the landing node of a scatter is `landOf`, and the row a gather reads
from the normalized source array (`x + n` for a negative `x`) is `rowOf`. With these, a scatter-add of gathered rows
into a zero table is the segment sum `segSum`, and a scatter-add of ones into a zero column is the count `segCnt`.
-/

noncomputable section

open scoped BigOperators

namespace Cert.ReferenceIdeal.RefValue

open Cert.ReferenceIdeal Cert.ReferenceIdeal.Gen Idealize.ShloMosaic Idealize.ShloMosaic.StableHlo Idealize.ShloMosaic.ValueIdx
open Idealize.ShloMosaic.RowOps Cert.Sage

/-- The column `[E, 1]` of an edge array `[E]`. -/
local notation "col" => broadcastInDim S2000000x1 ![0] bcast_S2000000_S2000000x1_0

/-- Entry `(e, 0)` of the column of `x` is `x e`. -/
theorem col_apply {α : Type} (x : S2000000.Idx → α) (e : Fin 2000000) : col x (ix2 e 0) = x (ix1 e) :=
  broadcastInDim_apply _ bcast_S2000000_S2000000x1_0 x (ix2 e 0) (ix1 e) (fun a => match a with
    | ⟨0, _⟩ => by show e.val = if (2000000 : Nat) = 1 then 0 else e.val; rw [if_neg (by decide)])

/-- The node an edge lands on, read through the column of the destination array. -/
theorem land_col (n : Nat) (x : IVec S2000000 32) : land n (col x) = landOf n x := by
  funext e
  have key : ∀ (idx : IVec S2000000x1 32) (v : BitVec 32), idx (ix2 e 0) = v →
      land n idx e = if h : 0 ≤ v.toInt ∧ v.toInt < n then some ⟨v.toInt.toNat, by omega⟩ else none := by
    intro idx v h; subst h; rfl
  exact key _ _ (col_apply x e)

/-- The row an edge reads, through the column of the normalized source array. -/
theorem clampRow_col (n : Nat) (hn : 0 < n) (x s : IVec S2000000 32)
    (hx : ∀ e, x (ix1 e) = wrapIdx (BitVec.ofNat 32 n) (s (ix1 e))) (e : Fin 2000000) :
    clampRow n hn (col x) e = rowOf n hn s e := by
  refine Fin.ext ?_
  show min ((col x) (ix2 e 0)).toInt.toNat (n - 1) = min (wrapIdx (BitVec.ofNat 32 n) (s (ix1 e))).toInt.toNat (n - 1)
  rw [col_apply, hx]

/-- A scatter-add, into a zero table, of the rows a gather reads from `X` is the segment sum of those rows. -/
theorem segSum_read {n F m : Nat} (hm : 0 < m)
    (swf : ScatterDims.WF ⟨2, ![n, F]⟩ ⟨2, ![2000000, 1]⟩ ⟨2, ![2000000, F]⟩ [1] [0] [0] 1)
    (gwf : GatherDims.WF ⟨2, ![m, F]⟩ ⟨2, ![2000000, 1]⟩ ⟨2, ![2000000, F]⟩ [1] [0] [] [0] [] 1 ![1, F])
    (z : FVec Ideal ⟨2, ![n, F]⟩ .f32) (hz : ∀ i, z i = 0)
    (X : FVec Ideal ⟨2, ![m, F]⟩ .f32) (X' : Fin m → Fin F → EReal) (hX : ∀ i j, X (ix2 i j) = X' i j)
    (src s dst : IVec S2000000 32) (hsrc : ∀ e, src (ix1 e) = wrapIdx (BitVec.ofNat 32 m) (s (ix1 e)))
    (d : Fin n) (k : Fin F) :
    Host.scatterAdd (F := Ideal) (rowScatterDims n F 2000000 swf) z (col dst)
        (Host.gather (rowGatherDims m F 2000000 gwf) X (col src)) (ix2 d k)
      = segSum (landOf n dst) (fun e f => X' (rowOf m hm s e) f) d k := by
  have h0 := rowScatterAdd_host_apply swf z (col dst) (Host.gather (rowGatherDims m F 2000000 gwf) X (col src)) d k
  rw [h0, hz, land_col]
  unfold segSum
  refine congrArg _ (Finset.sum_congr rfl fun e _ => ?_)
  rw [rowGather_apply hm gwf X (col src) e k, clampRow_col m hm src s hsrc, hX]

/-- A scatter-add of ones into a zero column counts the edges landing on each node. -/
theorem segCnt_read {n : Nat}
    (swf : ScatterDims.WF ⟨2, ![n, 1]⟩ ⟨2, ![2000000, 1]⟩ ⟨2, ![2000000, 1]⟩ [1] [0] [0] 1)
    (z : FVec Ideal ⟨2, ![n, 1]⟩ .f32) (hz : ∀ i, z i = 0)
    (u : FVec Ideal ⟨2, ![2000000, 1]⟩ .f32) (hu : ∀ i, u i = 1)
    (dst : IVec S2000000 32) (d : Fin n) :
    Host.scatterAdd (F := Ideal) (rowScatterDims n 1 2000000 swf) z (col dst) u (ix2 d 0)
      = segCnt (landOf n dst) d := by
  rw [rowScatterAdd_host_apply, hz, land_col]
  unfold segCnt
  refine congrArg _ (Finset.sum_congr rfl fun e _ => ?_)
  rw [hu]

end Cert.ReferenceIdeal.RefValue

end
-- ==== Proof.RefValue.lean ====
import proofs.«106252_j16209206575619_2_alg».proof.Proof.Gen.ReferenceIdeal.Read
import proofs.«106252_j16209206575619_2_alg».proof.Proof.Spec
import proofs.«106252_j16209206575619_2_alg».proof.Proof.LibRowOps
import proofs.«106252_j16209206575619_2_alg».proof.Proof.RefValueA

/-!
# The reference program computes the two-layer network of the specification

Each of the six convolutions of the reference is read index by index: the scatter-add of the gathered source rows
is the segment sum, the scatter-add of ones is the edge count, the quotient by the floored count is multiplied by
the left weights, and the bias and the dense term of the destination's own features are added: this is `refConv`.
A layer adds the convolutions arriving at a node type and takes the maximum with zero. The second layer is the
same statement about the first layer's outputs, which enter only through their values at an index.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.RowOps Cert.Sage

variable (x0 : (⟨S200000x64, .f32⟩ : BufTy).Contents (Elt Ideal)) (x1 : (⟨S50000x32, .f32⟩ : BufTy).Contents (Elt Ideal))
  (x2 x3 x4 x5 x6 x7 : (⟨S2000000, .i32⟩ : BufTy).Contents (Elt Ideal))
  (x8 : (⟨S64x16, .f32⟩ : BufTy).Contents (Elt Ideal)) (x9 : (⟨S32x16, .f32⟩ : BufTy).Contents (Elt Ideal))
  (x10 : (⟨S16, .f32⟩ : BufTy).Contents (Elt Ideal))
  (x11 : (⟨S32x16, .f32⟩ : BufTy).Contents (Elt Ideal)) (x12 : (⟨S64x16, .f32⟩ : BufTy).Contents (Elt Ideal))
  (x13 : (⟨S16, .f32⟩ : BufTy).Contents (Elt Ideal))
  (x14 x15 : (⟨S64x16, .f32⟩ : BufTy).Contents (Elt Ideal)) (x16 : (⟨S16, .f32⟩ : BufTy).Contents (Elt Ideal))
  (x17 x18 : (⟨S16x16, .f32⟩ : BufTy).Contents (Elt Ideal)) (x19 : (⟨S16, .f32⟩ : BufTy).Contents (Elt Ideal))
  (x20 x21 : (⟨S16x16, .f32⟩ : BufTy).Contents (Elt Ideal)) (x22 : (⟨S16, .f32⟩ : BufTy).Contents (Elt Ideal))
  (x23 x24 : (⟨S16x16, .f32⟩ : BufTy).Contents (Elt Ideal)) (x25 : (⟨S16, .f32⟩ : BufTy).Contents (Elt Ideal))

/-! ## Layer 1, edges `V : P → U` (source features `x0`, destination features `x1`) -/

theorem wrap_v4 (e : Fin 2000000) :
    val_main_v4 (F := Ideal) x2 (ix1 e) = wrapIdx (BitVec.ofNat 32 200000) (x2 (ix1 e)) := by
  rw [val_main_v4_apply, val_main_v1_apply, val_main_v3_apply, val_main_v0_apply, val_main_v2_apply,
    val_main_c_apply, val_main_c_0_apply]
  rfl

theorem sum_v9 (d : Fin 50000) (k : Fin 64) :
    val_main_v9 (F := Ideal) x0 x2 x3 (ix2 d k)
      = segSum (landOf 50000 x3) (fun e f => x0 (ix2 (rowOf 200000 (by decide) x2 e) f)) d k := by
  unfold val_main_v9 val_main_v6 val_main_v8 val_main_v5
  exact segSum_read (n := 50000) (F := 64) (m := 200000) (by decide)
    Gen.scatter_S50000x64_S2000000x1_S2000000x64_1_0_0_1_wf Gen.gather_S200000x64_S2000000x1_S2000000x64_1_0_n_n_0_1_164_wf
    (val_main_v7 (F := Ideal)) (fun i => by rw [val_main_v7_apply, val_main_cst_apply, Ideal.ofBits_def, ofBits_zero])
    x0 (fun i j => x0 (ix2 i j)) (fun _ _ => rfl) (val_main_v4 (F := Ideal) x2) x2 x3 (wrap_v4 x2) d k

theorem cnt_v13 (d : Fin 50000) :
    val_main_v13 (F := Ideal) x3 (ix2 d 0) = segCnt (landOf 50000 x3) d := by
  unfold val_main_v13 val_main_v12
  exact segCnt_read (n := 50000) Gen.scatter_S50000x1_S2000000x1_S2000000x1_1_0_0_1_wf
    (val_main_v11 (F := Ideal)) (fun i => by rw [val_main_v11_apply, val_main_cst_2_apply, Ideal.ofBits_def, ofBits_zero])
    (val_main_v10 (F := Ideal)) (fun i => by rw [val_main_v10_apply, val_main_cst_1_apply, Ideal.ofBits_def, ofBits_one])
    x3 d

theorem conv_v23 (d : Fin 50000) (o : Fin 16) :
    val_main_v23 (F := Ideal) x0 x1 x2 x3 x8 x9 x10 (ix2 d o)
      = refConv (landOf 50000 x3) (rowOf 200000 (by decide) x2) (fun i j => x0 (ix2 i j)) (fun i j => x1 (ix2 i j))
          (fun i j => x8 (ix2 i j)) (fun j => x10 (ix1 j)) (fun i j => x9 (ix2 i j)) d o := by
  have e18l : ∀ k, lidx_main_v18 (ix2 d o) k = ix2 d k := fun k => funext fun a => by
    match a with | ⟨0, _⟩ => rfl | ⟨1, _⟩ => rfl
  have e18r : ∀ k, ridx_main_v18 (ix2 d o) k = ix2 k o := fun k => funext fun a => by
    match a with | ⟨0, _⟩ => rfl | ⟨1, _⟩ => rfl
  have e16 : ∀ k : Fin 64, idx_main_v16 (ix2 d k) = ix2 d 0 := fun k => funext fun a => by
    match a with | ⟨0, _⟩ => rfl | ⟨1, _⟩ => rfl
  have e20 : idx_main_v19 (idx_main_v20 (ix2 d o)) = ix1 o := funext fun a => by
    match a with | ⟨0, _⟩ => rfl
  have e22l : ∀ k, lidx_main_v22 (ix2 d o) k = ix2 d k := fun k => funext fun a => by
    match a with | ⟨0, _⟩ => rfl | ⟨1, _⟩ => rfl
  have e22r : ∀ k, ridx_main_v22 (ix2 d o) k = ix2 k o := fun k => funext fun a => by
    match a with | ⟨0, _⟩ => rfl | ⟨1, _⟩ => rfl
  rw [val_main_v23_apply, val_main_v21_apply, val_main_v18_apply, val_main_v20_apply, val_main_v19_apply,
    val_main_v22_apply, e20, Ideal.addf_def, Ideal.addf_def]
  unfold refConv
  refine congrArg₂ (· + ·) (congrArg₂ (· + ·) (Finset.sum_congr rfl fun k _ => ?_) rfl) (Finset.sum_congr rfl fun k _ => ?_)
  · rw [e18l, e18r, val_main_v17_apply, val_main_v16_apply, e16, val_main_v15_apply, val_main_v14_apply,
      val_main_cst_3_apply, sum_v9, cnt_v13, Ideal.ofBits_def, ofBits_one, Ideal.hostDivf_def, Ideal.maximumf_def]
  · rw [e22l, e22r]

/-! ## Layer 1, edges `R : U → P` (source features `x1`, destination features `x0`) -/

theorem wrap_v28 (e : Fin 2000000) :
    val_main_v28 (F := Ideal) x4 (ix1 e) = wrapIdx (BitVec.ofNat 32 50000) (x4 (ix1 e)) := by
  rw [val_main_v28_apply, val_main_v25_apply, val_main_v27_apply, val_main_v24_apply, val_main_v26_apply,
    val_main_c_4_apply, val_main_c_5_apply]
  rfl

theorem sum_v33 (d : Fin 200000) (k : Fin 32) :
    val_main_v33 (F := Ideal) x1 x4 x5 (ix2 d k)
      = segSum (landOf 200000 x5) (fun e f => x1 (ix2 (rowOf 50000 (by decide) x4 e) f)) d k := by
  unfold val_main_v33 val_main_v30 val_main_v32 val_main_v29
  exact segSum_read (n := 200000) (F := 32) (m := 50000) (by decide)
    Gen.scatter_S200000x32_S2000000x1_S2000000x32_1_0_0_1_wf Gen.gather_S50000x32_S2000000x1_S2000000x32_1_0_n_n_0_1_132_wf
    (val_main_v31 (F := Ideal)) (fun i => by rw [val_main_v31_apply, val_main_cst_6_apply, Ideal.ofBits_def, ofBits_zero])
    x1 (fun i j => x1 (ix2 i j)) (fun _ _ => rfl) (val_main_v28 (F := Ideal) x4) x4 x5 (wrap_v28 x4) d k

theorem cnt_v37 (d : Fin 200000) :
    val_main_v37 (F := Ideal) x5 (ix2 d 0) = segCnt (landOf 200000 x5) d := by
  unfold val_main_v37 val_main_v36
  exact segCnt_read (n := 200000) Gen.scatter_S200000x1_S2000000x1_S2000000x1_1_0_0_1_wf
    (val_main_v35 (F := Ideal)) (fun i => by rw [val_main_v35_apply, val_main_cst_8_apply, Ideal.ofBits_def, ofBits_zero])
    (val_main_v34 (F := Ideal)) (fun i => by rw [val_main_v34_apply, val_main_cst_7_apply, Ideal.ofBits_def, ofBits_one])
    x5 d

theorem conv_v47 (d : Fin 200000) (o : Fin 16) :
    val_main_v47 (F := Ideal) x0 x1 x4 x5 x11 x12 x13 (ix2 d o)
      = refConv (landOf 200000 x5) (rowOf 50000 (by decide) x4) (fun i j => x1 (ix2 i j)) (fun i j => x0 (ix2 i j))
          (fun i j => x11 (ix2 i j)) (fun j => x13 (ix1 j)) (fun i j => x12 (ix2 i j)) d o := by
  have el : ∀ k, lidx_main_v42 (ix2 d o) k = ix2 d k := fun k => funext fun a => by
    match a with | ⟨0, _⟩ => rfl | ⟨1, _⟩ => rfl
  have er : ∀ k, ridx_main_v42 (ix2 d o) k = ix2 k o := fun k => funext fun a => by
    match a with | ⟨0, _⟩ => rfl | ⟨1, _⟩ => rfl
  have ec : ∀ k : Fin 32, idx_main_v40 (ix2 d k) = ix2 d 0 := fun k => funext fun a => by
    match a with | ⟨0, _⟩ => rfl | ⟨1, _⟩ => rfl
  have eb : idx_main_v43 (idx_main_v44 (ix2 d o)) = ix1 o := funext fun a => by
    match a with | ⟨0, _⟩ => rfl
  have el' : ∀ k, lidx_main_v46 (ix2 d o) k = ix2 d k := fun k => funext fun a => by
    match a with | ⟨0, _⟩ => rfl | ⟨1, _⟩ => rfl
  have er' : ∀ k, ridx_main_v46 (ix2 d o) k = ix2 k o := fun k => funext fun a => by
    match a with | ⟨0, _⟩ => rfl | ⟨1, _⟩ => rfl
  rw [val_main_v47_apply, val_main_v45_apply, val_main_v42_apply, val_main_v44_apply, val_main_v43_apply,
    val_main_v46_apply, eb, Ideal.addf_def, Ideal.addf_def]
  unfold refConv
  refine congrArg₂ (· + ·) (congrArg₂ (· + ·) (Finset.sum_congr rfl fun k _ => ?_) rfl) (Finset.sum_congr rfl fun k _ => ?_)
  · rw [el, er, val_main_v41_apply, val_main_v40_apply, ec, val_main_v39_apply, val_main_v38_apply,
      val_main_cst_9_apply, sum_v33, cnt_v37, Ideal.ofBits_def, ofBits_one, Ideal.hostDivf_def, Ideal.maximumf_def]
  · rw [el', er']

/-! ## Layer 1, edges `C : P → P` (source and destination features `x0`) -/

theorem wrap_v52 (e : Fin 2000000) :
    val_main_v52 (F := Ideal) x6 (ix1 e) = wrapIdx (BitVec.ofNat 32 200000) (x6 (ix1 e)) := by
  rw [val_main_v52_apply, val_main_v49_apply, val_main_v51_apply, val_main_v48_apply, val_main_v50_apply,
    val_main_c_10_apply, val_main_c_11_apply]
  rfl

theorem sum_v57 (d : Fin 200000) (k : Fin 64) :
    val_main_v57 (F := Ideal) x0 x6 x7 (ix2 d k)
      = segSum (landOf 200000 x7) (fun e f => x0 (ix2 (rowOf 200000 (by decide) x6 e) f)) d k := by
  unfold val_main_v57 val_main_v54 val_main_v56 val_main_v53
  exact segSum_read (n := 200000) (F := 64) (m := 200000) (by decide)
    Gen.scatter_S200000x64_S2000000x1_S2000000x64_1_0_0_1_wf Gen.gather_S200000x64_S2000000x1_S2000000x64_1_0_n_n_0_1_164_wf
    (val_main_v55 (F := Ideal)) (fun i => by rw [val_main_v55_apply, val_main_cst_12_apply, Ideal.ofBits_def, ofBits_zero])
    x0 (fun i j => x0 (ix2 i j)) (fun _ _ => rfl) (val_main_v52 (F := Ideal) x6) x6 x7 (wrap_v52 x6) d k

theorem cnt_v61 (d : Fin 200000) :
    val_main_v61 (F := Ideal) x7 (ix2 d 0) = segCnt (landOf 200000 x7) d := by
  unfold val_main_v61 val_main_v60
  exact segCnt_read (n := 200000) Gen.scatter_S200000x1_S2000000x1_S2000000x1_1_0_0_1_wf
    (val_main_v59 (F := Ideal)) (fun i => by rw [val_main_v59_apply, val_main_cst_14_apply, Ideal.ofBits_def, ofBits_zero])
    (val_main_v58 (F := Ideal)) (fun i => by rw [val_main_v58_apply, val_main_cst_13_apply, Ideal.ofBits_def, ofBits_one])
    x7 d

theorem conv_v71 (d : Fin 200000) (o : Fin 16) :
    val_main_v71 (F := Ideal) x0 x6 x7 x14 x15 x16 (ix2 d o)
      = refConv (landOf 200000 x7) (rowOf 200000 (by decide) x6) (fun i j => x0 (ix2 i j)) (fun i j => x0 (ix2 i j))
          (fun i j => x14 (ix2 i j)) (fun j => x16 (ix1 j)) (fun i j => x15 (ix2 i j)) d o := by
  have el : ∀ k, lidx_main_v66 (ix2 d o) k = ix2 d k := fun k => funext fun a => by
    match a with | ⟨0, _⟩ => rfl | ⟨1, _⟩ => rfl
  have er : ∀ k, ridx_main_v66 (ix2 d o) k = ix2 k o := fun k => funext fun a => by
    match a with | ⟨0, _⟩ => rfl | ⟨1, _⟩ => rfl
  have ec : ∀ k : Fin 64, idx_main_v64 (ix2 d k) = ix2 d 0 := fun k => funext fun a => by
    match a with | ⟨0, _⟩ => rfl | ⟨1, _⟩ => rfl
  have eb : idx_main_v67 (idx_main_v68 (ix2 d o)) = ix1 o := funext fun a => by
    match a with | ⟨0, _⟩ => rfl
  have el' : ∀ k, lidx_main_v70 (ix2 d o) k = ix2 d k := fun k => funext fun a => by
    match a with | ⟨0, _⟩ => rfl | ⟨1, _⟩ => rfl
  have er' : ∀ k, ridx_main_v70 (ix2 d o) k = ix2 k o := fun k => funext fun a => by
    match a with | ⟨0, _⟩ => rfl | ⟨1, _⟩ => rfl
  rw [val_main_v71_apply, val_main_v69_apply, val_main_v66_apply, val_main_v68_apply, val_main_v67_apply,
    val_main_v70_apply, eb, Ideal.addf_def, Ideal.addf_def]
  unfold refConv
  refine congrArg₂ (· + ·) (congrArg₂ (· + ·) (Finset.sum_congr rfl fun k _ => ?_) rfl) (Finset.sum_congr rfl fun k _ => ?_)
  · rw [el, er, val_main_v65_apply, val_main_v64_apply, ec, val_main_v63_apply, val_main_v62_apply,
      val_main_cst_15_apply, sum_v57, cnt_v61, Ideal.ofBits_def, ofBits_one, Ideal.hostDivf_def, Ideal.maximumf_def]
  · rw [el', er']

/-! ## Layer 1: the two node types' outputs -/

/-- The network the 26 arguments describe. -/
local notation "NET" => netOf x0 x1 x2 x3 x4 x5 x6 x7 x8 x9 x10 x11 x12 x13 x14 x15 x16 x17 x18 x19 x20 x21 x22 x23 x24 x25

/-- The `U` nodes after the first layer. -/
theorem U1_net (d : Fin 50000) (o : Fin 16) :
    val_main_v74 (F := Ideal) x0 x1 x2 x3 x8 x9 x10 (ix2 d o) = (NET).refU1 d o := by
  rw [val_main_v74_apply, val_main_call1_v0_apply, val_main_call1_cst_apply, conv_v23, Ideal.ofBits_def, ofBits_zero,
    Ideal.maximumf_def]
  rfl

/-- The `P` nodes after the first layer. -/
theorem P1_net (d : Fin 200000) (o : Fin 16) :
    val_main_v73 (F := Ideal) x0 x1 x4 x5 x6 x7 x11 x12 x13 x14 x15 x16 (ix2 d o) = (NET).refP1 d o := by
  rw [val_main_v73_apply, val_main_call0_v0_apply, val_main_call0_cst_apply, val_main_v72_apply, conv_v47, conv_v71,
    Ideal.ofBits_def, ofBits_zero, Ideal.maximumf_def, Ideal.addf_def]
  rfl

/-! ## Layer 2, edges `V : P → U`

The first layer's outputs enter through their values at an index: `XP` for the `P` nodes, `XU` for the `U` nodes. -/

theorem wrap_v79 (e : Fin 2000000) :
    val_main_v79 (F := Ideal) x2 (ix1 e) = wrapIdx (BitVec.ofNat 32 200000) (x2 (ix1 e)) := by
  rw [val_main_v79_apply, val_main_v76_apply, val_main_v78_apply, val_main_v75_apply, val_main_v77_apply,
    val_main_c_16_apply, val_main_c_17_apply]
  rfl

theorem sum_v84 (XP : Fin 200000 → Fin 16 → EReal)
    (hP : ∀ i j, val_main_v73 (F := Ideal) x0 x1 x4 x5 x6 x7 x11 x12 x13 x14 x15 x16 (ix2 i j) = XP i j)
    (d : Fin 50000) (k : Fin 16) :
    val_main_v84 (F := Ideal) x0 x1 x2 x3 x4 x5 x6 x7 x11 x12 x13 x14 x15 x16 (ix2 d k)
      = segSum (landOf 50000 x3) (fun e f => XP (rowOf 200000 (by decide) x2 e) f) d k := by
  unfold val_main_v84 val_main_v81 val_main_v83 val_main_v80
  exact segSum_read (n := 50000) (F := 16) (m := 200000) (by decide)
    Gen.scatter_S50000x16_S2000000x1_S2000000x16_1_0_0_1_wf Gen.gather_S200000x16_S2000000x1_S2000000x16_1_0_n_n_0_1_116_wf
    (val_main_v82 (F := Ideal)) (fun i => by rw [val_main_v82_apply, val_main_cst_18_apply, Ideal.ofBits_def, ofBits_zero])
    (val_main_v73 (F := Ideal) x0 x1 x4 x5 x6 x7 x11 x12 x13 x14 x15 x16) XP hP
    (val_main_v79 (F := Ideal) x2) x2 x3 (wrap_v79 x2) d k

theorem cnt_v88 (d : Fin 50000) :
    val_main_v88 (F := Ideal) x3 (ix2 d 0) = segCnt (landOf 50000 x3) d := by
  unfold val_main_v88 val_main_v87
  exact segCnt_read (n := 50000) Gen.scatter_S50000x1_S2000000x1_S2000000x1_1_0_0_1_wf
    (val_main_v86 (F := Ideal)) (fun i => by rw [val_main_v86_apply, val_main_cst_20_apply, Ideal.ofBits_def, ofBits_zero])
    (val_main_v85 (F := Ideal)) (fun i => by rw [val_main_v85_apply, val_main_cst_19_apply, Ideal.ofBits_def, ofBits_one])
    x3 d

theorem conv_v98 (XP : Fin 200000 → Fin 16 → EReal) (XU : Fin 50000 → Fin 16 → EReal)
    (hP : ∀ i j, val_main_v73 (F := Ideal) x0 x1 x4 x5 x6 x7 x11 x12 x13 x14 x15 x16 (ix2 i j) = XP i j)
    (hU : ∀ i j, val_main_v74 (F := Ideal) x0 x1 x2 x3 x8 x9 x10 (ix2 i j) = XU i j)
    (d : Fin 50000) (o : Fin 16) :
    val_main_v98 (F := Ideal) x0 x1 x2 x3 x4 x5 x6 x7 x8 x9 x10 x11 x12 x13 x14 x15 x16 x17 x18 x19 (ix2 d o)
      = refConv (landOf 50000 x3) (rowOf 200000 (by decide) x2) XP XU
          (fun i j => x17 (ix2 i j)) (fun j => x19 (ix1 j)) (fun i j => x18 (ix2 i j)) d o := by
  have el : ∀ k, lidx_main_v93 (ix2 d o) k = ix2 d k := fun k => funext fun a => by
    match a with | ⟨0, _⟩ => rfl | ⟨1, _⟩ => rfl
  have er : ∀ k, ridx_main_v93 (ix2 d o) k = ix2 k o := fun k => funext fun a => by
    match a with | ⟨0, _⟩ => rfl | ⟨1, _⟩ => rfl
  have ec : ∀ k : Fin 16, idx_main_v91 (ix2 d k) = ix2 d 0 := fun k => funext fun a => by
    match a with | ⟨0, _⟩ => rfl | ⟨1, _⟩ => rfl
  have eb : idx_main_v94 (idx_main_v95 (ix2 d o)) = ix1 o := funext fun a => by
    match a with | ⟨0, _⟩ => rfl
  have el' : ∀ k, lidx_main_v97 (ix2 d o) k = ix2 d k := fun k => funext fun a => by
    match a with | ⟨0, _⟩ => rfl | ⟨1, _⟩ => rfl
  have er' : ∀ k, ridx_main_v97 (ix2 d o) k = ix2 k o := fun k => funext fun a => by
    match a with | ⟨0, _⟩ => rfl | ⟨1, _⟩ => rfl
  rw [val_main_v98_apply, val_main_v96_apply, val_main_v93_apply, val_main_v95_apply, val_main_v94_apply,
    val_main_v97_apply, eb, Ideal.addf_def, Ideal.addf_def]
  unfold refConv
  refine congrArg₂ (· + ·) (congrArg₂ (· + ·) (Finset.sum_congr rfl fun k _ => ?_) rfl) (Finset.sum_congr rfl fun k _ => ?_)
  · rw [el, er, val_main_v92_apply, val_main_v91_apply, ec, val_main_v90_apply, val_main_v89_apply,
      val_main_cst_21_apply, sum_v84 (hP := hP), cnt_v88, Ideal.ofBits_def, ofBits_one, Ideal.hostDivf_def,
      Ideal.maximumf_def]
  · rw [el', er', hU]

/-! ## Layer 2, edges `R : U → P` -/

theorem wrap_v103 (e : Fin 2000000) :
    val_main_v103 (F := Ideal) x4 (ix1 e) = wrapIdx (BitVec.ofNat 32 50000) (x4 (ix1 e)) := by
  rw [val_main_v103_apply, val_main_v100_apply, val_main_v102_apply, val_main_v99_apply, val_main_v101_apply,
    val_main_c_22_apply, val_main_c_23_apply]
  rfl

theorem sum_v108 (XU : Fin 50000 → Fin 16 → EReal)
    (hU : ∀ i j, val_main_v74 (F := Ideal) x0 x1 x2 x3 x8 x9 x10 (ix2 i j) = XU i j)
    (d : Fin 200000) (k : Fin 16) :
    val_main_v108 (F := Ideal) x0 x1 x2 x3 x4 x5 x8 x9 x10 (ix2 d k)
      = segSum (landOf 200000 x5) (fun e f => XU (rowOf 50000 (by decide) x4 e) f) d k := by
  unfold val_main_v108 val_main_v105 val_main_v107 val_main_v104
  exact segSum_read (n := 200000) (F := 16) (m := 50000) (by decide)
    Gen.scatter_S200000x16_S2000000x1_S2000000x16_1_0_0_1_wf Gen.gather_S50000x16_S2000000x1_S2000000x16_1_0_n_n_0_1_116_wf
    (val_main_v106 (F := Ideal)) (fun i => by rw [val_main_v106_apply, val_main_cst_24_apply, Ideal.ofBits_def, ofBits_zero])
    (val_main_v74 (F := Ideal) x0 x1 x2 x3 x8 x9 x10) XU hU
    (val_main_v103 (F := Ideal) x4) x4 x5 (wrap_v103 x4) d k

theorem cnt_v112 (d : Fin 200000) :
    val_main_v112 (F := Ideal) x5 (ix2 d 0) = segCnt (landOf 200000 x5) d := by
  unfold val_main_v112 val_main_v111
  exact segCnt_read (n := 200000) Gen.scatter_S200000x1_S2000000x1_S2000000x1_1_0_0_1_wf
    (val_main_v110 (F := Ideal)) (fun i => by rw [val_main_v110_apply, val_main_cst_26_apply, Ideal.ofBits_def, ofBits_zero])
    (val_main_v109 (F := Ideal)) (fun i => by rw [val_main_v109_apply, val_main_cst_25_apply, Ideal.ofBits_def, ofBits_one])
    x5 d

theorem conv_v122 (XP : Fin 200000 → Fin 16 → EReal) (XU : Fin 50000 → Fin 16 → EReal)
    (hP : ∀ i j, val_main_v73 (F := Ideal) x0 x1 x4 x5 x6 x7 x11 x12 x13 x14 x15 x16 (ix2 i j) = XP i j)
    (hU : ∀ i j, val_main_v74 (F := Ideal) x0 x1 x2 x3 x8 x9 x10 (ix2 i j) = XU i j)
    (d : Fin 200000) (o : Fin 16) :
    val_main_v122 (F := Ideal) x0 x1 x2 x3 x4 x5 x6 x7 x8 x9 x10 x11 x12 x13 x14 x15 x16 x20 x21 x22 (ix2 d o)
      = refConv (landOf 200000 x5) (rowOf 50000 (by decide) x4) XU XP
          (fun i j => x20 (ix2 i j)) (fun j => x22 (ix1 j)) (fun i j => x21 (ix2 i j)) d o := by
  have el : ∀ k, lidx_main_v117 (ix2 d o) k = ix2 d k := fun k => funext fun a => by
    match a with | ⟨0, _⟩ => rfl | ⟨1, _⟩ => rfl
  have er : ∀ k, ridx_main_v117 (ix2 d o) k = ix2 k o := fun k => funext fun a => by
    match a with | ⟨0, _⟩ => rfl | ⟨1, _⟩ => rfl
  have ec : ∀ k : Fin 16, idx_main_v115 (ix2 d k) = ix2 d 0 := fun k => funext fun a => by
    match a with | ⟨0, _⟩ => rfl | ⟨1, _⟩ => rfl
  have eb : idx_main_v118 (idx_main_v119 (ix2 d o)) = ix1 o := funext fun a => by
    match a with | ⟨0, _⟩ => rfl
  have el' : ∀ k, lidx_main_v121 (ix2 d o) k = ix2 d k := fun k => funext fun a => by
    match a with | ⟨0, _⟩ => rfl | ⟨1, _⟩ => rfl
  have er' : ∀ k, ridx_main_v121 (ix2 d o) k = ix2 k o := fun k => funext fun a => by
    match a with | ⟨0, _⟩ => rfl | ⟨1, _⟩ => rfl
  rw [val_main_v122_apply, val_main_v120_apply, val_main_v117_apply, val_main_v119_apply, val_main_v118_apply,
    val_main_v121_apply, eb, Ideal.addf_def, Ideal.addf_def]
  unfold refConv
  refine congrArg₂ (· + ·) (congrArg₂ (· + ·) (Finset.sum_congr rfl fun k _ => ?_) rfl) (Finset.sum_congr rfl fun k _ => ?_)
  · rw [el, er, val_main_v116_apply, val_main_v115_apply, ec, val_main_v114_apply, val_main_v113_apply,
      val_main_cst_27_apply, sum_v108 (hU := hU), cnt_v112, Ideal.ofBits_def, ofBits_one, Ideal.hostDivf_def,
      Ideal.maximumf_def]
  · rw [el', er', hP]

/-! ## Layer 2, edges `C : P → P` -/

theorem wrap_v127 (e : Fin 2000000) :
    val_main_v127 (F := Ideal) x6 (ix1 e) = wrapIdx (BitVec.ofNat 32 200000) (x6 (ix1 e)) := by
  rw [val_main_v127_apply, val_main_v124_apply, val_main_v126_apply, val_main_v123_apply, val_main_v125_apply,
    val_main_c_28_apply, val_main_c_29_apply]
  rfl

theorem sum_v132 (XP : Fin 200000 → Fin 16 → EReal)
    (hP : ∀ i j, val_main_v73 (F := Ideal) x0 x1 x4 x5 x6 x7 x11 x12 x13 x14 x15 x16 (ix2 i j) = XP i j)
    (d : Fin 200000) (k : Fin 16) :
    val_main_v132 (F := Ideal) x0 x1 x4 x5 x6 x7 x11 x12 x13 x14 x15 x16 (ix2 d k)
      = segSum (landOf 200000 x7) (fun e f => XP (rowOf 200000 (by decide) x6 e) f) d k := by
  unfold val_main_v132 val_main_v129 val_main_v131 val_main_v128
  exact segSum_read (n := 200000) (F := 16) (m := 200000) (by decide)
    Gen.scatter_S200000x16_S2000000x1_S2000000x16_1_0_0_1_wf Gen.gather_S200000x16_S2000000x1_S2000000x16_1_0_n_n_0_1_116_wf
    (val_main_v130 (F := Ideal)) (fun i => by rw [val_main_v130_apply, val_main_cst_30_apply, Ideal.ofBits_def, ofBits_zero])
    (val_main_v73 (F := Ideal) x0 x1 x4 x5 x6 x7 x11 x12 x13 x14 x15 x16) XP hP
    (val_main_v127 (F := Ideal) x6) x6 x7 (wrap_v127 x6) d k

theorem cnt_v136 (d : Fin 200000) :
    val_main_v136 (F := Ideal) x7 (ix2 d 0) = segCnt (landOf 200000 x7) d := by
  unfold val_main_v136 val_main_v135
  exact segCnt_read (n := 200000) Gen.scatter_S200000x1_S2000000x1_S2000000x1_1_0_0_1_wf
    (val_main_v134 (F := Ideal)) (fun i => by rw [val_main_v134_apply, val_main_cst_32_apply, Ideal.ofBits_def, ofBits_zero])
    (val_main_v133 (F := Ideal)) (fun i => by rw [val_main_v133_apply, val_main_cst_31_apply, Ideal.ofBits_def, ofBits_one])
    x7 d

theorem conv_v146 (XP : Fin 200000 → Fin 16 → EReal)
    (hP : ∀ i j, val_main_v73 (F := Ideal) x0 x1 x4 x5 x6 x7 x11 x12 x13 x14 x15 x16 (ix2 i j) = XP i j)
    (d : Fin 200000) (o : Fin 16) :
    val_main_v146 (F := Ideal) x0 x1 x4 x5 x6 x7 x11 x12 x13 x14 x15 x16 x23 x24 x25 (ix2 d o)
      = refConv (landOf 200000 x7) (rowOf 200000 (by decide) x6) XP XP
          (fun i j => x23 (ix2 i j)) (fun j => x25 (ix1 j)) (fun i j => x24 (ix2 i j)) d o := by
  have el : ∀ k, lidx_main_v141 (ix2 d o) k = ix2 d k := fun k => funext fun a => by
    match a with | ⟨0, _⟩ => rfl | ⟨1, _⟩ => rfl
  have er : ∀ k, ridx_main_v141 (ix2 d o) k = ix2 k o := fun k => funext fun a => by
    match a with | ⟨0, _⟩ => rfl | ⟨1, _⟩ => rfl
  have ec : ∀ k : Fin 16, idx_main_v139 (ix2 d k) = ix2 d 0 := fun k => funext fun a => by
    match a with | ⟨0, _⟩ => rfl | ⟨1, _⟩ => rfl
  have eb : idx_main_v142 (idx_main_v143 (ix2 d o)) = ix1 o := funext fun a => by
    match a with | ⟨0, _⟩ => rfl
  have el' : ∀ k, lidx_main_v145 (ix2 d o) k = ix2 d k := fun k => funext fun a => by
    match a with | ⟨0, _⟩ => rfl | ⟨1, _⟩ => rfl
  have er' : ∀ k, ridx_main_v145 (ix2 d o) k = ix2 k o := fun k => funext fun a => by
    match a with | ⟨0, _⟩ => rfl | ⟨1, _⟩ => rfl
  rw [val_main_v146_apply, val_main_v144_apply, val_main_v141_apply, val_main_v143_apply, val_main_v142_apply,
    val_main_v145_apply, eb, Ideal.addf_def, Ideal.addf_def]
  unfold refConv
  refine congrArg₂ (· + ·) (congrArg₂ (· + ·) (Finset.sum_congr rfl fun k _ => ?_) rfl) (Finset.sum_congr rfl fun k _ => ?_)
  · rw [el, er, val_main_v140_apply, val_main_v139_apply, ec, val_main_v138_apply, val_main_v137_apply,
      val_main_cst_33_apply, sum_v132 (hP := hP), cnt_v136, Ideal.ofBits_def, ofBits_one, Ideal.hostDivf_def,
      Ideal.maximumf_def]
  · rw [el', er', hP]

/-! ## The two results -/

/-- Result 0: the `P` nodes after the second layer. -/
theorem out0_eq (d : Fin 200000) (o : Fin 16) :
    val_main_v148 (F := Ideal) x0 x1 x2 x3 x4 x5 x6 x7 x8 x9 x10 x11 x12 x13 x14 x15 x16 x20 x21 x22 x23 x24 x25 (ix2 d o)
      = (NET).refP2 d o := by
  have hP := P1_net x0 x1 x2 x3 x4 x5 x6 x7 x8 x9 x10 x11 x12 x13 x14 x15 x16 x17 x18 x19 x20 x21 x22 x23 x24 x25
  have hU := U1_net x0 x1 x2 x3 x4 x5 x6 x7 x8 x9 x10 x11 x12 x13 x14 x15 x16 x17 x18 x19 x20 x21 x22 x23 x24 x25
  rw [val_main_v148_apply, val_main_call2_v0_apply, val_main_call2_cst_apply, val_main_v147_apply,
    conv_v122 (hP := hP) (hU := hU), conv_v146 (hP := hP), Ideal.ofBits_def, ofBits_zero, Ideal.maximumf_def,
    Ideal.addf_def]
  rfl

/-- Result 1: the `U` nodes after the second layer. -/
theorem out1_eq (d : Fin 50000) (o : Fin 16) :
    val_main_v149 (F := Ideal) x0 x1 x2 x3 x4 x5 x6 x7 x8 x9 x10 x11 x12 x13 x14 x15 x16 x17 x18 x19 (ix2 d o)
      = (NET).refU2 d o := by
  have hP := P1_net x0 x1 x2 x3 x4 x5 x6 x7 x8 x9 x10 x11 x12 x13 x14 x15 x16 x17 x18 x19 x20 x21 x22 x23 x24 x25
  have hU := U1_net x0 x1 x2 x3 x4 x5 x6 x7 x8 x9 x10 x11 x12 x13 x14 x15 x16 x17 x18 x19 x20 x21 x22 x23 x24 x25
  rw [val_main_v149_apply, val_main_call3_v0_apply, val_main_call3_cst_apply, conv_v98 (hP := hP) (hU := hU),
    Ideal.ofBits_def, ofBits_zero, Ideal.maximumf_def]
  rfl

end Cert.ReferenceIdeal.RefValue

end
-- ==== Proof.lean ====
/-
  A two-layer graph network over two node types and three edge types, each layer a mean-aggregation convolution per
  edge type followed by `max · 0`: the kernel program against its plain reference, at the exact instance.

  The reference computes, per edge type, the mean of the gathered source rows (their sum over the edges landing on a
  node, divided by the floored count), multiplies it by the left weight, and adds the bias and the destination's own
  features times the right weight. The kernel pushes the left weight through the aggregation: it first multiplies
  every source row by the left weight (a dense product in a kernel launch), sums the 16-wide products over the landing
  edges on the host, scales by the reciprocal of the floored count, and closes each layer in a launch that adds the
  destination's dense product (for the node type fed by two edge types: with the two right weights and the two
  biases added beforehand) and applies `max · 0`.

  Both programs read the integer edge arrays the same way: a source index is normalized and clamped into range, an
  edge whose destination index is out of range is dropped; so the set of edges landing on a node is the same on
  both sides whatever the arrays hold. With every float input finite, both sides are real-valued, and on the reals
  the two forms differ by exchanging a finite sum with a fixed linear map, by `s / c = s · (1 / c)`, and by
  distributing a dense product over a sum of two matrices.

  The kernel program's run is followed boundary by boundary through its eight launches; the reference's run and its
  operations are read one at a time; the two results are then the same functions of the argument arrays.
-/
import proofs.«106252_j16209206575619_2_alg».proof.Defs
import proofs.«106252_j16209206575619_2_alg».proof.Proof.Gen.Kernel
import proofs.«106252_j16209206575619_2_alg».proof.Proof.Gen.Kernel.Skeleton
import proofs.«106252_j16209206575619_2_alg».proof.Proof.Gen.Kernel.Launch
import proofs.«106252_j16209206575619_2_alg».proof.Proof.Gen.Kernel.Points
import proofs.«106252_j16209206575619_2_alg».proof.Proof.Gen.Kernel.Frame
import proofs.«106252_j16209206575619_2_alg».proof.Proof.Gen.KernelIdeal
import proofs.«106252_j16209206575619_2_alg».proof.Proof.Gen.KernelIdeal.Skeleton
import proofs.«106252_j16209206575619_2_alg».proof.Proof.Gen.KernelIdeal.Launch
import proofs.«106252_j16209206575619_2_alg».proof.Proof.Gen.KernelIdeal.Points
import proofs.«106252_j16209206575619_2_alg».proof.Proof.Gen.KernelIdeal.Frame
import proofs.«106252_j16209206575619_2_alg».proof.Proof.Gen.ReferenceIdeal
import proofs.«106252_j16209206575619_2_alg».proof.Proof.Gen.ReferenceIdeal.Run
import proofs.«106252_j16209206575619_2_alg».proof.Proof.Gen.ReferenceIdeal.Read
import proofs.«106252_j16209206575619_2_alg».proof.Proof.Gen.Pre_finite_inputs
import proofs.«106252_j16209206575619_2_alg».proof.Proof.Algebra
import proofs.«106252_j16209206575619_2_alg».proof.Proof.Finite
import proofs.«106252_j16209206575619_2_alg».proof.Proof.KerValue
import proofs.«106252_j16209206575619_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel program as printed runs and leaves its arguments alone. -/
theorem frame_k : Cert.frame_Kernel := fun m ρ _ => Cert.Kernel.Gen.frame m ρ

/-- So does its reading at the exact instance. -/
theorem frame_ki : Cert.frame_KernelIdeal := fun m ρ _ => Cert.KernelIdeal.Gen.frame m ρ

/-- The reference runs and leaves its arguments alone: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs run, and their results are the same two arrays: the
    kernel's results are the matrices of the network's kernel form, the reference's those of its reference form, and
    on finite inputs the two forms agree. -/
theorem algebraic : Cert.algebraic_KernelIdeal_ReferenceIdeal := by
  intro m ρ m' ρ' hpre hagree
  refine ⟨fun c => Cert.KernelIdeal.Gen.W13 m ρ c (Proc.devRef .tc Cert.KernelIdeal.main_v114),
    fun c => Cert.KernelIdeal.Gen.W13 m ρ c (Proc.devRef .tc Cert.KernelIdeal.main_v110),
    Cert.KernelIdeal.KerRun.run_results m ρ, ?_⟩
  refine (θ_run Cert.ReferenceIdeal.defs _ _).mono
    (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21, h22, h23, h24, h25⟩ := hagree c
    rw [Cert.ReferenceIdeal.Read.val_main_v148_eq, h0, h1, h2, h3, h4, h5, h6, h7, h8, h9, h10, h11, h12, h13, h14, h15, h16, h20, h21, h22, h23, h24, h25]
    refine Eq.trans ?_ (Cert.KernelIdeal.KerValue.P2 m ρ c).symm
    refine Cert.KernelIdeal.KerValue.eq_mat _ _ fun d o => ?_
    refine (Cert.ReferenceIdeal.RefValue.out0_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25)) d o).trans ?_
    exact (congrFun (congrFun (Cert.Sage.net_eq _ (Cert.Finite.finite_of_pre m hpre c)).1 d) o).symm
  · obtain ⟨h0, h1, h2, h3, h4, h5, h6, h7, h8, h9, h10, h11, h12, h13, h14, h15, h16, h17, h18, h19, h20, h21, h22, h23, h24, h25⟩ := hagree c
    rw [Cert.ReferenceIdeal.Read.val_main_v149_eq, h0, h1, h2, h3, h4, h5, h6, h7, h8, h9, h10, h11, h12, h13, h14, h15, h16, h17, h18, h19]
    refine Eq.trans ?_ (Cert.KernelIdeal.KerValue.U2_final m ρ c).symm
    refine Cert.KernelIdeal.KerValue.eq_mat _ _ fun d o => ?_
    refine (Cert.ReferenceIdeal.RefValue.out1_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25)) d o).trans ?_
    exact (congrFun (congrFun (Cert.Sage.net_eq _ (Cert.Finite.finite_of_pre m hpre c)).2 d) o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
